-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S100000x128 : Shape := ⟨2, ![100000, 128]⟩
abbrev S1000x128 : Shape := ⟨2, ![1000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg1 : IVec S16384 32) (main_arg2 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg1 main_v16
  let main_c_6 : IVec S_ 32 := constantI S_ 32 999#32
  let main_v18 : IVec S16384 32 := broadcastInDim S16384 ![] bcast_S_S16384 main_c_6
  let main_v19 : IVec S16384 1 := cmpi .sle main_arg1 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  let main_c_8 : IVec S_ 32 := constantI S_ 32 0#32
  let main_v23 : IVec S16384 32 := broadcastInDim S16384 ![] bcast_S_S16384 main_c_8
  let main_v24 : IVec S16384 1 := cmpi .sge main_arg2 main_v23
  let main_c_9 : IVec S_ 32 := constantI S_ 32 99999#32
  let main_v25 : IVec S16384 32 := broadcastInDim S16384 ![] bcast_S_S16384 main_c_9
  let main_v26 : IVec S16384 1 := cmpi .sle main_arg2 main_v25
  let main_v27 : IVec S16384 1 := andi main_v24 main_v26
  let main_c_10 : IVec S_ 1 := constantI S_ 1 1#1
  let main_v28 : IVec S_ 1 := (fun x v => Host.reduce IntOp.andi x v reducesTo_S16384_S_d0 h_S_) main_v27 main_c_10
  let main_v29 : IVec S_ 1 := andi main_v22 main_v28
  main_v29

def fn {F : FTy → Type} [FloatOps F] (main_arg0 : IVec S16384 32) (main_arg1 : IVec S16384 32) (main_arg2 : IVec S16384 32) (main_arg3 : FVec F S100000x128 .f32) (main_arg4 : FVec F S1000x128 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000x128 .f32 := Host.absf main_arg4
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg0 main_v9
  let main_c_3 : IVec S_ 32 := constantI S_ 32 99999#32
  let main_v11 : IVec S16384 32 := broadcastInDim S16384 ![] bcast_S_S16384 main_c_3
  let main_v12 : IVec S16384 1 := cmpi .sle main_arg0 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg1 main_arg2 main_v15 main_c_5
-- ==== Kernel.lean ====
abbrev S16384 : Shape := ⟨1, ![16384]⟩
abbrev S100000x128 : Shape := ⟨2, ![100000, 128]⟩
abbrev S1000x128 : Shape := ⟨2, ![1000, 128]⟩
abbrev S16384x128 : Shape := ⟨2, ![16384, 128]⟩
abbrev S1536 : Shape := ⟨1, ![1536]⟩
abbrev S128x128 : Shape := ⟨2, ![128, 128]⟩
abbrev S_ : Shape := ⟨0, ![]⟩
abbrev S512 : Shape := ⟨1, ![512]⟩
abbrev S128 : Shape := ⟨1, ![128]⟩

abbrev nBuf : Table → Nat
  | .hbm => 8
  | .local .scVector .vmem => 5
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S100000x128, .f32⟩
  | .hbm, ⟨4, _⟩ => ⟨S1000x128, .f32⟩
  | .hbm, ⟨5, _⟩ => ⟨S16384x128, .f32⟩
  | .hbm, ⟨6, _⟩ => ⟨S16384x128, .f32⟩
  | .hbm, ⟨7, _⟩ => ⟨S16384x128, .f32⟩
  | .local .scVector .vmem, ⟨0, _⟩ => ⟨S1536, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 5, rfl⟩
abbrev main_v0_1_scv : Ref sig .scVector := ⟨.hbm, 6, rfl⟩
abbrev main_v0_2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  let c0_i32_23 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S1536_S512_0 : ∀ a, (![0] : Fin 1 → Nat) a + S512.size a ≤ S1536.size a
  inb_S1536_S512_512 : ∀ a, (![512] : Fin 1 → Nat) a + S512.size a ≤ S1536.size a
  inb_S1536_S512_1024 : ∀ a, (![1024] : Fin 1 → Nat) a + S512.size a ≤ S1536.size a
  inb_S1536_S128_0 : ∀ a, (![0] : Fin 1 → Nat) a + S128.size a ≤ S1536.size a
  inb_S100000x128_S100000x128_0_0 : ∀ a, (![0, 0] : Fin 2 → Nat) a + S100000x128.size a ≤ S100000x128.size a
  gathers_S100000x128_S128x128 : S100000x128.Gathers 0 S128x128
  inb_S1536_S128_128 : ∀ a, (![128] : Fin 1 → Nat) a + S128.size a ≤ S1536.size a
  inb_S1536_S128_256 : ∀ a, (![256] : Fin 1 → Nat) a + S128.size a ≤ S1536.size a
  inb_S1536_S128_384 : ∀ a, (![384] : Fin 1 → Nat) a + S128.size a ≤ S1536.size a
  inb_S1536_S128_512 : ∀ a, (![512] : Fin 1 → Nat) a + S128.size a ≤ S1536.size a
  inb_S1000x128_S1000x128_0_0 : ∀ a, (![0, 0] : Fin 2 → Nat) a + S1000x128.size a ≤ S1000x128.size a
  gathers_S1000x128_S128x128 : S1000x128.Gathers 0 S128x128
  inb_S1536_S128_640 : ∀ a, (![640] : Fin 1 → Nat) a + S128.size a ≤ S1536.size a
  inb_S1536_S128_768 : ∀ a, (![768] : Fin 1 → Nat) a + S128.size a ≤ S1536.size a
  inb_S1536_S128_896 : ∀ a, (![896] : Fin 1 → Nat) a + S128.size a ≤ S1536.size a
  inb_S1536_S128_1024 : ∀ a, (![1024] : Fin 1 → Nat) a + S128.size a ≤ S1536.size a
  inb_S1536_S128_1152 : ∀ a, (![1152] : Fin 1 → Nat) a + S128.size a ≤ S1536.size a
  inb_S1536_S128_1280 : ∀ a, (![1280] : Fin 1 → Nat) a + S128.size a ≤ S1536.size a
  inb_S1536_S128_1408 : ∀ a, (![1408] : Fin 1 → Nat) a + S128.size a ≤ S1536.size a
  hcc0_scratch5 : 0 + S_.numel ≤ 11
  hcc0_scratch6 : 1 + S_.numel ≤ 11
  hcc0_scratch7 : 2 + S_.numel ≤ 11
  hcc0_scratch8 : 3 + S_.numel ≤ 11
  hcc0_scratch9 : 4 + S_.numel ≤ 11
  hcc0_scratch10 : 5 + S_.numel ≤ 11
  hcc0_scratch11 : 6 + S_.numel ≤ 11
  hcc0_scratch12 : 7 + S_.numel ≤ 11
  hcc0_scoped0 : 8 + S_.numel ≤ 11
  hcc0_scoped1 : 9 + S_.numel ≤ 11
  hcc0_scoped2 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_off2_inb : ∀ i : grid0.Coords, ∀ (r : Fin 4), ∀ a, (k0_off2 i (BitVec.ofNat 32 (128 * r.val))) a + S128x128.size a ≤ S16384x128.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scratch11 : DmaSems sig S_ := SemArray.consecutive 6 S_ hcc0_scratch11
abbrev cc0_scratch12 : DmaSems sig S_ := SemArray.consecutive 7 S_ hcc0_scratch12
abbrev cc0_scoped0 : DmaSems sig S_ := SemArray.consecutive 8 S_ hcc0_scoped0
abbrev cc0_scoped1 : DmaSems sig S_ := SemArray.consecutive 9 S_ hcc0_scoped1
abbrev cc0_scoped2 : DmaSems sig S_ := SemArray.consecutive 10 S_ hcc0_scoped2

class Facts : Prop extends Facts₀ where

variable [Facts]
-- ==== ReferenceIdeal.lean ====
abbrev S16384 : Shape := ⟨1, ![16384]⟩
abbrev S100000x128 : Shape := ⟨2, ![100000, 128]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

abbrev nBuf : Space → Nat
  | .hbm => 74
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384, .i32⟩
  | .hbm, ⟨3, _⟩ => ⟨S100000x128, .f32⟩
  | .hbm, ⟨4, _⟩ => ⟨S1000x128, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x128, .f32⟩
  | .hbm, ⟨24, _⟩ => ⟨S16384x128, .i1⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x128, .f32⟩
  | .hbm, ⟨47, _⟩ => ⟨S16384x128, .i1⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S1x1, .i32⟩
  | .hbm, ⟨64, _⟩ => ⟨S16384x1, .i32⟩
  | .hbm, ⟨65, _⟩ => ⟨S16384x1, .i1⟩
  | .hbm, ⟨66, _⟩ => ⟨S16384x1, .i1⟩
  | .hbm, ⟨67, _⟩ => ⟨S_, .i1⟩
  | .hbm, ⟨68, _⟩ => ⟨S16384, .i1⟩
  | .hbm, ⟨69, _⟩ => ⟨S16384x128, .f32⟩
  | .hbm, ⟨70, _⟩ => ⟨S16384x128, .i1⟩
  | .hbm, ⟨71, _⟩ => ⟨S_, .f32⟩
  | .hbm, ⟨72, _⟩ => ⟨S16384x128, .f32⟩
  | .hbm, ⟨73, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  gather_S100000x128_S16384x1_S16384x128_1_0_n_n_0_1_1128_wf : GatherDims.WF S100000x128 S16384x1 S16384x128 [1] [0] [] [0] [] 1 ![1, 128]
  gather_S1000x128_S16384x1_S16384x128_1_0_n_n_0_1_1128_wf : GatherDims.WF S1000x128 S16384x1 S16384x128 [1] [0] [] [0] [] 1 ![1, 128]

variable [Facts₀]

def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def gather_S1000x128_S16384x1_S16384x128_1_0_n_n_0_1_1128 : GatherDims S1000x128 S16384x1 S16384x128 where
  offsetDims := [1]
  collapsedSliceDims := [0]
  operandBatchingDims := []
  startIndicesBatchingDims := []
  startIndexMap := [0]
  indexVectorDim := 1
  sliceSizes := ![1, 128]
  wf := gather_S1000x128_S16384x1_S16384x128_1_0_n_n_0_1_1128_wf

class Facts : Prop extends Facts₀ where

variable [Facts]
-- ==== Proof.Spec.lean ====
/-
  What both programs compute, as one function of the argument arrays. An embedding lookup: row `r` of the result is the
  row of the table that the `r`-th index word names. The word is read as a natural number and reduced modulo the table's
  height, which makes the function total; on a word below the height it is the row the word itself names, and that is
  the only case the programs meet (the precondition bounds every index word by its table's height).
-/
import Idealize.ShloMosaic.Lib.ValueIdx

noncomputable section

namespace Cert.Lookup

open Idealize.ShloMosaic Idealize.ShloMosaic.ValueIdx

/-- The table row an index word names: the word as a natural number, modulo the height `n`. -/
def rowOf (n : ℕ) [NeZero n] (w : BitVec 32) : Fin n := ⟨w.toNat % n, Nat.mod_lt _ (NeZero.pos n)⟩

/-- A word below the height names the row of its own value. -/
theorem rowOf_val {n : ℕ} [NeZero n] (w : BitVec 32) (h : w.toNat < n) : (rowOf n w).val = w.toNat :=
  Nat.mod_eq_of_lt h

/-- The lookup: entry `(r, k)` of the result is entry `(rowOf n (idx r), k)` of the table. -/
def lookup {α : Type} {n : ℕ} [NeZero n] (tbl : (⟨2, ![n, 128]⟩ : Shape).Idx → α) (idx : (⟨1, ![16384]⟩ : Shape).Idx → BitVec 32) :
    (⟨2, ![16384, 128]⟩ : Shape).Idx → α :=
  fun j => tbl (ix2 (rowOf n (idx (ix1 (j 0)))) (j 1))

theorem lookup_apply {α : Type} {n : ℕ} [NeZero n] (tbl : (⟨2, ![n, 128]⟩ : Shape).Idx → α) (idx : (⟨1, ![16384]⟩ : Shape).Idx → BitVec 32)
    (r : Fin 16384) (k : Fin 128) : lookup tbl idx (ix2 r k) = tbl (ix2 (rowOf n (idx (ix1 r))) k) := rfl

end Cert.Lookup

end
-- ==== Proof.KernelCommon.lean ====
/-
  The lookup kernel as the SparseCore launch theorem sees it. Thirty-two vector subcores (two SparseCores of sixteen) each
  take 512 consecutive rows of the batch: subcore `s` of SparseCore `c` takes rows `1024 s + 512 c …`. It copies its 512
  words of each of the three index arrays into its index scratch, and then, 128 rows at a time, gathers the rows the
  words name out of the entity table (for the head and tail indices) or the relation table into one of four row buffers
  and copies the buffer out to the same 128 rows of the matching result array. This module fixes the names: the arrays,
  the pieces of them a subcore works on, and what the handshakes of the launch carry.
-/
import proofs.«203265_g75239237091449_cont_9to1_m_620_5_alg».proof.Proof.Gen.Kernel
import proofs.«203265_g75239237091449_cont_9to1_m_620_5_alg».proof.Proof.Gen.Kernel.Skeleton
import proofs.«203265_g75239237091449_cont_9to1_m_620_5_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev hLoc (d : Dev nD) : Loc nD τ sig := (SparseCore.T d).loc main_arg0
abbrev rLoc (d : Dev nD) : Loc nD τ sig := (SparseCore.T d).loc main_arg1
abbrev tLoc (d : Dev nD) : Loc nD τ sig := (SparseCore.T d).loc main_arg2
abbrev eLoc (d : Dev nD) : Loc nD τ sig := (SparseCore.T d).loc main_arg3
abbrev lLoc (d : Dev nD) : Loc nD τ sig := (SparseCore.T d).loc main_arg4
abbrev aLoc (d : Dev nD) : Loc nD τ sig := (SparseCore.T d).loc main_v0_0
abbrev bLoc (d : Dev nD) : Loc nD τ sig := (SparseCore.T d).loc main_v0_1
abbrev cLoc (d : Dev nD) : Loc nD τ sig := (SparseCore.T d).loc main_v0_2

abbrev hV : Memref sig .scVector .hbm S16384 .i32 := Memref.whole main_arg0_scv
abbrev rV : Memref sig .scVector .hbm S16384 .i32 := Memref.whole main_arg1_scv
abbrev tV : Memref sig .scVector .hbm S16384 .i32 := Memref.whole main_arg2_scv
abbrev eV : Memref sig .scVector .hbm S100000x128 .f32 := Memref.whole main_arg3_scv
abbrev lV : Memref sig .scVector .hbm S1000x128 .f32 := Memref.whole main_arg4_scv
abbrev aV : Memref sig .scVector .hbm S16384x128 .f32 := Memref.whole main_v0_0_scv
abbrev bV : Memref sig .scVector .hbm S16384x128 .f32 := Memref.whole main_v0_1_scv
abbrev cV : Memref sig .scVector .hbm S16384x128 .f32 := Memref.whole main_v0_2_scv
abbrev xV : Memref sig .scVector .vmem S1536 .i32 := Memref.whole cc0_scratch0
abbrev y1V : Memref sig .scVector .vmem S128x128 .f32 := Memref.whole cc0_scratch1
abbrev y2V : Memref sig .scVector .vmem S128x128 .f32 := Memref.whole cc0_scratch2
abbrev y3V : Memref sig .scVector .vmem S128x128 .f32 := Memref.whole cc0_scratch3
abbrev y4V : Memref sig .scVector .vmem S128x128 .f32 := Memref.whole cc0_scratch4

/-! ## A subcore's pieces, in the program's own spelling -/

abbrev cK (L : grid0.Coords) : Fin τ.nSC := (L 0).castLE hcore0
abbrev jK (L : grid0.Coords) : Fin τ.nSub := (L 1).castLE hsub0

/-- The 512 index words of subcore `L`, as a window of an index array. -/
abbrev idxRect (L : grid0.Coords) : Rect S16384 := Rect.unit (s := S16384) (k0_off1 L) S512.size (k0_off1_inb L)
abbrev hWin (L : grid0.Coords) : Memref sig .scVector .hbm S512 .i32 := (hV).slice (idxRect L) (fun _ => rfl)
abbrev rWin (L : grid0.Coords) : Memref sig .scVector .hbm S512 .i32 := (rV).slice (idxRect L) (fun _ => rfl)
abbrev tWin (L : grid0.Coords) : Memref sig .scVector .hbm S512 .i32 := (tV).slice (idxRect L) (fun _ => rfl)

/-- Chunk `r` (128 rows) of subcore `L`'s 512 rows of a result array. -/
abbrev outRect (L : grid0.Coords) (r : Fin 4) : Rect S16384x128 :=
  Rect.unit (s := S16384x128) (k0_off2 L (BitVec.ofNat 32 (128 * r.val))) S128x128.size (k0_off2_inb L r)
abbrev aWin (L : grid0.Coords) (r : Fin 4) : Memref sig .scVector .hbm S128x128 .f32 := (aV).slice (outRect L r) (fun _ => rfl)
abbrev bWin (L : grid0.Coords) (r : Fin 4) : Memref sig .scVector .hbm S128x128 .f32 := (bV).slice (outRect L r) (fun _ => rfl)
abbrev cWin (L : grid0.Coords) (r : Fin 4) : Memref sig .scVector .hbm S128x128 .f32 := (cV).slice (outRect L r) (fun _ => rfl)

end Cert.Proof.Kernel

end
-- ==== Proof.KernelOwn.lean ====
/-
  A vector subcore's own storage, named: its eleven DMA semaphores (one per row buffer for the gathers, one per row buffer
  for the copies out, three for the index copies) and its five scratch buffers (the index scratch and the four row
  buffers), each set apart from the family the launch hands the subcore.
-/
import proofs.«203265_g75239237091449_cont_9to1_m_620_5_alg».proof.Proof.KernelCommon

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The subcore's semaphores -/

theorem reg_not_scoped : ∀ s : Sem sig, (SemLoc.reg s : SemLoc sig).isScoped .scVector = false := by decide
theorem dma_scoped : ∀ k : DmaSem sig, (SemLoc.dma k : SemLoc sig).isScoped .scVector = true := by decide

/-- The scoped cells of a vector subcore are its eleven DMA semaphores. -/
theorem ownCells_V (d : Dev nD) (c : Fin τ.nSC) (i : Fin τ.nSub) :
    (ownCells (V d c i) : Finset (GSem nD τ sig))
      = (Finset.univ : Finset (DmaSem sig)).map ⟨fun k => ((V d c i, SemLoc.dma k) : GSem nD τ sig), fun a b h => by simpa using h⟩ := by
  ext g
  rw [mem_ownCells, Finset.mem_map]
  constructor
  · rintro ⟨h1, hs⟩
    obtain ⟨thr, sl⟩ := g
    have h1' : thr = V d c i := h1
    subst h1'
    cases sl with
    | reg s =>
      have : (SemLoc.reg s : SemLoc sig).isScoped .scVector = true := hs
      rw [reg_not_scoped] at this; exact absurd this (by decide)
    | dma k => exact ⟨k, Finset.mem_univ _, rfl⟩
  · rintro ⟨k, -, rfl⟩; exact ⟨rfl, dma_scoped k⟩

/-- The semaphores at zero, one by one. -/
theorem ownSems0_V (d : Dev nD) (c : Fin τ.nSC) (i : Fin τ.nSub) :
    (ownSems0 (V d c i) : sProp 𝕄)
      = iprop(semVal (V d c i, SemLoc.dma 0) 0 ∗ semVal (V d c i, SemLoc.dma 1) 0 ∗ semVal (V d c i, SemLoc.dma 2) 0 ∗ semVal (V d c i, SemLoc.dma 3) 0
          ∗ semVal (V d c i, SemLoc.dma 4) 0 ∗ semVal (V d c i, SemLoc.dma 5) 0 ∗ semVal (V d c i, SemLoc.dma 6) 0 ∗ semVal (V d c i, SemLoc.dma 7) 0
          ∗ semVal (V d c i, SemLoc.dma 8) 0 ∗ semVal (V d c i, SemLoc.dma 9) 0 ∗ semVal (V d c i, SemLoc.dma 10) 0) := by
  unfold SparseCore.Cfg.ownSems0
  rw [ownCells_V, bigSep_map, show (Finset.univ : Finset (DmaSem sig)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's scratch buffers -/

theorem devRef_ne (c : Fin τ.nSC) (i : Fin τ.nSub) {a b : Ref sig .scVector} (h : a ≠ b) :
    (Proc.scVector c i).devRef a ≠ (Proc.scVector c i).devRef b := fun e => h (Proc.devRef_injective _ e)

/-- The five scratch buffers are among the subcore's own: they are them, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f)
          ∗ bigSep ((((((ownRefs (τ := τ) (.scVector c i)).erase ((Proc.scVector c i).devRef cc0_scratch0)).erase
              ((Proc.scVector c i).devRef cc0_scratch1)).erase ((Proc.scVector c i).devRef cc0_scratch2)).erase
              ((Proc.scVector c i).devRef cc0_scratch3)).erase ((Proc.scVector c i).devRef cc0_scratch4))
              fun b => iprop(∃ f, ((d, b) : Loc nD τ sig) ↦{fullShare} f)) := by
  unfold SparseCore.Cfg.ownBufs
  have m0 := SparseCore.Cfg.mem_ownRefs_of_owner (p := Proc.scVector c i) (b := (Proc.scVector c i).devRef cc0_scratch0) rfl
  have m1 := SparseCore.Cfg.mem_ownRefs_of_owner (p := Proc.scVector c i) (b := (Proc.scVector c i).devRef cc0_scratch1) rfl
  have m2 := SparseCore.Cfg.mem_ownRefs_of_owner (p := Proc.scVector c i) (b := (Proc.scVector c i).devRef cc0_scratch2) rfl
  have m3 := SparseCore.Cfg.mem_ownRefs_of_owner (p := Proc.scVector c i) (b := (Proc.scVector c i).devRef cc0_scratch3) rfl
  have m4 := SparseCore.Cfg.mem_ownRefs_of_owner (p := Proc.scVector c i) (b := (Proc.scVector c i).devRef cc0_scratch4) rfl
  refine (SparseCore.bigSep_erase' m0).trans ?_
  rw [SparseCore.bigSep_erase' (Finset.mem_erase.mpr ⟨devRef_ne c i (by decide), m1⟩),
    SparseCore.bigSep_erase' (Finset.mem_erase.mpr ⟨devRef_ne c i (by decide), Finset.mem_erase.mpr ⟨devRef_ne c i (by decide), m2⟩⟩),
    SparseCore.bigSep_erase' (Finset.mem_erase.mpr ⟨devRef_ne c i (by decide), Finset.mem_erase.mpr ⟨devRef_ne c i (by decide),
      Finset.mem_erase.mpr ⟨devRef_ne c i (by decide), m3⟩⟩⟩),
    SparseCore.bigSep_erase' (Finset.mem_erase.mpr ⟨devRef_ne c i (by decide), Finset.mem_erase.mpr ⟨devRef_ne c i (by decide),
      Finset.mem_erase.mpr ⟨devRef_ne c i (by decide), Finset.mem_erase.mpr ⟨devRef_ne c i (by decide), m4⟩⟩⟩⟩)]

end Cert.Proof.Kernel

end
-- ==== Proof.KernelSplit.lean ====
/-
  How the arrays divide among the subcores. The 16384 rows of the batch fall into thirty-two runs of 512, run
  `(c, i)` starting at row `1024 i + 512 c`; each run into four chunks of 128. The runs (and the chunks) are pairwise
  disjoint and cover the batch, so an array held whole is the same as its runs (or chunks) held side by side.
-/
import proofs.«203265_g75239237091449_cont_9to1_m_620_5_alg».proof.Proof.KernelCommon

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Coordinates -/

/-- The grid point of subcore `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev Lof (c : Fin ((K (F := F)).nCore 0)) (i : Fin ((K (F := F)).nSub 0)) : grid0.Coords := coordsV ⟨c.val, c.isLt⟩ ⟨i.val, i.isLt⟩

abbrev TI : Type := Fin ((K (F := F)).nCore 0) × Fin ((K (F := F)).nSub 0)

theorem off1_val (p : TI (F := F)) (a : Fin 1) : k0_off1 (Lof (F := F) p.1 p.2) a = 1024 * p.2.val + 512 * p.1.val := by
  rw [k0_off1_eq]; match a with | ⟨0, _⟩ => rfl

theorem off2_val0 (p : TI (F := F)) (r : Fin 4) :
    k0_off2 (Lof (F := F) p.1 p.2) (BitVec.ofNat 32 (128 * r.val)) 0 = 1024 * p.2.val + 512 * p.1.val + 128 * r.val := by
  rw [k0_off2_eq]; rfl
theorem off2_val1 (p : TI (F := F)) (r : Fin 4) :
    k0_off2 (Lof (F := F) p.1 p.2) (BitVec.ofNat 32 (128 * r.val)) 1 = 0 := by
  rw [k0_off2_eq]; rfl

/-! ## The runs of an index array -/

abbrev idxSet (p : TI (F := F)) : Finset S16384.Idx := (idxRect (Lof (F := F) p.1 p.2)).set

theorem idxSet_disjoint : ∀ p ∈ (Finset.univ : Finset (TI (F := F))), ∀ p' ∈ (Finset.univ : Finset (TI (F := F))), p ≠ p' →
    Disjoint (idxSet (F := F) p) (idxSet (F := F) p') := by
  intro p _ p' _ hne
  refine Rect.unit_disjoint (0 : Fin 1) ?_
  rw [off1_val, off1_val]
  have h1 : p.1.val < 2 := p.1.isLt
  have h1' : p'.1.val < 2 := p'.1.isLt
  have hne' : p.1.val ≠ p'.1.val ∨ p.2.val ≠ p'.2.val := by
    by_contra hc
    simp only [not_or, ne_eq, not_not] at hc
    exact hne (Prod.ext (Fin.ext hc.1) (Fin.ext hc.2))
  show _ + 512 ≤ _ ∨ _ + 512 ≤ _
  omega

theorem idxSet_cover : (Finset.univ : Finset (TI (F := F))).biUnion (idxSet (F := F)) = Finset.univ := by
  refine Finset.eq_univ_of_forall fun j => Finset.mem_biUnion.mpr ?_
  have hj : (j 0).val < 16384 := (j 0).isLt
  refine ⟨(⟨(j 0).val % 1024 / 512, by show _ < 2; omega⟩, ⟨(j 0).val / 1024, by show _ < 16; omega⟩), Finset.mem_univ _, ?_⟩
  rw [Rect.mem_set_unit]
  intro a
  obtain rfl : a = 0 := Subsingleton.elim _ _
  rw [off1_val]
  show _ ≤ (j 0).val ∧ (j 0).val < _ + 512
  constructor <;> simp only <;> omega

/-! ## The chunks of a result array -/

abbrev outSet (p : TI (F := F) × Fin 4) : Finset S16384x128.Idx := (outRect (Lof (F := F) p.1.1 p.1.2) p.2).set

theorem outSet_disjoint : ∀ p ∈ (Finset.univ : Finset (TI (F := F) × Fin 4)), ∀ p' ∈ (Finset.univ : Finset (TI (F := F) × Fin 4)), p ≠ p' →
    Disjoint (outSet (F := F) p) (outSet (F := F) p') := by
  intro p _ p' _ hne
  refine Rect.unit_disjoint (0 : Fin 2) ?_
  rw [off2_val0, off2_val0]
  have h1 : p.1.1.val < 2 := p.1.1.isLt
  have h1' : p'.1.1.val < 2 := p'.1.1.isLt
  have h2 : p.2.val < 4 := p.2.isLt
  have h2' : p'.2.val < 4 := p'.2.isLt
  have hne' : p.1.1.val ≠ p'.1.1.val ∨ p.1.2.val ≠ p'.1.2.val ∨ p.2.val ≠ p'.2.val := by
    by_contra hc
    simp only [not_or, ne_eq, not_not] at hc
    exact hne (Prod.ext (Prod.ext (Fin.ext hc.1) (Fin.ext hc.2.1)) (Fin.ext hc.2.2))
  show _ + 128 ≤ _ ∨ _ + 128 ≤ _
  omega

theorem outSet_cover : (Finset.univ : Finset (TI (F := F) × Fin 4)).biUnion (outSet (F := F)) = Finset.univ := by
  refine Finset.eq_univ_of_forall fun j => Finset.mem_biUnion.mpr ?_
  have hj : (j 0).val < 16384 := (j 0).isLt
  have hk : (j 1).val < 128 := (j 1).isLt
  refine ⟨((⟨(j 0).val % 1024 / 512, by show _ < 2; omega⟩, ⟨(j 0).val / 1024, by show _ < 16; omega⟩), ⟨(j 0).val % 512 / 128, by omega⟩),
    Finset.mem_univ _, ?_⟩
  rw [Rect.mem_set_unit]
  intro a
  match a with
  | ⟨0, _⟩ =>
    rw [show (⟨0, _⟩ : Fin 2) = 0 from rfl, off2_val0]
    show _ ≤ (j 0).val ∧ (j 0).val < _ + 128
    constructor <;> simp only <;> omega
  | ⟨1, _⟩ =>
    rw [show (⟨1, _⟩ : Fin 2) = 1 from rfl, off2_val1]
    show 0 ≤ (j 1).val ∧ (j 1).val < 0 + 128
    omega

end Cert.Proof.Kernel

end
-- ==== Proof.KernelPay.lean ====
/-
  What the handshakes of the launch carry. A subcore is handed its 512 words of each index array, a read share of each
  table, and its four chunks of each result array; it hands the same back, the chunks now holding the looked-up rows.
  A SparseCore is handed what its sixteen subcores are, beside the part of its own table shares that no subcore uses.
-/
import proofs.«203265_g75239237091449_cont_9to1_m_620_5_alg».proof.Proof.KernelSplit

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- What the run asks of the launch memory: every index word names a row of its table. -/
def PreOK : Prop := ∀ d : Dev nD, (∀ j, (m (hLoc d) j).toNat < 100000) ∧ (∀ j, (m (rLoc d) j).toNat < 1000) ∧ (∀ j, (m (tLoc d) j).toNat < 100000)

/-- The results: each row of a result array is the table row its index word names. -/
abbrev resA (d : Dev nD) : Buf (Elt F) (aLoc d) :=
  Cert.Lookup.lookup (α := Elt F .f32) (n := 100000) (m (eLoc d)) (m (hLoc d))
abbrev resB (d : Dev nD) : Buf (Elt F) (bLoc d) :=
  Cert.Lookup.lookup (α := Elt F .f32) (n := 1000) (m (lLoc d)) (m (rLoc d))
abbrev resC (d : Dev nD) : Buf (Elt F) (cLoc d) :=
  Cert.Lookup.lookup (α := Elt F .f32) (n := 100000) (m (eLoc d)) (m (tLoc d))

/-- What a subcore at grid point `L` is handed: its 512 words of each index array, the share `q` of each table, and its four
    chunks of each result array, `fa` / `fb` / `fc` what the result arrays hold. -/
abbrev tilePay (d : Dev nD) (L : grid0.Coords) (q : PosShare TreeShare) (fa : Buf (Elt F) (aLoc d)) (fb : Buf (Elt F) (bLoc d)) (fc : Buf (Elt F) (cLoc d)) : sProp 𝕄 :=
  iprop(((hWin L).view.loc (V d (cK L) (jK L)) ↦[(hWin L).view.set]{fullShare} m (hLoc d))
    ∗ ((rWin L).view.loc (V d (cK L) (jK L)) ↦[(rWin L).view.set]{fullShare} m (rLoc d))
    ∗ ((tWin L).view.loc (V d (cK L) (jK L)) ↦[(tWin L).view.set]{fullShare} m (tLoc d))
    ∗ ((eV).view.loc (V d (cK L) (jK L)) ↦{q} m (eLoc d))
    ∗ ((lV).view.loc (V d (cK L) (jK L)) ↦{q} m (lLoc d))
    ∗ ((aWin L 0).view.loc (V d (cK L) (jK L)) ↦[(aWin L 0).view.set]{fullShare} fa) ∗ ((aWin L 1).view.loc (V d (cK L) (jK L)) ↦[(aWin L 1).view.set]{fullShare} fa)
    ∗ ((aWin L 2).view.loc (V d (cK L) (jK L)) ↦[(aWin L 2).view.set]{fullShare} fa) ∗ ((aWin L 3).view.loc (V d (cK L) (jK L)) ↦[(aWin L 3).view.set]{fullShare} fa)
    ∗ ((bWin L 0).view.loc (V d (cK L) (jK L)) ↦[(bWin L 0).view.set]{fullShare} fb) ∗ ((bWin L 1).view.loc (V d (cK L) (jK L)) ↦[(bWin L 1).view.set]{fullShare} fb)
    ∗ ((bWin L 2).view.loc (V d (cK L) (jK L)) ↦[(bWin L 2).view.set]{fullShare} fb) ∗ ((bWin L 3).view.loc (V d (cK L) (jK L)) ↦[(bWin L 3).view.set]{fullShare} fb)
    ∗ ((cWin L 0).view.loc (V d (cK L) (jK L)) ↦[(cWin L 0).view.set]{fullShare} fc) ∗ ((cWin L 1).view.loc (V d (cK L) (jK L)) ↦[(cWin L 1).view.set]{fullShare} fc)
    ∗ ((cWin L 2).view.loc (V d (cK L) (jK L)) ↦[(cWin L 2).view.set]{fullShare} fc) ∗ ((cWin L 3).view.loc (V d (cK L) (jK L)) ↦[(cWin L 3).view.set]{fullShare} fc))

/-! ## The table shares: one read share per SparseCore, of it one per subcore -/

abbrev qC (c : Fin ((K (F := F)).nCore 0)) : PosShare TreeShare := Transfers.shareTok fullShare ((K (F := F)).nCore 0) c
abbrev qT (c : Fin ((K (F := F)).nCore 0)) (i : Fin ((K (F := F)).nSub 0)) : PosShare TreeShare :=
  Transfers.shareTok (qC (F := F) c) ((K (F := F)).nSub 0) i
abbrev qCrest (c : Fin ((K (F := F)).nCore 0)) : PosShare TreeShare := Transfers.shareDrop (qC (F := F) c) ((K (F := F)).nSub 0)
abbrev qTop : PosShare TreeShare := Transfers.shareDrop fullShare ((K (F := F)).nCore 0)

abbrev goPay (d : Dev nD) (c : Fin ((K (F := F)).nCore 0)) (i : Fin ((K (F := F)).nSub 0)) : sProp 𝕄 :=
  tilePay m d (Lof (F := F) c i) (qT (F := F) c i) (m (aLoc d)) (m (bLoc d)) (m (cLoc d))
abbrev tdPay (d : Dev nD) (c : Fin ((K (F := F)).nCore 0)) (i : Fin ((K (F := F)).nSub 0)) : sProp 𝕄 :=
  tilePay m d (Lof (F := F) c i) (qT (F := F) c i) (resA m d) (resB m d) (resC m d)
/-- The part of a SparseCore's table shares that none of its subcores takes. -/
abbrev restPay (d : Dev nD) (c : Fin ((K (F := F)).nCore 0)) : sProp 𝕄 :=
  iprop((eLoc d ↦{qCrest (F := F) c} m (eLoc d)) ∗ (lLoc d ↦{qCrest (F := F) c} m (lLoc d)))

def P : (K (F := F)).Pay (nD := nD) (Val := Elt F) (Name := ℕ) (U := UU) where
  st := fun q d c => match q with | 0 => iprop((bigSep Finset.univ fun i => goPay m d c i) ∗ restPay m d c)
  dn := fun q d c => match q with | 0 => iprop((bigSep Finset.univ fun i => tdPay m d c i) ∗ restPay m d c)
  go := fun q d c i => match q with | 0 => goPay m d c i
  td := fun q d c i => match q with | 0 => tdPay m d c i
  x := fun _ _ => iprop(emp)

instance P_storable : (P (F := F) m).IsStorable where
  st q d c := match q with
    | 0 => (inferInstance : BI.Storable (upEmb : UEmb _ 𝕄) iprop((bigSep Finset.univ fun i => goPay m d c i) ∗ restPay m d c))
  dn q d c := match q with
    | 0 => (inferInstance : BI.Storable (upEmb : UEmb _ 𝕄) iprop((bigSep Finset.univ fun i => tdPay m d c i) ∗ restPay m d c))
  go q d c i := match q with
    | 0 => (inferInstance : BI.Storable (upEmb : UEmb _ 𝕄) (goPay m d c i))
  td q d c i := match q with
    | 0 => (inferInstance : BI.Storable (upEmb : UEmb _ 𝕄) (tdPay m d c i))

end Cert.Proof.Kernel

end
-- ==== Proof.KernelValue.lean ====
/-
  What a subcore's run leaves in its index scratch and in its result chunks, read back. The index scratch holds the
  subcore's 512 words of each index array, side by side; a list window of 128 words is a stretch of one of them; the
  gather driven by a list window puts, in row `ρ` of a row buffer, the table row that the window's word `ρ` names; and
  the copy out of the row buffer leaves those rows in the chunk of the result array. In range, the row a word names is
  the row of the lookup.
-/
import proofs.«203265_g75239237091449_cont_9to1_m_620_5_alg».proof.Proof.KernelPay
import Idealize.ShloMosaic.Lib.SparseCore.Stream
import Idealize.ShloMosaic.Lib.Pipeline.Value

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

variable (m : (ℓ : Loc nD τ sig) → Buf (Elt F) ℓ)

/-! ## The index scratch -/

/-- What the three index copies carry: the subcore's 512 words of the head, relation and tail index arrays. -/
abbrev pH (d : Dev nD) (L : grid0.Coords) : S512.Idx → Elt F .i32 := ReadAs.same.apply ((hWin L).view.read (Elt F) (m (hLoc d)))
abbrev pR (d : Dev nD) (L : grid0.Coords) : S512.Idx → Elt F .i32 := ReadAs.same.apply ((rWin L).view.read (Elt F) (m (rLoc d)))
abbrev pT (d : Dev nD) (L : grid0.Coords) : S512.Idx → Elt F .i32 := ReadAs.same.apply ((tWin L).view.read (Elt F) (m (tLoc d)))

/-- The index scratch after the three copies: the head words at 0, the relation words at 512, the tail words at 1024. -/
abbrev LB (d : Dev nD) (L : grid0.Coords) : (xV).view.ty.Contents (Elt F) :=
  (xV).view.writes (Elt F) (xV).view.junk
    [⟨Rect.unit (s := S1536) ![1024] S512.size inb_S1536_S512_1024, pT m d L⟩,
     ⟨Rect.unit (s := S1536) ![512] S512.size inb_S1536_S512_512, pR m d L⟩,
     ⟨Rect.unit (s := S1536) ![0] S512.size inb_S1536_S512_0, pH m d L⟩]

/-- A rectangle's own index, placed, lies in the rectangle. -/
theorem emb_mem {s : Shape} (r : Rect s) (j : r.shape.Idx) : r.emb j ∈ r.set := by
  rw [← Rect.map_emb_univ]; exact Finset.mem_map_of_mem _ (Finset.mem_univ j)

/-- Two stretches of 512 words of the scratch at different offsets share no word. -/
theorem not_mem_of_sep {o o' : ℕ} (i : ∀ a, (![o] : Fin 1 → ℕ) a + S512.size a ≤ S1536.size a)
    (i' : ∀ a, (![o'] : Fin 1 → ℕ) a + S512.size a ≤ S1536.size a) (j : S512.Idx) (h : o + 512 ≤ o' ∨ o' + 512 ≤ o) :
    (Rect.unit (s := S1536) ![o] S512.size i).emb j ∉ (Rect.unit (s := S1536) ![o'] S512.size i').set :=
  Finset.disjoint_left.mp (Rect.unit_disjoint (inb := i) (inb' := i') (0 : Fin 1) h) (emb_mem (Rect.unit (s := S1536) ![o] S512.size i) j)

/-- The scratch at word `j` of its first 512 is word `j` of the subcore's head indices; -/
theorem LB_read_H (d : Dev nD) (L : grid0.Coords) (i0 : ∀ a, (![0] : Fin 1 → ℕ) a + S512.size a ≤ S1536.size a) (j : S512.Idx) :
    (xV).view.read (Elt F) (LB m d L) ((Rect.unit (s := S1536) ![0] S512.size i0).emb j) = m (hLoc d) ((idxRect L).emb j) := by
  refine (View.read_writes_of_unique (xV).view _ ⟨Rect.unit (s := S1536) ![0] S512.size inb_S1536_S512_0, pH m d L⟩ j _
    (List.mem_cons_of_mem _ (List.mem_cons_of_mem _ List.mem_cons_self)) ?_).trans rfl
  intro q hq hmem
  rcases List.mem_cons.mp hq with rfl | hq
  · exact absurd hmem (not_mem_of_sep inb_S1536_S512_0 inb_S1536_S512_1024 j (by decide))
  rcases List.mem_cons.mp hq with rfl | hq
  · exact absurd hmem (not_mem_of_sep inb_S1536_S512_0 inb_S1536_S512_512 j (by decide))
  rcases List.mem_cons.mp hq with rfl | hq
  · rfl
  · exact absurd hq List.not_mem_nil

/-- of its second 512, of the relation indices; -/
theorem LB_read_R (d : Dev nD) (L : grid0.Coords) (i0 : ∀ a, (![512] : Fin 1 → ℕ) a + S512.size a ≤ S1536.size a) (j : S512.Idx) :
    (xV).view.read (Elt F) (LB m d L) ((Rect.unit (s := S1536) ![512] S512.size i0).emb j) = m (rLoc d) ((idxRect L).emb j) := by
  refine (View.read_writes_of_unique (xV).view _ ⟨Rect.unit (s := S1536) ![512] S512.size inb_S1536_S512_512, pR m d L⟩ j _
    (List.mem_cons_of_mem _ List.mem_cons_self) ?_).trans rfl
  intro q hq hmem
  rcases List.mem_cons.mp hq with rfl | hq
  · exact absurd hmem (not_mem_of_sep inb_S1536_S512_512 inb_S1536_S512_1024 j (by decide))
  rcases List.mem_cons.mp hq with rfl | hq
  · rfl
  rcases List.mem_cons.mp hq with rfl | hq
  · exact absurd hmem (not_mem_of_sep inb_S1536_S512_512 inb_S1536_S512_0 j (by decide))
  · exact absurd hq List.not_mem_nil

/-- of its last 512, of the tail indices. -/
theorem LB_read_T (d : Dev nD) (L : grid0.Coords) (i0 : ∀ a, (![1024] : Fin 1 → ℕ) a + S512.size a ≤ S1536.size a) (j : S512.Idx) :
    (xV).view.read (Elt F) (LB m d L) ((Rect.unit (s := S1536) ![1024] S512.size i0).emb j) = m (tLoc d) ((idxRect L).emb j) := by
  refine (View.read_writes_of_unique (xV).view _ ⟨Rect.unit (s := S1536) ![1024] S512.size inb_S1536_S512_1024, pT m d L⟩ j _
    List.mem_cons_self ?_).trans rfl
  intro q hq hmem
  rcases List.mem_cons.mp hq with rfl | hq
  · rfl
  rcases List.mem_cons.mp hq with rfl | hq
  · exact absurd hmem (not_mem_of_sep inb_S1536_S512_1024 inb_S1536_S512_512 j (by decide))
  rcases List.mem_cons.mp hq with rfl | hq
  · exact absurd hmem (not_mem_of_sep inb_S1536_S512_1024 inb_S1536_S512_0 j (by decide))
  · exact absurd hq List.not_mem_nil

/-! ## The list windows -/

/-- A window of 128 words of the scratch at offset `w = o + b`, inside the 512 words at `o`: its word `x` is word `b + x` of those. -/
theorem emb_shift {o w : ℕ} (h : ∀ a, (![w] : Fin 1 → ℕ) a + S128.size a ≤ S1536.size a)
    (i0 : ∀ a, (![o] : Fin 1 → ℕ) a + S512.size a ≤ S1536.size a) (x : S128.Idx) (b : ℕ) (hw : w = o + b) (hb : b + 128 ≤ 512) :
    (Rect.unit (s := S1536) ![w] S128.size h).emb x
      = (Rect.unit (s := S1536) ![o] S512.size i0).emb (ix1 ⟨b + (x 0).val, by have : (x 0).val < 128 := (x 0).isLt; omega⟩) := by
  funext a; refine Fin.ext ?_
  rw [Rect.emb_apply, Rect.emb_apply]
  match a with
  | ⟨0, _⟩ => show w + 1 * (x 0).val = o + 1 * (b + (x 0).val); omega

/-- Head window `k` read at word `x`: the head index of row `128 k + x` of the subcore's 512. -/
theorem win_read_h {d : Dev nD} {L : grid0.Coords} (k : Fin 4) (h : ∀ a, (![128 * k.val] : Fin 1 → ℕ) a + S128.size a ≤ S1536.size a)
    (h' : ∀ a, (Rect.unit (s := S1536) ![128 * k.val] S128.size h).stride a = 1) (x : S128.Idx) :
    ((xV).slice (Rect.unit (s := S1536) ![128 * k.val] S128.size h) h').view.read (Elt F) (LB m d L) x
      = m (hLoc d) ((idxRect L).emb (ix1 ⟨128 * k.val + (x 0).val, by have : (x 0).val < 128 := (x 0).isLt; have := k.isLt; omega⟩)) := by
  show (xV).view.read (Elt F) (LB m d L) ((Rect.unit (s := S1536) ![128 * k.val] S128.size h).emb x) = _
  rw [emb_shift h inb_S1536_S512_0 x (128 * k.val) (by omega) (by have := k.isLt; omega), LB_read_H]

theorem win_read_r {d : Dev nD} {L : grid0.Coords} (k : Fin 4) (h : ∀ a, (![512 + 128 * k.val] : Fin 1 → ℕ) a + S128.size a ≤ S1536.size a)
    (h' : ∀ a, (Rect.unit (s := S1536) ![512 + 128 * k.val] S128.size h).stride a = 1) (x : S128.Idx) :
    ((xV).slice (Rect.unit (s := S1536) ![512 + 128 * k.val] S128.size h) h').view.read (Elt F) (LB m d L) x
      = m (rLoc d) ((idxRect L).emb (ix1 ⟨128 * k.val + (x 0).val, by have : (x 0).val < 128 := (x 0).isLt; have := k.isLt; omega⟩)) := by
  show (xV).view.read (Elt F) (LB m d L) ((Rect.unit (s := S1536) ![512 + 128 * k.val] S128.size h).emb x) = _
  rw [emb_shift h inb_S1536_S512_512 x (128 * k.val) rfl (by have := k.isLt; omega), LB_read_R]

theorem win_read_t {d : Dev nD} {L : grid0.Coords} (k : Fin 4) (h : ∀ a, (![1024 + 128 * k.val] : Fin 1 → ℕ) a + S128.size a ≤ S1536.size a)
    (h' : ∀ a, (Rect.unit (s := S1536) ![1024 + 128 * k.val] S128.size h).stride a = 1) (x : S128.Idx) :
    ((xV).slice (Rect.unit (s := S1536) ![1024 + 128 * k.val] S128.size h) h').view.read (Elt F) (LB m d L) x
      = m (tLoc d) ((idxRect L).emb (ix1 ⟨128 * k.val + (x 0).val, by have : (x 0).val < 128 := (x 0).isLt; have := k.isLt; omega⟩)) := by
  show (xV).view.read (Elt F) (LB m d L) ((Rect.unit (s := S1536) ![1024 + 128 * k.val] S128.size h).emb x) = _
  rw [emb_shift h inb_S1536_S512_1024 x (128 * k.val) rfl (by have := k.isLt; omega), LB_read_T]

variable {m}

/-- IN RANGE: every word of a head window names a row of the entity table; -/
theorem list_inb_h (hpre : PreOK m) {d : Dev nD} {L : grid0.Coords} (k : Fin 4)
    (h : ∀ a, (![128 * k.val] : Fin 1 → ℕ) a + S128.size a ≤ S1536.size a)
    (h' : ∀ a, (Rect.unit (s := S1536) ![128 * k.val] S128.size h).stride a = 1) :
    ∀ x, (((xV).slice (Rect.unit (s := S1536) ![128 * k.val] S128.size h) h').view.read (Elt F) (LB m d L) x).toNat < 100000 := by
  intro x; rw [win_read_h]; exact (hpre d).1 _

/-- of a relation window, of the relation table; -/
theorem list_inb_r (hpre : PreOK m) {d : Dev nD} {L : grid0.Coords} (k : Fin 4)
    (h : ∀ a, (![512 + 128 * k.val] : Fin 1 → ℕ) a + S128.size a ≤ S1536.size a)
    (h' : ∀ a, (Rect.unit (s := S1536) ![512 + 128 * k.val] S128.size h).stride a = 1) :
    ∀ x, (((xV).slice (Rect.unit (s := S1536) ![512 + 128 * k.val] S128.size h) h').view.read (Elt F) (LB m d L) x).toNat < 1000 := by
  intro x; rw [win_read_r]; exact (hpre d).2.1 _

/-- of a tail window, of the entity table. -/
theorem list_inb_t (hpre : PreOK m) {d : Dev nD} {L : grid0.Coords} (k : Fin 4)
    (h : ∀ a, (![1024 + 128 * k.val] : Fin 1 → ℕ) a + S128.size a ≤ S1536.size a)
    (h' : ∀ a, (Rect.unit (s := S1536) ![1024 + 128 * k.val] S128.size h).stride a = 1) :
    ∀ x, (((xV).slice (Rect.unit (s := S1536) ![1024 + 128 * k.val] S128.size h) h').view.read (Elt F) (LB m d L) x).toNat < 100000 := by
  intro x; rw [win_read_t]; exact (hpre d).2.2 _

/-! ## A row buffer, a gather, a chunk -/

/-- A buffer read back after a write of its whole shape, the last one: the payload, whatever was written before. -/
theorem read_whole_last {κ : Kind} {sp : Space} {s : Shape} {e : EltTy} (v : View sig κ sp s e) (fy : v.ty.Contents (Elt F))
    (G : s.Idx → Elt F e) (older : List (View.Piece (Elt F) s e)) :
    v.read (Elt F) (v.writes (Elt F) fy (⟨Rect.whole s, G⟩ :: older)) = G :=
  funext fun x => by
    have := View.read_writes_cons_emb v fy (Rect.whole s) G older x
    rwa [Rect.emb_whole_apply] at this

/-- A view after one write of its whole shape, at the element under index `y`: the payload at `y`. -/
theorem writes_whole_emb {κ : Kind} {sp : Space} {s : Shape} {e : EltTy} (v : View sig κ sp s e) (f : v.ty.Contents (Elt F))
    (w : s.Idx → Elt F e) (y : s.Idx) :
    v.writes (Elt F) f [⟨Rect.whole s, w⟩] (v.emb y) = cast (congrArg (Elt F) v.elt_eq.symm) (w y) := by
  have := View.write_emb_of_mem (v := v.slice (Rect.whole s)) (Val := Elt F) f w (Finset.mem_univ y)
  rwa [View.emb_slice, Function.Embedding.trans_apply, Rect.emb_whole_apply] at this

/-- THE CHUNK OF THE FIRST RESULT: after the copy out of the row buffer that the gather over head window `r` filled, chunk `r`
    of the subcore's rows holds the entity rows its head indices name. -/
theorem chunk_a (hpre : PreOK m) {d : Dev nD} {L : grid0.Coords} (r : Fin 4) (y : Memref sig .scVector .vmem S128x128 .f32)
    (fy : y.view.ty.Contents (Elt F)) (older : List (View.Piece (Elt F) S128x128 .f32)) (fa : Buf (Elt F) (aLoc d))
    (hg : S100000x128.Gathers 0 S128x128)
    (inb : ∀ a, (![0, 0] : Fin 2 → ℕ) a + S100000x128.size a ≤ S100000x128.size a)
    (h' : ∀ a, (Rect.unit (s := S100000x128) ![0, 0] S100000x128.size inb).stride a = 1)
    (h : ∀ a, (![128 * r.val] : Fin 1 → ℕ) a + S128.size a ≤ S1536.size a)
    (h'' : ∀ a, (Rect.unit (s := S1536) ![128 * r.val] S128.size h).stride a = 1)
    (hn : S128.numel = S128x128.size hg.axis')
    (hin : ∀ x, (((xV).slice (Rect.unit (s := S1536) ![128 * r.val] S128.size h) h'').view.read (Elt F) (LB m d L) x).toNat < 100000) :
    ∀ j ∈ (aWin L r).view.set, ((aWin L r).view.writes (Elt F) fa [⟨Rect.whole S128x128, ReadAs.same.apply (y.view.read (Elt F)
      (y.view.writes (Elt F) fy (⟨Rect.whole S128x128, SparseCore.gatherPayload hg
        (((eV).slice (Rect.unit (s := S100000x128) ![0, 0] S100000x128.size inb) h').view.read (Elt F) (m (eLoc d)))
        (SparseCore.rows (((xV).slice (Rect.unit (s := S1536) ![128 * r.val] S128.size h) h'').view.read (Elt F) (LB m d L)) hn hin)⟩ :: older)))⟩]) j
      = resA m d j := by
  intro j hj
  obtain ⟨y', rfl⟩ := View.exists_emb_of_mem_set _ hj
  rw [writes_whole_emb, ReadAs.apply_same, read_whole_last]
  have e1 : k0_off1 L 0 = 1024 * (L 1).val + 512 * (L 0).val := by rw [k0_off1_eq]; rfl
  have e2 : k0_off2 L (BitVec.ofNat 32 (128 * r.val)) 0 = 1024 * (L 1).val + 512 * (L 0).val + 128 * r.val := by rw [k0_off2_eq]; rfl
  have e3 : k0_off2 L (BitVec.ofNat 32 (128 * r.val)) 1 = 0 := by rw [k0_off2_eq]; rfl
  change m (eLoc d) ((Rect.unit (s := S100000x128) ![0, 0] S100000x128.size inb).emb (hg.idx _ y'))
    = m (eLoc d) (ix2 (Cert.Lookup.rowOf 100000 (m (hLoc d) (ix1 ((outRect L r).emb y' 0)))) ((outRect L r).emb y' 1))
  refine congrArg (m (eLoc d)) (funext fun a => Fin.ext ?_)
  rw [Rect.emb_apply]
  match a with
  | ⟨0, h0⟩ =>
    show 0 + 1 * (hg.idx _ y' hg.axis).val = (Cert.Lookup.rowOf 100000 (m (hLoc d) (ix1 ((outRect L r).emb y' 0)))).val
    rw [Shape.Gathers.idx_axis, Cert.Lookup.rowOf_val _ ((hpre d).1 _)]
    show 0 + 1 * (((xV).slice (Rect.unit (s := S1536) ![128 * r.val] S128.size h) h'').view.read (Elt F) (LB m d L)
      (S128.rowMajor.symm ((y' hg.axis').cast hn.symm))).toNat = _
    rw [win_read_h]
    have hx : ((S128.rowMajor.symm ((y' hg.axis').cast hn.symm)) 0).val = (y' 0).val := by
      rw [← Shape.rowMajor_val_one (d := ![128]) (S128.rowMajor.symm ((y' hg.axis').cast hn.symm))]
      show (S128.rowMajor (S128.rowMajor.symm _)).val = _
      rw [Equiv.apply_symm_apply]; rfl
    rw [Nat.zero_add, Nat.one_mul]
    refine congrArg (fun z => (m (hLoc d) z).toNat) (funext fun b => Fin.ext ?_)
    rw [Rect.emb_apply]
    match b with
    | ⟨0, _⟩ =>
      show k0_off1 L 0 + 1 * (128 * r.val + ((S128.rowMajor.symm ((y' hg.axis').cast hn.symm)) 0).val)
        = k0_off2 L (BitVec.ofNat 32 (128 * r.val)) 0 + 1 * (y' 0).val
      rw [e1, e2, hx]; omega
  | ⟨1, h1⟩ =>
    show 0 + 1 * (hg.idx _ y' ⟨1, h1⟩).val = ((outRect L r).emb y' 1).val
    rw [Shape.Gathers.idx_of_ne hg _ y' ⟨1, h1⟩ Nat.one_ne_zero]
    show 0 + 1 * (y' 1).val = k0_off2 L (BitVec.ofNat 32 (128 * r.val)) 1 + 1 * (y' 1).val
    rw [e3]

/-- The same for the second result: the relation rows the relation indices name. -/
theorem chunk_b (hpre : PreOK m) {d : Dev nD} {L : grid0.Coords} (r : Fin 4) (y : Memref sig .scVector .vmem S128x128 .f32)
    (fy : y.view.ty.Contents (Elt F)) (older : List (View.Piece (Elt F) S128x128 .f32)) (fa : Buf (Elt F) (bLoc d))
    (hg : S1000x128.Gathers 0 S128x128)
    (inb : ∀ a, (![0, 0] : Fin 2 → ℕ) a + S1000x128.size a ≤ S1000x128.size a)
    (h' : ∀ a, (Rect.unit (s := S1000x128) ![0, 0] S1000x128.size inb).stride a = 1)
    (h : ∀ a, (![512 + 128 * r.val] : Fin 1 → ℕ) a + S128.size a ≤ S1536.size a)
    (h'' : ∀ a, (Rect.unit (s := S1536) ![512 + 128 * r.val] S128.size h).stride a = 1)
    (hn : S128.numel = S128x128.size hg.axis')
    (hin : ∀ x, (((xV).slice (Rect.unit (s := S1536) ![512 + 128 * r.val] S128.size h) h'').view.read (Elt F) (LB m d L) x).toNat < 1000) :
    ∀ j ∈ (bWin L r).view.set, ((bWin L r).view.writes (Elt F) fa [⟨Rect.whole S128x128, ReadAs.same.apply (y.view.read (Elt F)
      (y.view.writes (Elt F) fy (⟨Rect.whole S128x128, SparseCore.gatherPayload hg
        (((lV).slice (Rect.unit (s := S1000x128) ![0, 0] S1000x128.size inb) h').view.read (Elt F) (m (lLoc d)))
        (SparseCore.rows (((xV).slice (Rect.unit (s := S1536) ![512 + 128 * r.val] S128.size h) h'').view.read (Elt F) (LB m d L)) hn hin)⟩ :: older)))⟩]) j
      = resB m d j := by
  intro j hj
  obtain ⟨y', rfl⟩ := View.exists_emb_of_mem_set _ hj
  rw [writes_whole_emb, ReadAs.apply_same, read_whole_last]
  have e1 : k0_off1 L 0 = 1024 * (L 1).val + 512 * (L 0).val := by rw [k0_off1_eq]; rfl
  have e2 : k0_off2 L (BitVec.ofNat 32 (128 * r.val)) 0 = 1024 * (L 1).val + 512 * (L 0).val + 128 * r.val := by rw [k0_off2_eq]; rfl
  have e3 : k0_off2 L (BitVec.ofNat 32 (128 * r.val)) 1 = 0 := by rw [k0_off2_eq]; rfl
  change m (lLoc d) ((Rect.unit (s := S1000x128) ![0, 0] S1000x128.size inb).emb (hg.idx _ y'))
    = m (lLoc d) (ix2 (Cert.Lookup.rowOf 1000 (m (rLoc d) (ix1 ((outRect L r).emb y' 0)))) ((outRect L r).emb y' 1))
  refine congrArg (m (lLoc d)) (funext fun a => Fin.ext ?_)
  rw [Rect.emb_apply]
  match a with
  | ⟨0, h0⟩ =>
    show 0 + 1 * (hg.idx _ y' hg.axis).val = (Cert.Lookup.rowOf 1000 (m (rLoc d) (ix1 ((outRect L r).emb y' 0)))).val
    rw [Shape.Gathers.idx_axis, Cert.Lookup.rowOf_val _ ((hpre d).2.1 _)]
    show 0 + 1 * (((xV).slice (Rect.unit (s := S1536) ![512 + 128 * r.val] S128.size h) h'').view.read (Elt F) (LB m d L)
      (S128.rowMajor.symm ((y' hg.axis').cast hn.symm))).toNat = _
    rw [win_read_r]
    have hx : ((S128.rowMajor.symm ((y' hg.axis').cast hn.symm)) 0).val = (y' 0).val := by
      rw [← Shape.rowMajor_val_one (d := ![128]) (S128.rowMajor.symm ((y' hg.axis').cast hn.symm))]
      show (S128.rowMajor (S128.rowMajor.symm _)).val = _
      rw [Equiv.apply_symm_apply]; rfl
    rw [Nat.zero_add, Nat.one_mul]
    refine congrArg (fun z => (m (rLoc d) z).toNat) (funext fun b => Fin.ext ?_)
    rw [Rect.emb_apply]
    match b with
    | ⟨0, _⟩ =>
      show k0_off1 L 0 + 1 * (128 * r.val + ((S128.rowMajor.symm ((y' hg.axis').cast hn.symm)) 0).val)
        = k0_off2 L (BitVec.ofNat 32 (128 * r.val)) 0 + 1 * (y' 0).val
      rw [e1, e2, hx]; omega
  | ⟨1, h1⟩ =>
    show 0 + 1 * (hg.idx _ y' ⟨1, h1⟩).val = ((outRect L r).emb y' 1).val
    rw [Shape.Gathers.idx_of_ne hg _ y' ⟨1, h1⟩ Nat.one_ne_zero]
    show 0 + 1 * (y' 1).val = k0_off2 L (BitVec.ofNat 32 (128 * r.val)) 1 + 1 * (y' 1).val
    rw [e3]

/-- The same for the third result: the entity rows the tail indices name. -/
theorem chunk_c (hpre : PreOK m) {d : Dev nD} {L : grid0.Coords} (r : Fin 4) (y : Memref sig .scVector .vmem S128x128 .f32)
    (fy : y.view.ty.Contents (Elt F)) (older : List (View.Piece (Elt F) S128x128 .f32)) (fa : Buf (Elt F) (cLoc d))
    (hg : S100000x128.Gathers 0 S128x128)
    (inb : ∀ a, (![0, 0] : Fin 2 → ℕ) a + S100000x128.size a ≤ S100000x128.size a)
    (h' : ∀ a, (Rect.unit (s := S100000x128) ![0, 0] S100000x128.size inb).stride a = 1)
    (h : ∀ a, (![1024 + 128 * r.val] : Fin 1 → ℕ) a + S128.size a ≤ S1536.size a)
    (h'' : ∀ a, (Rect.unit (s := S1536) ![1024 + 128 * r.val] S128.size h).stride a = 1)
    (hn : S128.numel = S128x128.size hg.axis')
    (hin : ∀ x, (((xV).slice (Rect.unit (s := S1536) ![1024 + 128 * r.val] S128.size h) h'').view.read (Elt F) (LB m d L) x).toNat < 100000) :
    ∀ j ∈ (cWin L r).view.set, ((cWin L r).view.writes (Elt F) fa [⟨Rect.whole S128x128, ReadAs.same.apply (y.view.read (Elt F)
      (y.view.writes (Elt F) fy (⟨Rect.whole S128x128, SparseCore.gatherPayload hg
        (((eV).slice (Rect.unit (s := S100000x128) ![0, 0] S100000x128.size inb) h').view.read (Elt F) (m (eLoc d)))
        (SparseCore.rows (((xV).slice (Rect.unit (s := S1536) ![1024 + 128 * r.val] S128.size h) h'').view.read (Elt F) (LB m d L)) hn hin)⟩ :: older)))⟩]) j
      = resC m d j := by
  intro j hj
  obtain ⟨y', rfl⟩ := View.exists_emb_of_mem_set _ hj
  rw [writes_whole_emb, ReadAs.apply_same, read_whole_last]
  have e1 : k0_off1 L 0 = 1024 * (L 1).val + 512 * (L 0).val := by rw [k0_off1_eq]; rfl
  have e2 : k0_off2 L (BitVec.ofNat 32 (128 * r.val)) 0 = 1024 * (L 1).val + 512 * (L 0).val + 128 * r.val := by rw [k0_off2_eq]; rfl
  have e3 : k0_off2 L (BitVec.ofNat 32 (128 * r.val)) 1 = 0 := by rw [k0_off2_eq]; rfl
  change m (eLoc d) ((Rect.unit (s := S100000x128) ![0, 0] S100000x128.size inb).emb (hg.idx _ y'))
    = m (eLoc d) (ix2 (Cert.Lookup.rowOf 100000 (m (tLoc d) (ix1 ((outRect L r).emb y' 0)))) ((outRect L r).emb y' 1))
  refine congrArg (m (eLoc d)) (funext fun a => Fin.ext ?_)
  rw [Rect.emb_apply]
  match a with
  | ⟨0, h0⟩ =>
    show 0 + 1 * (hg.idx _ y' hg.axis).val = (Cert.Lookup.rowOf 100000 (m (tLoc d) (ix1 ((outRect L r).emb y' 0)))).val
    rw [Shape.Gathers.idx_axis, Cert.Lookup.rowOf_val _ ((hpre d).2.2 _)]
    show 0 + 1 * (((xV).slice (Rect.unit (s := S1536) ![1024 + 128 * r.val] S128.size h) h'').view.read (Elt F) (LB m d L)
      (S128.rowMajor.symm ((y' hg.axis').cast hn.symm))).toNat = _
    rw [win_read_t]
    have hx : ((S128.rowMajor.symm ((y' hg.axis').cast hn.symm)) 0).val = (y' 0).val := by
      rw [← Shape.rowMajor_val_one (d := ![128]) (S128.rowMajor.symm ((y' hg.axis').cast hn.symm))]
      show (S128.rowMajor (S128.rowMajor.symm _)).val = _
      rw [Equiv.apply_symm_apply]; rfl
    rw [Nat.zero_add, Nat.one_mul]
    refine congrArg (fun z => (m (tLoc d) z).toNat) (funext fun b => Fin.ext ?_)
    rw [Rect.emb_apply]
    match b with
    | ⟨0, _⟩ =>
      show k0_off1 L 0 + 1 * (128 * r.val + ((S128.rowMajor.symm ((y' hg.axis').cast hn.symm)) 0).val)
        = k0_off2 L (BitVec.ofNat 32 (128 * r.val)) 0 + 1 * (y' 0).val
      rw [e1, e2, hx]; omega
  | ⟨1, h1⟩ =>
    show 0 + 1 * (hg.idx _ y' ⟨1, h1⟩).val = ((outRect L r).emb y' 1).val
    rw [Shape.Gathers.idx_of_ne hg _ y' ⟨1, h1⟩ Nat.one_ne_zero]
    show 0 + 1 * (y' 1).val = k0_off2 L (BitVec.ofNat 32 (128 * r.val)) 1 + 1 * (y' 1).val
    rw [e3]

end Cert.Proof.Kernel

end
-- ==== Proof.KernelBody.lean ====
/-
  One vector subcore's task, run symbolically at any grid point `L`.

  The task: three copies bring the subcore's 512 words of the head, relation and tail index arrays into the index scratch
  (words 0–511, 512–1023, 1024–1535). Then twelve chunk tasks, `k = 0 … 11`: task `k` gathers, into row buffer `k mod 4`, the
  table rows named by scratch words `128 k … 128 k + 127` (the entity table for `k < 4` and `k ≥ 8`, the relation table
  between), and copies the buffer out to chunk `k mod 4` of the head, relation or tail result. Four gathers are in
  flight at the start; afterwards the copy out of task `k` is waited for before the gather of task `k + 4`, which reuses
  its buffer, is issued, and each copy out is issued only after its gather has been waited for: no buffer is read while
  it is being written. The gathers in flight at one time read a table through separate read shares, one per
  semaphore. A gather needs every word of its list to name a row of the table; that is the precondition, read through
  the index copies.

  What the task leaves: the index words and the table shares as they were, and in each of its twelve chunks the rows the
  words name, which is the lookup restricted to the chunk.
-/
import proofs.«203265_g75239237091449_cont_9to1_m_620_5_alg».proof.Proof.KernelOwn
import proofs.«203265_g75239237091449_cont_9to1_m_620_5_alg».proof.Proof.KernelPay
import proofs.«203265_g75239237091449_cont_9to1_m_620_5_alg».proof.Proof.KernelValue

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

local notation "𝕋" => (V d (cK L) (jK L) : Thread nD τ)

variable [FloatOps F]

set_option maxHeartbeats 4000000 in
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ tilePay m d L q (m (aLoc d)) (m (bLoc d)) (m (cLoc d))
        ∗ scopedBufs 𝕋 ∗ scopedSems0 𝕋 ∗ owes 𝕋 O W)
      ⊢ wp frame (wpE (defs₀ (F := F)) 𝒱₀ 𝕋 none) Set.univ
          (cc0_k L hV (Memref.isWhole_whole _) rV (Memref.isWhole_whole _) tV (Memref.isWhole_whole _) eV (Memref.isWhole_whole _)
            lV (Memref.isWhole_whole _) aV (Memref.isWhole_whole _) bV (Memref.isWhole_whole _) cV (Memref.isWhole_whole _)
            xV (Memref.isWhole_whole _) y1V (Memref.isWhole_whole _) y2V (Memref.isWhole_whole _) y3V (Memref.isWhole_whole _)
            y4V (Memref.isWhole_whole _) cc0_scratch5 cc0_scratch6 cc0_scratch7 cc0_scratch8 cc0_scratch9 cc0_scratch10 cc0_scratch11
            cc0_scratch12 cc0_scoped0 cc0_scoped1 cc0_scoped2)
          fun _ => iprop(tilePay m d L q (resA m d) (resB m d) (resC m d)
            ∗ scopedBufs 𝕋 ∗ scopedSems0 𝕋
            ∗ ∃ W', ⌜∀ p ∈ W', p ∈ W ∨ p.2 = none⌝ ∗ owes 𝕋 O W') := by
  simp only [cc0_k_eq_skeleton]; unfold cc0_k_skel
  rw [(K (F := F)).scopedBufs_V hF d (cK L) (jK L), SparseCore.Cfg.scopedSems0_V (Val := Elt F) d (cK L) (jK L), ownSems0_V, ownBufs_V]
  iintro ⟨#Hlv, -, ⟨Hh, Hr, Ht, He, Hl, Ha0, Ha1, Ha2, Ha3, Hb0, Hb1, Hb2, Hb3, Hc0, Hc1, Hc2, Hc3⟩,
    ⟨⟨%fx, Hx⟩, ⟨%f1, Hy1⟩, ⟨%f2, Hy2⟩, ⟨%f3, Hy3⟩, ⟨%f4, Hy4⟩, Hbufs⟩,
    ⟨Hs0, Hs1, Hs2, Hs3, Hs4, Hs5, Hs6, Hs7, Hs8, Hs9, Hs10⟩, HO⟩
  ihave Hmw := (show levAts (K (F := F)).L (K (F := F)).lev ⊢ Transfers.MayWaits 𝕋 (default : HIx 1) O from
    (K (F := F)).mayWaits_none (thr := 𝕋) hO) $$ Hlv
  ihave Hxv := (Entails.of_eq (show ((V d (cK L) (jK L)).loc cc0_scratch0 ↦{fullShare} fx : sProp 𝕄) = ((xV).view.loc 𝕋 ↦{fullShare} fx) from rfl)) $$ Hx
  ihave Hy1v := (Entails.of_eq (show ((V d (cK L) (jK L)).loc cc0_scratch1 ↦{fullShare} f1 : sProp 𝕄) = ((y1V).view.loc 𝕋 ↦{fullShare} f1) from rfl)) $$ Hy1
  ihave Hy2v := (Entails.of_eq (show ((V d (cK L) (jK L)).loc cc0_scratch2 ↦{fullShare} f2 : sProp 𝕄) = ((y2V).view.loc 𝕋 ↦{fullShare} f2) from rfl)) $$ Hy2
  ihave Hy3v := (Entails.of_eq (show ((V d (cK L) (jK L)).loc cc0_scratch3 ↦{fullShare} f3 : sProp 𝕄) = ((y3V).view.loc 𝕋 ↦{fullShare} f3) from rfl)) $$ Hy3
  ihave Hy4v := (Entails.of_eq (show ((V d (cK L) (jK L)).loc cc0_scratch4 ↦{fullShare} f4 : sProp 𝕄) = ((y4V).view.loc 𝕋 ↦{fullShare} f4) from rfl)) $$ Hy4
  ihave Htmp := (pointsTo_share (PosShare.mem_left_op_right q)).1 $$ He
  icases Htmp with ⟨Hed1, Hek0⟩
  ihave Htmp := (pointsTo_share (PosShare.mem_left_op_right q.left)).1 $$ Hed1
  icases Htmp with ⟨Hed2, Hek1⟩
  ihave Htmp := (pointsTo_share (PosShare.mem_left_op_right q.left.left)).1 $$ Hed2
  icases Htmp with ⟨Hed3, Hek2⟩
  ihave Htmp := (pointsTo_share (PosShare.mem_left_op_right q.left.left.left)).1 $$ Hed3
  icases Htmp with ⟨Hed4, Hek3⟩
  ihave He0 := (Entails.of_eq (show (((eV).view.loc 𝕋 ↦{q.right} m (eLoc d)) : sProp 𝕄) = ((eV).view.loc 𝕋 ↦{Transfers.shareTokN q 0} m (eLoc d)) from rfl)) $$ Hek0
  ihave He1 := (Entails.of_eq (show (((eV).view.loc 𝕋 ↦{q.left.right} m (eLoc d)) : sProp 𝕄) = ((eV).view.loc 𝕋 ↦{Transfers.shareTokN q 1} m (eLoc d)) from rfl)) $$ Hek1
  ihave He2 := (Entails.of_eq (show (((eV).view.loc 𝕋 ↦{q.left.left.right} m (eLoc d)) : sProp 𝕄) = ((eV).view.loc 𝕋 ↦{Transfers.shareTokN q 2} m (eLoc d)) from rfl)) $$ Hek2
  ihave He3 := (Entails.of_eq (show (((eV).view.loc 𝕋 ↦{q.left.left.left.right} m (eLoc d)) : sProp 𝕄) = ((eV).view.loc 𝕋 ↦{Transfers.shareTokN q 3} m (eLoc d)) from rfl)) $$ Hek3
  ihave Htmp := (pointsTo_share (PosShare.mem_left_op_right q)).1 $$ Hl
  icases Htmp with ⟨Hld1, Hlk0⟩
  ihave Htmp := (pointsTo_share (PosShare.mem_left_op_right q.left)).1 $$ Hld1
  icases Htmp with ⟨Hld2, Hlk1⟩
  ihave Htmp := (pointsTo_share (PosShare.mem_left_op_right q.left.left)).1 $$ Hld2
  icases Htmp with ⟨Hld3, Hlk2⟩
  ihave Htmp := (pointsTo_share (PosShare.mem_left_op_right q.left.left.left)).1 $$ Hld3
  icases Htmp with ⟨Hld4, Hlk3⟩
  ihave Hl0 := (Entails.of_eq (show (((lV).view.loc 𝕋 ↦{q.right} m (lLoc d)) : sProp 𝕄) = ((lV).view.loc 𝕋 ↦{Transfers.shareTokN q 0} m (lLoc d)) from rfl)) $$ Hlk0
  ihave Hl1 := (Entails.of_eq (show (((lV).view.loc 𝕋 ↦{q.left.right} m (lLoc d)) : sProp 𝕄) = ((lV).view.loc 𝕋 ↦{Transfers.shareTokN q 1} m (lLoc d)) from rfl)) $$ Hlk1
  ihave Hl2 := (Entails.of_eq (show (((lV).view.loc 𝕋 ↦{q.left.left.right} m (lLoc d)) : sProp 𝕄) = ((lV).view.loc 𝕋 ↦{Transfers.shareTokN q 2} m (lLoc d)) from rfl)) $$ Hlk2
  ihave Hl3 := (Entails.of_eq (show (((lV).view.loc 𝕋 ↦{q.left.left.left.right} m (lLoc d)) : sProp 𝕄) = ((lV).view.loc 𝕋 ↦{Transfers.shareTokN q 3} m (lLoc d)) from rfl)) $$ Hlk3
  set_option sl_exec.maxSteps 30 in sl_exec
  have hin0 : ∀ x, ((xV.slice (Rect.unit (s := S1536) ![0] S128.size inb_S1536_S128_0) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_h (m := m) hpre (d := d) (L := L) 0 inb_S1536_S128_0 (fun _ => rfl)
  have hin1 : ∀ x, ((xV.slice (Rect.unit (s := S1536) ![128] S128.size inb_S1536_S128_128) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_h (m := m) hpre (d := d) (L := L) 1 inb_S1536_S128_128 (fun _ => rfl)
  have hin2 : ∀ x, ((xV.slice (Rect.unit (s := S1536) ![256] S128.size inb_S1536_S128_256) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_h (m := m) hpre (d := d) (L := L) 2 inb_S1536_S128_256 (fun _ => rfl)
  have hin3 : ∀ x, ((xV.slice (Rect.unit (s := S1536) ![384] S128.size inb_S1536_S128_384) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_h (m := m) hpre (d := d) (L := L) 3 inb_S1536_S128_384 (fun _ => rfl)
  have hin4 : ∀ x, ((xV.slice (Rect.unit (s := S1536) ![512] S128.size inb_S1536_S128_512) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 1000 :=
    list_inb_r (m := m) hpre (d := d) (L := L) 0 inb_S1536_S128_512 (fun _ => rfl)
  have hin5 : ∀ x, ((xV.slice (Rect.unit (s := S1536) ![640] S128.size inb_S1536_S128_640) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 1000 :=
    list_inb_r (m := m) hpre (d := d) (L := L) 1 inb_S1536_S128_640 (fun _ => rfl)
  have hin6 : ∀ x, ((xV.slice (Rect.unit (s := S1536) ![768] S128.size inb_S1536_S128_768) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 1000 :=
    list_inb_r (m := m) hpre (d := d) (L := L) 2 inb_S1536_S128_768 (fun _ => rfl)
  have hin7 : ∀ x, ((xV.slice (Rect.unit (s := S1536) ![896] S128.size inb_S1536_S128_896) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 1000 :=
    list_inb_r (m := m) hpre (d := d) (L := L) 3 inb_S1536_S128_896 (fun _ => rfl)
  have hin8 : ∀ x, ((xV.slice (Rect.unit (s := S1536) ![1024] S128.size inb_S1536_S128_1024) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_t (m := m) hpre (d := d) (L := L) 0 inb_S1536_S128_1024 (fun _ => rfl)
  have hin9 : ∀ x, ((xV.slice (Rect.unit (s := S1536) ![1152] S128.size inb_S1536_S128_1152) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_t (m := m) hpre (d := d) (L := L) 1 inb_S1536_S128_1152 (fun _ => rfl)
  have hin10 : ∀ x, ((xV.slice (Rect.unit (s := S1536) ![1280] S128.size inb_S1536_S128_1280) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_t (m := m) hpre (d := d) (L := L) 2 inb_S1536_S128_1280 (fun _ => rfl)
  have hin11 : ∀ x, ((xV.slice (Rect.unit (s := S1536) ![1408] S128.size inb_S1536_S128_1408) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_t (m := m) hpre (d := d) (L := L) 3 inb_S1536_S128_1408 (fun _ => rfl)
  sl_exec
  have va0 : ∀ j ∈ (aWin L 0).view.set, ((aWin L 0).view.writes (Elt F) (m (aLoc d)) [⟨Rect.whole S128x128, tile_body.sl.dma0_3 m d L f1 hin0⟩]) j = resA m d j :=
    chunk_a (m := m) hpre (d := d) (L := L) 0 y1V _ _ _ _ _ _ _ _ _ _
  ihave Ha0' := (Entails.of_eq (pointsTo_congr (va0))) $$ Ha0
  have va1 : ∀ j ∈ (aWin L 1).view.set, ((aWin L 1).view.writes (Elt F) (m (aLoc d)) [⟨Rect.whole S128x128, tile_body.sl.dma0_4 m d L f2 hin1⟩]) j = resA m d j :=
    chunk_a (m := m) hpre (d := d) (L := L) 1 y2V _ _ _ _ _ _ _ _ _ _
  ihave Ha1' := (Entails.of_eq (pointsTo_congr (va1))) $$ Ha1
  have va2 : ∀ j ∈ (aWin L 2).view.set, ((aWin L 2).view.writes (Elt F) (m (aLoc d)) [⟨Rect.whole S128x128, tile_body.sl.dma0_5 m d L f3 hin2⟩]) j = resA m d j :=
    chunk_a (m := m) hpre (d := d) (L := L) 2 y3V _ _ _ _ _ _ _ _ _ _
  ihave Ha2' := (Entails.of_eq (pointsTo_congr (va2))) $$ Ha2
  have va3 : ∀ j ∈ (aWin L 3).view.set, ((aWin L 3).view.writes (Elt F) (m (aLoc d)) [⟨Rect.whole S128x128, tile_body.sl.dma0_6 m d L f4 hin3⟩]) j = resA m d j :=
    chunk_a (m := m) hpre (d := d) (L := L) 3 y4V _ _ _ _ _ _ _ _ _ _
  ihave Ha3' := (Entails.of_eq (pointsTo_congr (va3))) $$ Ha3
  have vb0 : ∀ j ∈ (bWin L 0).view.set, ((bWin L 0).view.writes (Elt F) (m (bLoc d)) [⟨Rect.whole S128x128, tile_body.sl.dma0_7 m d L f1 hin0 hin4⟩]) j = resB m d j :=
    chunk_b (m := m) hpre (d := d) (L := L) 0 y1V _ _ _ _ _ _ _ _ _ _
  ihave Hb0' := (Entails.of_eq (pointsTo_congr (vb0))) $$ Hb0
  have vb1 : ∀ j ∈ (bWin L 1).view.set, ((bWin L 1).view.writes (Elt F) (m (bLoc d)) [⟨Rect.whole S128x128, tile_body.sl.dma0_8 m d L f2 hin1 hin5⟩]) j = resB m d j :=
    chunk_b (m := m) hpre (d := d) (L := L) 1 y2V _ _ _ _ _ _ _ _ _ _
  ihave Hb1' := (Entails.of_eq (pointsTo_congr (vb1))) $$ Hb1
  have vb2 : ∀ j ∈ (bWin L 2).view.set, ((bWin L 2).view.writes (Elt F) (m (bLoc d)) [⟨Rect.whole S128x128, tile_body.sl.dma0_9 m d L f3 hin2 hin6⟩]) j = resB m d j :=
    chunk_b (m := m) hpre (d := d) (L := L) 2 y3V _ _ _ _ _ _ _ _ _ _
  ihave Hb2' := (Entails.of_eq (pointsTo_congr (vb2))) $$ Hb2
  have vb3 : ∀ j ∈ (bWin L 3).view.set, ((bWin L 3).view.writes (Elt F) (m (bLoc d)) [⟨Rect.whole S128x128, tile_body.sl.dma0_10 m d L f4 hin3 hin7⟩]) j = resB m d j :=
    chunk_b (m := m) hpre (d := d) (L := L) 3 y4V _ _ _ _ _ _ _ _ _ _
  ihave Hb3' := (Entails.of_eq (pointsTo_congr (vb3))) $$ Hb3
  have vc0 : ∀ j ∈ (cWin L 0).view.set, ((cWin L 0).view.writes (Elt F) (m (cLoc d)) [⟨Rect.whole S128x128, tile_body.sl.dma0_11 m d L f1 hin0 hin4 hin8⟩]) j = resC m d j :=
    chunk_c (m := m) hpre (d := d) (L := L) 0 y1V _ _ _ _ _ _ _ _ _ _
  ihave Hc0' := (Entails.of_eq (pointsTo_congr (vc0))) $$ Hc0
  have vc1 : ∀ j ∈ (cWin L 1).view.set, ((cWin L 1).view.writes (Elt F) (m (cLoc d)) [⟨Rect.whole S128x128, tile_body.sl.dma0_12 m d L f2 hin1 hin5 hin9⟩]) j = resC m d j :=
    chunk_c (m := m) hpre (d := d) (L := L) 1 y2V _ _ _ _ _ _ _ _ _ _
  ihave Hc1' := (Entails.of_eq (pointsTo_congr (vc1))) $$ Hc1
  have vc2 : ∀ j ∈ (cWin L 2).view.set, ((cWin L 2).view.writes (Elt F) (m (cLoc d)) [⟨Rect.whole S128x128, tile_body.sl.dma0_13 m d L f3 hin2 hin6 hin10⟩]) j = resC m d j :=
    chunk_c (m := m) hpre (d := d) (L := L) 2 y3V _ _ _ _ _ _ _ _ _ _
  ihave Hc2' := (Entails.of_eq (pointsTo_congr (vc2))) $$ Hc2
  have vc3 : ∀ j ∈ (cWin L 3).view.set, ((cWin L 3).view.writes (Elt F) (m (cLoc d)) [⟨Rect.whole S128x128, tile_body.sl.dma0_14 m d L f4 hin3 hin7 hin11⟩]) j = resC m d j :=
    chunk_c (m := m) hpre (d := d) (L := L) 3 y4V _ _ _ _ _ _ _ _ _ _
  ihave Hc3' := (Entails.of_eq (pointsTo_congr (vc3))) $$ Hc3
  ihave Her3 := (Entails.of_eq (show (((eV).view.loc 𝕋 ↦{Transfers.shareTokN q 3} m (eLoc d)) : sProp 𝕄) = ((eV).view.loc 𝕋 ↦{q.left.left.left.right} m (eLoc d)) from rfl)) $$ He3
  ihave Hej3 := (pointsTo_share (PosShare.mem_left_op_right q.left.left.left)).2 $$ [Hed4 Her3]
  · isplitl [Hed4] <;> iassumption
  ihave Her2 := (Entails.of_eq (show (((eV).view.loc 𝕋 ↦{Transfers.shareTokN q 2} m (eLoc d)) : sProp 𝕄) = ((eV).view.loc 𝕋 ↦{q.left.left.right} m (eLoc d)) from rfl)) $$ He2
  ihave Hej2 := (pointsTo_share (PosShare.mem_left_op_right q.left.left)).2 $$ [Hej3 Her2]
  · isplitl [Hej3] <;> iassumption
  ihave Her1 := (Entails.of_eq (show (((eV).view.loc 𝕋 ↦{Transfers.shareTokN q 1} m (eLoc d)) : sProp 𝕄) = ((eV).view.loc 𝕋 ↦{q.left.right} m (eLoc d)) from rfl)) $$ He1
  ihave Hej1 := (pointsTo_share (PosShare.mem_left_op_right q.left)).2 $$ [Hej2 Her1]
  · isplitl [Hej2] <;> iassumption
  ihave Her0 := (Entails.of_eq (show (((eV).view.loc 𝕋 ↦{Transfers.shareTokN q 0} m (eLoc d)) : sProp 𝕄) = ((eV).view.loc 𝕋 ↦{q.right} m (eLoc d)) from rfl)) $$ He0
  ihave Hej0 := (pointsTo_share (PosShare.mem_left_op_right q)).2 $$ [Hej1 Her0]
  · isplitl [Hej1] <;> iassumption
  ihave Hlr3 := (Entails.of_eq (show (((lV).view.loc 𝕋 ↦{Transfers.shareTokN q 3} m (lLoc d)) : sProp 𝕄) = ((lV).view.loc 𝕋 ↦{q.left.left.left.right} m (lLoc d)) from rfl)) $$ Hl3
  ihave Hlj3 := (pointsTo_share (PosShare.mem_left_op_right q.left.left.left)).2 $$ [Hld4 Hlr3]
  · isplitl [Hld4] <;> iassumption
  ihave Hlr2 := (Entails.of_eq (show (((lV).view.loc 𝕋 ↦{Transfers.shareTokN q 2} m (lLoc d)) : sProp 𝕄) = ((lV).view.loc 𝕋 ↦{q.left.left.right} m (lLoc d)) from rfl)) $$ Hl2
  ihave Hlj2 := (pointsTo_share (PosShare.mem_left_op_right q.left.left)).2 $$ [Hlj3 Hlr2]
  · isplitl [Hlj3] <;> iassumption
  ihave Hlr1 := (Entails.of_eq (show (((lV).view.loc 𝕋 ↦{Transfers.shareTokN q 1} m (lLoc d)) : sProp 𝕄) = ((lV).view.loc 𝕋 ↦{q.left.right} m (lLoc d)) from rfl)) $$ Hl1
  ihave Hlj1 := (pointsTo_share (PosShare.mem_left_op_right q.left)).2 $$ [Hlj2 Hlr1]
  · isplitl [Hlj2] <;> iassumption
  ihave Hlr0 := (Entails.of_eq (show (((lV).view.loc 𝕋 ↦{Transfers.shareTokN q 0} m (lLoc d)) : sProp 𝕄) = ((lV).view.loc 𝕋 ↦{q.right} m (lLoc d)) from rfl)) $$ Hl0
  ihave Hlj0 := (pointsTo_share (PosShare.mem_left_op_right q)).2 $$ [Hlj1 Hlr0]
  · isplitl [Hlj1] <;> iassumption
  sl_step
  isplitl [Hh Hr Ht Hej0 Hlj0 Ha0' Ha1' Ha2' Ha3' Hb0' Hb1' Hb2' Hb3' Hc0' Hc1' Hc2' Hc3']
  · isplitl [Hh]; · iexact Hh
    isplitl [Hr]; · iexact Hr
    isplitl [Ht]; · iexact Ht
    isplitl [Hej0]; · iexact Hej0
    isplitl [Hlj0]; · iexact Hlj0
    isplitl [Ha0']; · iexact Ha0'
    isplitl [Ha1']; · iexact Ha1'
    isplitl [Ha2']; · iexact Ha2'
    isplitl [Ha3']; · iexact Ha3'
    isplitl [Hb0']; · iexact Hb0'
    isplitl [Hb1']; · iexact Hb1'
    isplitl [Hb2']; · iexact Hb2'
    isplitl [Hb3']; · iexact Hb3'
    isplitl [Hc0']; · iexact Hc0'
    isplitl [Hc1']; · iexact Hc1'
    isplitl [Hc2']; · iexact Hc2'
    iexact Hc3'
  isplitl [Hxv Hy1v Hy2v Hy3v Hy4v Hbufs]
  · isplitl [Hxv]; · iexists _; iexact Hxv
    isplitl [Hy1v]; · iexists _; iexact Hy1v
    isplitl [Hy2v]; · iexists _; iexact Hy2v
    isplitl [Hy3v]; · iexists _; iexact Hy3v
    isplitl [Hy4v]; · iexists _; iexact Hy4v
    iexact Hbufs
  isplitl [Hs0 Hs1 Hs2 Hs3 Hs4 Hs5 Hs6 Hs7 Hs8 Hs9 Hs10]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hs10
  iexists _; isplitr
  swap; · iexact HO
  ipureintro; intro p hp
  iterate 27 (rcases Finset.mem_insert.mp hp with hp | hp; · exact .inr (hp ▸ rfl))
  exact .inl hp

end Tile

end Cert.Proof.Kernel

end
-- ==== Proof.KernelArrays.lean ====
/-
  The eight arrays held whole are the same as what the two SparseCores are handed, beside the part of the table shares
  nobody takes: each index array is its thirty-two runs, each result array its 128 chunks, each table its read shares.
  Associativity and commutativity of the separating conjunction do the rest.
-/
import proofs.«203265_g75239237091449_cont_9to1_m_620_5_alg».proof.Proof.KernelPay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The separating conjunction is commutative and associative, as equations. -/
theorem sepC (P Q : sProp 𝕄) : (iprop(P ∗ Q) : sProp 𝕄) = iprop(Q ∗ P) :=
  BI.equiv_iff.mp ⟨(sep_comm (PROP := sProp 𝕄) (P := P) (Q := Q)).1, (sep_comm (PROP := sProp 𝕄) (P := P) (Q := Q)).2⟩
theorem sepA (P Q R : sProp 𝕄) : (iprop((P ∗ Q) ∗ R) : sProp 𝕄) = iprop(P ∗ Q ∗ R) :=
  BI.equiv_iff.mp ⟨(sep_assoc (PROP := sProp 𝕄) (P := P) (Q := Q) (R := R)).1, (sep_assoc (PROP := sProp 𝕄) (P := P) (Q := Q) (R := R)).2⟩

instance sepComm : Std.Commutative (α := sProp 𝕄) (fun P Q => iprop(P ∗ Q)) := ⟨sepC⟩
instance sepAssoc : Std.Associative (α := sProp 𝕄) (fun P Q => iprop(P ∗ Q)) := ⟨sepA⟩

/-- A buffer held whole is a family of pairwise disjoint element sets covering it, held side by side. -/
theorem pts_family {ℓ : Loc nD τ sig} {T : Type} [Fintype T] (Kf : T → Finset (Idx ℓ))
    (hd : ∀ t ∈ (Finset.univ : Finset T), ∀ t' ∈ (Finset.univ : Finset T), t ≠ t' → Disjoint (Kf t) (Kf t'))
    (hc : (Finset.univ : Finset T).biUnion Kf = Finset.univ) (q : PosShare TreeShare) (f : Buf (Elt F) ℓ) :
    (ℓ ↦{q} f : sProp 𝕄) = bigSep Finset.univ fun t => ℓ ↦[Kf t]{q} f :=
  (congrArg (fun S => pointsTo ℓ S q f) hc.symm).trans (pointsTo_biUnion Finset.univ Kf hd)

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- A table held whole is its read shares: what no SparseCore takes, and per SparseCore what no subcore takes and the
    subcores' shares. -/
theorem tbl_split {ℓ : Loc nD τ sig} (f : Buf (Elt F) ℓ) :
    (ℓ ↦{fullShare} f : sProp 𝕄) = iprop((ℓ ↦{qTop (F := F)} f)
      ∗ bigSep Finset.univ fun c => iprop((ℓ ↦{qCrest (F := F) c} f) ∗ bigSep Finset.univ fun i => ℓ ↦{qT (F := F) c i} f)) := by
  have h1 := Transfers.pointsTo_toks (nD := nD) (τ := τ) (sig := sig) (Ix := HIx 1) (Val := Elt F) (Name := ℕ) (U := UU) (Lvl := ℕ) (ℓ := ℓ) (S := Finset.univ) (f := f) fullShare ((K (F := F)).nCore 0)
  rw [BI.equiv_iff.mp ⟨h1.1, h1.2⟩]
  congr 1
  refine bigSep_congr fun c _ => ?_
  have h2 := Transfers.pointsTo_toks (nD := nD) (τ := τ) (sig := sig) (Ix := HIx 1) (Val := Elt F) (Name := ℕ) (U := UU) (Lvl := ℕ) (ℓ := ℓ) (S := Finset.univ) (f := f) (qC (F := F) c) ((K (F := F)).nSub 0)
  exact BI.equiv_iff.mp ⟨h2.1, h2.2⟩

theorem h_split (d : Dev nD) (f : Buf (Elt F) (hLoc d)) :
    (hLoc d ↦{fullShare} f : sProp 𝕄) = bigSep Finset.univ fun c => bigSep Finset.univ fun i => ((hWin (Lof (F := F) c i)).view.loc (V d (cK (Lof (F := F) c i)) (jK (Lof (F := F) c i))) ↦[(hWin (Lof (F := F) c i)).view.set]{fullShare} f) := by
  refine ((pts_family (ℓ := hLoc d) (idxSet (F := F)) idxSet_disjoint idxSet_cover fullShare f).trans (bigSep_congr fun p _ => ?_)).trans
    (bigSep_univ_prod (fun p : TI (F := F) => (((hWin (Lof (F := F) p.1 p.2)).view.loc (V d (cK (Lof (F := F) p.1 p.2)) (jK (Lof (F := F) p.1 p.2))) ↦[(hWin (Lof (F := F) p.1 p.2)).view.set]{fullShare} f) : sProp 𝕄)))
  exact congrArg (fun S => pointsTo (hLoc d) S fullShare f) (View.set_slice_whole _ _).symm

theorem r_split (d : Dev nD) (f : Buf (Elt F) (rLoc d)) :
    (rLoc d ↦{fullShare} f : sProp 𝕄) = bigSep Finset.univ fun c => bigSep Finset.univ fun i => ((rWin (Lof (F := F) c i)).view.loc (V d (cK (Lof (F := F) c i)) (jK (Lof (F := F) c i))) ↦[(rWin (Lof (F := F) c i)).view.set]{fullShare} f) := by
  refine ((pts_family (ℓ := rLoc d) (idxSet (F := F)) idxSet_disjoint idxSet_cover fullShare f).trans (bigSep_congr fun p _ => ?_)).trans
    (bigSep_univ_prod (fun p : TI (F := F) => (((rWin (Lof (F := F) p.1 p.2)).view.loc (V d (cK (Lof (F := F) p.1 p.2)) (jK (Lof (F := F) p.1 p.2))) ↦[(rWin (Lof (F := F) p.1 p.2)).view.set]{fullShare} f) : sProp 𝕄)))
  exact congrArg (fun S => pointsTo (rLoc d) S fullShare f) (View.set_slice_whole _ _).symm

theorem t_split (d : Dev nD) (f : Buf (Elt F) (tLoc d)) :
    (tLoc d ↦{fullShare} f : sProp 𝕄) = bigSep Finset.univ fun c => bigSep Finset.univ fun i => ((tWin (Lof (F := F) c i)).view.loc (V d (cK (Lof (F := F) c i)) (jK (Lof (F := F) c i))) ↦[(tWin (Lof (F := F) c i)).view.set]{fullShare} f) := by
  refine ((pts_family (ℓ := tLoc d) (idxSet (F := F)) idxSet_disjoint idxSet_cover fullShare f).trans (bigSep_congr fun p _ => ?_)).trans
    (bigSep_univ_prod (fun p : TI (F := F) => (((tWin (Lof (F := F) p.1 p.2)).view.loc (V d (cK (Lof (F := F) p.1 p.2)) (jK (Lof (F := F) p.1 p.2))) ↦[(tWin (Lof (F := F) p.1 p.2)).view.set]{fullShare} f) : sProp 𝕄)))
  exact congrArg (fun S => pointsTo (tLoc d) S fullShare f) (View.set_slice_whole _ _).symm

theorem e_split (d : Dev nD) (f : Buf (Elt F) (eLoc d)) :
    (eLoc d ↦{fullShare} f : sProp 𝕄) = iprop((eLoc d ↦{qTop (F := F)} f)
      ∗ bigSep Finset.univ fun c => iprop((eLoc d ↦{qCrest (F := F) c} f)
        ∗ bigSep Finset.univ fun i => ((eV).view.loc (V d (cK (Lof (F := F) c i)) (jK (Lof (F := F) c i))) ↦{qT (F := F) c i} f))) :=
  tbl_split f

theorem l_split (d : Dev nD) (f : Buf (Elt F) (lLoc d)) :
    (lLoc d ↦{fullShare} f : sProp 𝕄) = iprop((lLoc d ↦{qTop (F := F)} f)
      ∗ bigSep Finset.univ fun c => iprop((lLoc d ↦{qCrest (F := F) c} f)
        ∗ bigSep Finset.univ fun i => ((lV).view.loc (V d (cK (Lof (F := F) c i)) (jK (Lof (F := F) c i))) ↦{qT (F := F) c i} f))) :=
  tbl_split f

theorem a_split (d : Dev nD) (f : Buf (Elt F) (aLoc d)) :
    (aLoc d ↦{fullShare} f : sProp 𝕄) = bigSep Finset.univ fun c => bigSep Finset.univ fun i =>
      iprop(((aWin (Lof (F := F) c i) 0).view.loc (V d (cK (Lof (F := F) c i)) (jK (Lof (F := F) c i))) ↦[(aWin (Lof (F := F) c i) 0).view.set]{fullShare} f) ∗ ((aWin (Lof (F := F) c i) 1).view.loc (V d (cK (Lof (F := F) c i)) (jK (Lof (F := F) c i))) ↦[(aWin (Lof (F := F) c i) 1).view.set]{fullShare} f)
        ∗ ((aWin (Lof (F := F) c i) 2).view.loc (V d (cK (Lof (F := F) c i)) (jK (Lof (F := F) c i))) ↦[(aWin (Lof (F := F) c i) 2).view.set]{fullShare} f) ∗ ((aWin (Lof (F := F) c i) 3).view.loc (V d (cK (Lof (F := F) c i)) (jK (Lof (F := F) c i))) ↦[(aWin (Lof (F := F) c i) 3).view.set]{fullShare} f)) := by
  refine (((pts_family (ℓ := aLoc d) (outSet (F := F)) outSet_disjoint outSet_cover fullShare f).trans (bigSep_congr fun p _ => ?_)).trans
    (bigSep_univ_prod (fun p : TI (F := F) × Fin 4 => (((aWin (Lof (F := F) p.1.1 p.1.2) p.2).view.loc (V d (cK (Lof (F := F) p.1.1 p.1.2)) (jK (Lof (F := F) p.1.1 p.1.2))) ↦[(aWin (Lof (F := F) p.1.1 p.1.2) p.2).view.set]{fullShare} f) : sProp 𝕄)))).trans ?_
  · exact congrArg (fun S => pointsTo (aLoc d) S fullShare f) (View.set_slice_whole _ _).symm
  · refine (bigSep_congr fun p _ => bigSep_fin4 _).trans
      (bigSep_univ_prod (fun p : TI (F := F) => (iprop(((aWin (Lof (F := F) p.1 p.2) 0).view.loc (V d (cK (Lof (F := F) p.1 p.2)) (jK (Lof (F := F) p.1 p.2))) ↦[(aWin (Lof (F := F) p.1 p.2) 0).view.set]{fullShare} f) ∗ ((aWin (Lof (F := F) p.1 p.2) 1).view.loc (V d (cK (Lof (F := F) p.1 p.2)) (jK (Lof (F := F) p.1 p.2))) ↦[(aWin (Lof (F := F) p.1 p.2) 1).view.set]{fullShare} f)
        ∗ ((aWin (Lof (F := F) p.1 p.2) 2).view.loc (V d (cK (Lof (F := F) p.1 p.2)) (jK (Lof (F := F) p.1 p.2))) ↦[(aWin (Lof (F := F) p.1 p.2) 2).view.set]{fullShare} f) ∗ ((aWin (Lof (F := F) p.1 p.2) 3).view.loc (V d (cK (Lof (F := F) p.1 p.2)) (jK (Lof (F := F) p.1 p.2))) ↦[(aWin (Lof (F := F) p.1 p.2) 3).view.set]{fullShare} f)) : sProp 𝕄)))

theorem b_split (d : Dev nD) (f : Buf (Elt F) (bLoc d)) :
    (bLoc d ↦{fullShare} f : sProp 𝕄) = bigSep Finset.univ fun c => bigSep Finset.univ fun i =>
      iprop(((bWin (Lof (F := F) c i) 0).view.loc (V d (cK (Lof (F := F) c i)) (jK (Lof (F := F) c i))) ↦[(bWin (Lof (F := F) c i) 0).view.set]{fullShare} f) ∗ ((bWin (Lof (F := F) c i) 1).view.loc (V d (cK (Lof (F := F) c i)) (jK (Lof (F := F) c i))) ↦[(bWin (Lof (F := F) c i) 1).view.set]{fullShare} f)
        ∗ ((bWin (Lof (F := F) c i) 2).view.loc (V d (cK (Lof (F := F) c i)) (jK (Lof (F := F) c i))) ↦[(bWin (Lof (F := F) c i) 2).view.set]{fullShare} f) ∗ ((bWin (Lof (F := F) c i) 3).view.loc (V d (cK (Lof (F := F) c i)) (jK (Lof (F := F) c i))) ↦[(bWin (Lof (F := F) c i) 3).view.set]{fullShare} f)) := by
  refine (((pts_family (ℓ := bLoc d) (outSet (F := F)) outSet_disjoint outSet_cover fullShare f).trans (bigSep_congr fun p _ => ?_)).trans
    (bigSep_univ_prod (fun p : TI (F := F) × Fin 4 => (((bWin (Lof (F := F) p.1.1 p.1.2) p.2).view.loc (V d (cK (Lof (F := F) p.1.1 p.1.2)) (jK (Lof (F := F) p.1.1 p.1.2))) ↦[(bWin (Lof (F := F) p.1.1 p.1.2) p.2).view.set]{fullShare} f) : sProp 𝕄)))).trans ?_
  · exact congrArg (fun S => pointsTo (bLoc d) S fullShare f) (View.set_slice_whole _ _).symm
  · refine (bigSep_congr fun p _ => bigSep_fin4 _).trans
      (bigSep_univ_prod (fun p : TI (F := F) => (iprop(((bWin (Lof (F := F) p.1 p.2) 0).view.loc (V d (cK (Lof (F := F) p.1 p.2)) (jK (Lof (F := F) p.1 p.2))) ↦[(bWin (Lof (F := F) p.1 p.2) 0).view.set]{fullShare} f) ∗ ((bWin (Lof (F := F) p.1 p.2) 1).view.loc (V d (cK (Lof (F := F) p.1 p.2)) (jK (Lof (F := F) p.1 p.2))) ↦[(bWin (Lof (F := F) p.1 p.2) 1).view.set]{fullShare} f)
        ∗ ((bWin (Lof (F := F) p.1 p.2) 2).view.loc (V d (cK (Lof (F := F) p.1 p.2)) (jK (Lof (F := F) p.1 p.2))) ↦[(bWin (Lof (F := F) p.1 p.2) 2).view.set]{fullShare} f) ∗ ((bWin (Lof (F := F) p.1 p.2) 3).view.loc (V d (cK (Lof (F := F) p.1 p.2)) (jK (Lof (F := F) p.1 p.2))) ↦[(bWin (Lof (F := F) p.1 p.2) 3).view.set]{fullShare} f)) : sProp 𝕄)))

theorem c_split (d : Dev nD) (f : Buf (Elt F) (cLoc d)) :
    (cLoc d ↦{fullShare} f : sProp 𝕄) = bigSep Finset.univ fun c => bigSep Finset.univ fun i =>
      iprop(((cWin (Lof (F := F) c i) 0).view.loc (V d (cK (Lof (F := F) c i)) (jK (Lof (F := F) c i))) ↦[(cWin (Lof (F := F) c i) 0).view.set]{fullShare} f) ∗ ((cWin (Lof (F := F) c i) 1).view.loc (V d (cK (Lof (F := F) c i)) (jK (Lof (F := F) c i))) ↦[(cWin (Lof (F := F) c i) 1).view.set]{fullShare} f)
        ∗ ((cWin (Lof (F := F) c i) 2).view.loc (V d (cK (Lof (F := F) c i)) (jK (Lof (F := F) c i))) ↦[(cWin (Lof (F := F) c i) 2).view.set]{fullShare} f) ∗ ((cWin (Lof (F := F) c i) 3).view.loc (V d (cK (Lof (F := F) c i)) (jK (Lof (F := F) c i))) ↦[(cWin (Lof (F := F) c i) 3).view.set]{fullShare} f)) := by
  refine (((pts_family (ℓ := cLoc d) (outSet (F := F)) outSet_disjoint outSet_cover fullShare f).trans (bigSep_congr fun p _ => ?_)).trans
    (bigSep_univ_prod (fun p : TI (F := F) × Fin 4 => (((cWin (Lof (F := F) p.1.1 p.1.2) p.2).view.loc (V d (cK (Lof (F := F) p.1.1 p.1.2)) (jK (Lof (F := F) p.1.1 p.1.2))) ↦[(cWin (Lof (F := F) p.1.1 p.1.2) p.2).view.set]{fullShare} f) : sProp 𝕄)))).trans ?_
  · exact congrArg (fun S => pointsTo (cLoc d) S fullShare f) (View.set_slice_whole _ _).symm
  · refine (bigSep_congr fun p _ => bigSep_fin4 _).trans
      (bigSep_univ_prod (fun p : TI (F := F) => (iprop(((cWin (Lof (F := F) p.1 p.2) 0).view.loc (V d (cK (Lof (F := F) p.1 p.2)) (jK (Lof (F := F) p.1 p.2))) ↦[(cWin (Lof (F := F) p.1 p.2) 0).view.set]{fullShare} f) ∗ ((cWin (Lof (F := F) p.1 p.2) 1).view.loc (V d (cK (Lof (F := F) p.1 p.2)) (jK (Lof (F := F) p.1 p.2))) ↦[(cWin (Lof (F := F) p.1 p.2) 1).view.set]{fullShare} f)
        ∗ ((cWin (Lof (F := F) p.1 p.2) 2).view.loc (V d (cK (Lof (F := F) p.1 p.2)) (jK (Lof (F := F) p.1 p.2))) ↦[(cWin (Lof (F := F) p.1 p.2) 2).view.set]{fullShare} f) ∗ ((cWin (Lof (F := F) p.1 p.2) 3).view.loc (V d (cK (Lof (F := F) p.1 p.2)) (jK (Lof (F := F) p.1 p.2))) ↦[(cWin (Lof (F := F) p.1 p.2) 3).view.set]{fullShare} f)) : sProp 𝕄)))

variable (m : (ℓ : Loc nD τ sig) → Buf (Elt F) ℓ)

/-- The eight arrays, whole: the inputs as the launch memory has them, the results at `fa`, `fb`, `fc`. -/
abbrev arrays (d : Dev nD) (fa : Buf (Elt F) (aLoc d)) (fb : Buf (Elt F) (bLoc d)) (fc : Buf (Elt F) (cLoc d)) : sProp 𝕄 :=
  iprop((hLoc d ↦{fullShare} m (hLoc d)) ∗ (rLoc d ↦{fullShare} m (rLoc d)) ∗ (tLoc d ↦{fullShare} m (tLoc d))
    ∗ (eLoc d ↦{fullShare} m (eLoc d)) ∗ (lLoc d ↦{fullShare} m (lLoc d))
    ∗ (aLoc d ↦{fullShare} fa) ∗ (bLoc d ↦{fullShare} fb) ∗ (cLoc d ↦{fullShare} fc))

/-- The part of the table shares no SparseCore takes. -/
abbrev topPay (d : Dev nD) : sProp 𝕄 := iprop((eLoc d ↦{qTop (F := F)} m (eLoc d)) ∗ (lLoc d ↦{qTop (F := F)} m (lLoc d)))

theorem arrays_eq (d : Dev nD) (fa : Buf (Elt F) (aLoc d)) (fb : Buf (Elt F) (bLoc d)) (fc : Buf (Elt F) (cLoc d)) :
    arrays m d fa fb fc
      = iprop((bigSep Finset.univ fun c => iprop((bigSep Finset.univ fun i => tilePay m d (Lof (F := F) c i) (qT (F := F) c i) fa fb fc) ∗ restPay m d c))
          ∗ topPay m d) := by
  unfold arrays topPay
  rw [h_split, r_split, t_split, e_split, l_split, a_split, b_split, c_split]
  simp only [restPay, tilePay, bigSep_sep']
  ac_rfl

end Cert.Proof.Kernel

end
-- ==== Proof.KernelLaunch.lean ====
/-
  The launch: each subcore's task is the body's run at its grid point; a SparseCore's operands are its subcores' and the
  part of its table shares none of them takes; the TensorCore hands the two SparseCores the eight arrays, divided, and
  takes them back with the three result arrays holding the looked-up rows. The final memory then reads: the five
  argument arrays as at the launch, each result array the lookup of its table by its index array.
-/
import proofs.«203265_g75239237091449_cont_9to1_m_620_5_alg».proof.Proof.KernelBody
import proofs.«203265_g75239237091449_cont_9to1_m_620_5_alg».proof.Proof.KernelArrays

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The obligation -/

theorem defs₀_vector (c : Fin τ.nSC) (s : Fin τ.nSub) :
    defs₀ (F := F) (.scVector c s) 0 ()
      = SparseCore.onTile hcore0 hsub0 (fun c s => cc0_k (coordsV c s) hV (Memref.isWhole_whole _) rV (Memref.isWhole_whole _) tV (Memref.isWhole_whole _) eV (Memref.isWhole_whole _) lV (Memref.isWhole_whole _) aV (Memref.isWhole_whole _) bV (Memref.isWhole_whole _) cV (Memref.isWhole_whole _) xV (Memref.isWhole_whole _) y1V (Memref.isWhole_whole _) y2V (Memref.isWhole_whole _) y3V (Memref.isWhole_whole _) y4V (Memref.isWhole_whole _) cc0_scratch5 cc0_scratch6 cc0_scratch7 cc0_scratch8 cc0_scratch9 cc0_scratch10 cc0_scratch11 cc0_scratch12 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre (qT (F := F) c i) O W hO).trans (wp_mono frame _ _ fun _ => obl_post)

/-! ## A SparseCore's operands are its subcores' -/

theorem vecSplit : (K (F := F)).VecSplit' (P m) 0 := by
  intro d c
  show iprop((bigSep Finset.univ fun i => goPay m d c i) ∗ restPay m d c) ⊢ |={Set.univ}=> iprop(
      (bigSep Finset.univ fun i => goPay m d c i)
      ∗ ((bigSep Finset.univ fun i => tdPay m d c i) -∗ iprop((bigSep Finset.univ fun i => tdPay m d c i) ∗ restPay m d c)))
  iintro ⟨Hgo, Hrest⟩; imodintro
  isplitl [Hgo]; · iexact Hgo
  iintro Htd
  isplitl [Htd]; · iexact Htd
  iexact Hrest

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((hLoc d ↦{fullShare} W main_arg0) ∗ (rLoc d ↦{fullShare} W main_arg1) ∗ (tLoc d ↦{fullShare} W main_arg2)
      ∗ (eLoc d ↦{fullShare} W main_arg3) ∗ (lLoc d ↦{fullShare} W main_arg4)
      ∗ (aLoc d ↦{fullShare} W main_v0_0) ∗ (bLoc d ↦{fullShare} W main_v0_1) ∗ (cLoc d ↦{fullShare} W main_v0_2)) := by
  unfold unscopedBufs
  rw [show (Finset.univ.filter fun b : Ref sig .tc => ¬ b.isScoped) = {main_arg0, main_arg1, main_arg2, main_arg3, main_arg4, main_v0_0, main_v0_1, main_v0_2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the TensorCore ends with: the eight arrays whole, the results looked up. -/
abbrev FIN (d : Dev nD) : sProp 𝕄 := arrays m d (resA m d) (resB m d) (resC m d)

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Harr, -, -⟩, -⟩
  ihave Harr' := (Entails.of_eq (arrays_eq m d (m (aLoc d)) (m (bLoc d)) (m (cLoc d)))) $$ Harr
  icases Harr' with ⟨Hst0, Htop⟩
  iapply ((K (F := F)).wp_run (D (F := F)) 𝒱 (EH := EH) (P := P m) κ d 0) $$ [Hst Hst0 Htop]
  isplitr; · iexact Hctx
  isplitl [Hst]; · iexact Hst
  isplitl [Hst0]; · iexact Hst0
  iintro ⟨Hst, Hdn⟩
  ihave Hfin := (Entails.of_eq (arrays_eq m d (resA m d) (resB m d) (resC m d)).symm) $$ [Hdn Htop]
  · isplitl [Hdn]; · iexact Hdn
    iexact Htop
  imodintro
  isplitl [Hst]; · iexact Hst
  iexact Hfin

def fq (d : Dev nD) (s' : Phys nD τ sig (Elt F)) : Prop :=
  s'.mem.mem (hLoc d) = m (hLoc d) ∧ s'.mem.mem (rLoc d) = m (rLoc d) ∧ s'.mem.mem (tLoc d) = m (tLoc d)
    ∧ s'.mem.mem (eLoc d) = m (eLoc d) ∧ s'.mem.mem (lLoc d) = m (lLoc d)
    ∧ s'.mem.mem (aLoc d) = resA m d ∧ s'.mem.mem (bLoc d) = resB m d ∧ s'.mem.mem (cLoc d) = resC m d

set_option maxRecDepth 16384 in
theorem hfin (d : Dev nD) (s' : Phys nD τ sig (Elt F)) : iprop(FIN m d ∗ SI s') ⊢ (⌜fq m d s'⌝ : sProp 𝕄) := by
  iintro ⟨⟨Hh, Hr, Ht, He, Hl, Ha, Hb, Hc⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%h0, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h3, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h4, HSI, -⟩
  ihave H := (persistent_entails_right (SI_pointsTo_agree (st := s') (ℓ := aLoc d) (I := Finset.univ) (q := fullShare) (f := resA m d))) $$ [HSI Ha]
  · isplitl [HSI] <;> iassumption
  icases H with ⟨%h5, HSI, -⟩
  ihave H := (persistent_entails_right (SI_pointsTo_agree (st := s') (ℓ := bLoc d) (I := Finset.univ) (q := fullShare) (f := resB m d))) $$ [HSI Hb]
  · isplitl [HSI] <;> iassumption
  icases H with ⟨%h6, HSI, -⟩
  ihave H := (SI_pointsTo_agree (st := s') (ℓ := cLoc d) (I := Finset.univ) (q := fullShare) (f := resC m d)) $$ [HSI Hc]
  · isplitl [HSI] <;> iassumption
  icases H with %h7
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i)⟩

/-! ## The program's run -/

/-- The final memory: each result array is the lookup of its table by its index array, and the five argument arrays are
    as at the launch. -/
def QC : PUnit × MemSt nD τ sig (Elt F) → Prop := fun r => ∀ c : Dev nD,
  r.2.mem (aLoc c) = resA m c ∧ r.2.mem (bLoc c) = resB m c ∧ r.2.mem (cLoc c) = resC m c
    ∧ r.2.mem (hLoc c) = m (hLoc c) ∧ r.2.mem (rLoc c) = m (rLoc c) ∧ r.2.mem (tLoc c) = m (tLoc c)
    ∧ r.2.mem (eLoc c) = m (eLoc c) ∧ r.2.mem (lLoc c) = m (lLoc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).2.2.2.2.2.1, (h c).2.2.2.2.2.2.1, (h c).2.2.2.2.2.2.2, (h c).1, (h c).2.1, (h c).2.2.1, (h c).2.2.2.1, (h c).2.2.2.2.1⟩)

end Cert.Proof.Kernel

end
-- ==== Proof.PreRanges.lean ====
/-
  The precondition read back: where the printed predicate is all ones, every index word lies below the height of the
  table it indexes. Only the three integer conjuncts are read; the conjuncts on the float arguments are dropped.
-/
import proofs.«203265_g75239237091449_cont_9to1_m_620_5_alg».proof.Pre_input_domain
import proofs.«203265_g75239237091449_cont_9to1_m_620_5_alg».proof.Proof.Gen.Pre_input_domain
import Idealize.ShloMosaic.Lib.ReduceAll
import Idealize.ShloMosaic.Lib.IdealHost

namespace Cert.PreRanges

open Idealize.ShloMosaic Idealize.ShloMosaic.ValueIdx Cert.Pre_input_domain

instance : Subsingleton S_.Idx := ⟨fun a b => funext fun d => d.elim0⟩

/-- A word that is at least 0 and at most `c` as signed integers, with `c` below `2^31`, is at most `c` as a natural number. -/
theorem word_le (v c : BitVec 32) (hc : c.toNat < 2 ^ 31) (h0 : IntOp.cmpi .sge v 0#32 = 1#1)
    (h1 : IntOp.cmpi .sle v c = 1#1) : v.toNat ≤ c.toNat := by
  rw [IntOp.cmpi_sge] at h0
  rw [IntOp.cmpi_sle] at h1
  rw [BitVec.toInt_eq_toNat_cond, BitVec.toInt_eq_toNat_cond] at h0
  rw [BitVec.toInt_eq_toNat_cond, BitVec.toInt_eq_toNat_cond] at h1
  have hv := v.isLt
  simp only [BitVec.toNat_ofNat, Nat.zero_mod] at h0
  split_ifs at h0 h1 <;> omega

theorem of_pre {F : FTy → Type} [FloatOps F] (a0 a1 a2 : IVec S16384 32) (a3 : FVec F S100000x128 .f32) (a4 : FVec F S1000x128 .f32)
    (h : Cert.Pre_input_domain.fn (F := F) a0 a1 a2 a3 a4 = fun _ => 1#1) :
    (∀ j, (a0 j).toNat < 100000) ∧ (∀ j, (a1 j).toNat < 1000) ∧ (∀ j, (a2 j).toNat < 100000) := by
  have h' := congrFun h ix0
  dsimp only [fn, fn_part1] at h'
  obtain ⟨h4, h2r⟩ := IntOp.andi_eq_one.1 h'
  obtain ⟨h3, h1r⟩ := IntOp.andi_eq_one.1 h4
  obtain ⟨-, h0r⟩ := IntOp.andi_eq_one.1 h3
  have e0 := Host.reduce_andi_all _ _ _ _ ix0 h0r
  have e1 := Host.reduce_andi_all _ _ _ _ ix0 h1r
  have e2 := Host.reduce_andi_all _ _ _ _ ix0 h2r
  have c1 : (99999#32 : BitVec 32).toNat = 99999 := by decide
  have c2 : (999#32 : BitVec 32).toNat = 999 := by decide
  refine ⟨fun j => ?_, fun j => ?_, fun j => ?_⟩
  · obtain ⟨g0, g1⟩ := IntOp.andi_eq_one.1 (e0 j)
    have := word_le (a0 j) 99999#32 (by decide) g0 g1
    omega
  · obtain ⟨g0, g1⟩ := IntOp.andi_eq_one.1 (e1 j)
    have := word_le (a1 j) 999#32 (by decide) g0 g1
    omega
  · obtain ⟨g0, g1⟩ := IntOp.andi_eq_one.1 (e2 j)
    have := word_le (a2 j) 99999#32 (by decide) g0 g1
    omega

end Cert.PreRanges
-- ==== Proof.KernelPre.lean ====
/-
  The precondition gives what the run asks of the launch memory: where the printed predicate is all ones on every device,
  every index word names a row of its table.
-/
import proofs.«203265_g75239237091449_cont_9to1_m_620_5_alg».proof.Defs
import proofs.«203265_g75239237091449_cont_9to1_m_620_5_alg».proof.Proof.PreRanges
import proofs.«203265_g75239237091449_cont_9to1_m_620_5_alg».proof.Proof.KernelPay

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem ok_of_pre (m : (ℓ : Loc nD τ sig) → Buf (Elt F) ℓ)
    (h : ∀ c : Dev nD, Cert.Pre_input_domain.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) : PreOK m :=
  fun d => Cert.PreRanges.of_pre _ _ _ _ _ (h d)

end Cert.Proof.Kernel

end
-- ==== Proof.KernelIdealCommon.lean ====
/-
  The lookup kernel as the SparseCore launch theorem sees it. Thirty-two vector subcores (two SparseCores of sixteen) each
  take 512 consecutive rows of the batch: subcore `s` of SparseCore `c` takes rows `1024 s + 512 c …`. It copies its 512
  words of each of the three index arrays into its index scratch, and then, 128 rows at a time, gathers the rows the
  words name out of the entity table (for the head and tail indices) or the relation table into one of four row buffers
  and copies the buffer out to the same 128 rows of the matching result array. This module fixes the names: the arrays,
  the pieces of them a subcore works on, and what the handshakes of the launch carry.
-/
import proofs.«203265_g75239237091449_cont_9to1_m_620_5_alg».proof.Proof.Gen.KernelIdeal
import proofs.«203265_g75239237091449_cont_9to1_m_620_5_alg».proof.Proof.Gen.KernelIdeal.Skeleton
import proofs.«203265_g75239237091449_cont_9to1_m_620_5_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

abbrev hLoc (d : Dev nD) : Loc nD τ sig := (SparseCore.T d).loc main_arg0
abbrev rLoc (d : Dev nD) : Loc nD τ sig := (SparseCore.T d).loc main_arg1
abbrev tLoc (d : Dev nD) : Loc nD τ sig := (SparseCore.T d).loc main_arg2
abbrev eLoc (d : Dev nD) : Loc nD τ sig := (SparseCore.T d).loc main_arg3
abbrev lLoc (d : Dev nD) : Loc nD τ sig := (SparseCore.T d).loc main_arg4
abbrev aLoc (d : Dev nD) : Loc nD τ sig := (SparseCore.T d).loc main_v0_0
abbrev bLoc (d : Dev nD) : Loc nD τ sig := (SparseCore.T d).loc main_v0_1
abbrev cLoc (d : Dev nD) : Loc nD τ sig := (SparseCore.T d).loc main_v0_2

abbrev hV : Memref sig .scVector .hbm S16384 .i32 := Memref.whole main_arg0_scv
abbrev rV : Memref sig .scVector .hbm S16384 .i32 := Memref.whole main_arg1_scv
abbrev tV : Memref sig .scVector .hbm S16384 .i32 := Memref.whole main_arg2_scv
abbrev eV : Memref sig .scVector .hbm S100000x128 .f32 := Memref.whole main_arg3_scv
abbrev lV : Memref sig .scVector .hbm S1000x128 .f32 := Memref.whole main_arg4_scv
abbrev aV : Memref sig .scVector .hbm S16384x128 .f32 := Memref.whole main_v0_0_scv
abbrev bV : Memref sig .scVector .hbm S16384x128 .f32 := Memref.whole main_v0_1_scv
abbrev cV : Memref sig .scVector .hbm S16384x128 .f32 := Memref.whole main_v0_2_scv
abbrev xV : Memref sig .scVector .vmem S1536 .i32 := Memref.whole cc0_scratch0
abbrev y1V : Memref sig .scVector .vmem S128x128 .f32 := Memref.whole cc0_scratch1
abbrev y2V : Memref sig .scVector .vmem S128x128 .f32 := Memref.whole cc0_scratch2
abbrev y3V : Memref sig .scVector .vmem S128x128 .f32 := Memref.whole cc0_scratch3
abbrev y4V : Memref sig .scVector .vmem S128x128 .f32 := Memref.whole cc0_scratch4

/-! ## A subcore's pieces, in the program's own spelling -/

abbrev cK (L : grid0.Coords) : Fin τ.nSC := (L 0).castLE hcore0
abbrev jK (L : grid0.Coords) : Fin τ.nSub := (L 1).castLE hsub0

/-- The 512 index words of subcore `L`, as a window of an index array. -/
abbrev idxRect (L : grid0.Coords) : Rect S16384 := Rect.unit (s := S16384) (k0_off1 L) S512.size (k0_off1_inb L)
abbrev hWin (L : grid0.Coords) : Memref sig .scVector .hbm S512 .i32 := (hV).slice (idxRect L) (fun _ => rfl)
abbrev rWin (L : grid0.Coords) : Memref sig .scVector .hbm S512 .i32 := (rV).slice (idxRect L) (fun _ => rfl)
abbrev tWin (L : grid0.Coords) : Memref sig .scVector .hbm S512 .i32 := (tV).slice (idxRect L) (fun _ => rfl)

/-- Chunk `r` (128 rows) of subcore `L`'s 512 rows of a result array. -/
abbrev outRect (L : grid0.Coords) (r : Fin 4) : Rect S16384x128 :=
  Rect.unit (s := S16384x128) (k0_off2 L (BitVec.ofNat 32 (128 * r.val))) S128x128.size (k0_off2_inb L r)
abbrev aWin (L : grid0.Coords) (r : Fin 4) : Memref sig .scVector .hbm S128x128 .f32 := (aV).slice (outRect L r) (fun _ => rfl)
abbrev bWin (L : grid0.Coords) (r : Fin 4) : Memref sig .scVector .hbm S128x128 .f32 := (bV).slice (outRect L r) (fun _ => rfl)
abbrev cWin (L : grid0.Coords) (r : Fin 4) : Memref sig .scVector .hbm S128x128 .f32 := (cV).slice (outRect L r) (fun _ => rfl)

end Cert.Proof.KernelIdeal

end
-- ==== Proof.KernelIdealOwn.lean ====
/-
  A vector subcore's own storage, named: its eleven DMA semaphores (one per row buffer for the gathers, one per row buffer
  for the copies out, three for the index copies) and its five scratch buffers (the index scratch and the four row
  buffers), each set apart from the family the launch hands the subcore.
-/
import proofs.«203265_g75239237091449_cont_9to1_m_620_5_alg».proof.Proof.KernelIdealCommon

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The subcore's semaphores -/

theorem reg_not_scoped : ∀ s : Sem sig, (SemLoc.reg s : SemLoc sig).isScoped .scVector = false := by decide
theorem dma_scoped : ∀ k : DmaSem sig, (SemLoc.dma k : SemLoc sig).isScoped .scVector = true := by decide

/-- The scoped cells of a vector subcore are its eleven DMA semaphores. -/
theorem ownCells_V (d : Dev nD) (c : Fin τ.nSC) (i : Fin τ.nSub) :
    (ownCells (V d c i) : Finset (GSem nD τ sig))
      = (Finset.univ : Finset (DmaSem sig)).map ⟨fun k => ((V d c i, SemLoc.dma k) : GSem nD τ sig), fun a b h => by simpa using h⟩ := by
  ext g
  rw [mem_ownCells, Finset.mem_map]
  constructor
  · rintro ⟨h1, hs⟩
    obtain ⟨thr, sl⟩ := g
    have h1' : thr = V d c i := h1
    subst h1'
    cases sl with
    | reg s =>
      have : (SemLoc.reg s : SemLoc sig).isScoped .scVector = true := hs
      rw [reg_not_scoped] at this; exact absurd this (by decide)
    | dma k => exact ⟨k, Finset.mem_univ _, rfl⟩
  · rintro ⟨k, -, rfl⟩; exact ⟨rfl, dma_scoped k⟩

/-- The semaphores at zero, one by one. -/
theorem ownSems0_V (d : Dev nD) (c : Fin τ.nSC) (i : Fin τ.nSub) :
    (ownSems0 (V d c i) : sProp 𝕄)
      = iprop(semVal (V d c i, SemLoc.dma 0) 0 ∗ semVal (V d c i, SemLoc.dma 1) 0 ∗ semVal (V d c i, SemLoc.dma 2) 0 ∗ semVal (V d c i, SemLoc.dma 3) 0
          ∗ semVal (V d c i, SemLoc.dma 4) 0 ∗ semVal (V d c i, SemLoc.dma 5) 0 ∗ semVal (V d c i, SemLoc.dma 6) 0 ∗ semVal (V d c i, SemLoc.dma 7) 0
          ∗ semVal (V d c i, SemLoc.dma 8) 0 ∗ semVal (V d c i, SemLoc.dma 9) 0 ∗ semVal (V d c i, SemLoc.dma 10) 0) := by
  unfold SparseCore.Cfg.ownSems0
  rw [ownCells_V, bigSep_map, show (Finset.univ : Finset (DmaSem sig)) = {0, 1, 2, 3, 4, 5, 6, 7, 8, 9, 10} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

/-! ## The subcore's scratch buffers -/

theorem devRef_ne (c : Fin τ.nSC) (i : Fin τ.nSub) {a b : Ref sig .scVector} (h : a ≠ b) :
    (Proc.scVector c i).devRef a ≠ (Proc.scVector c i).devRef b := fun e => h (Proc.devRef_injective _ e)

/-- The five scratch buffers are among the subcore's own: they are them, at some contents, and the rest. -/
theorem ownBufs_V (d : Dev nD) (c : Fin τ.nSC) (i : Fin τ.nSub) :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f)
          ∗ bigSep ((((((ownRefs (τ := τ) (.scVector c i)).erase ((Proc.scVector c i).devRef cc0_scratch0)).erase
              ((Proc.scVector c i).devRef cc0_scratch1)).erase ((Proc.scVector c i).devRef cc0_scratch2)).erase
              ((Proc.scVector c i).devRef cc0_scratch3)).erase ((Proc.scVector c i).devRef cc0_scratch4))
              fun b => iprop(∃ f, ((d, b) : Loc nD τ sig) ↦{fullShare} f)) := by
  unfold SparseCore.Cfg.ownBufs
  have m0 := SparseCore.Cfg.mem_ownRefs_of_owner (p := Proc.scVector c i) (b := (Proc.scVector c i).devRef cc0_scratch0) rfl
  have m1 := SparseCore.Cfg.mem_ownRefs_of_owner (p := Proc.scVector c i) (b := (Proc.scVector c i).devRef cc0_scratch1) rfl
  have m2 := SparseCore.Cfg.mem_ownRefs_of_owner (p := Proc.scVector c i) (b := (Proc.scVector c i).devRef cc0_scratch2) rfl
  have m3 := SparseCore.Cfg.mem_ownRefs_of_owner (p := Proc.scVector c i) (b := (Proc.scVector c i).devRef cc0_scratch3) rfl
  have m4 := SparseCore.Cfg.mem_ownRefs_of_owner (p := Proc.scVector c i) (b := (Proc.scVector c i).devRef cc0_scratch4) rfl
  refine (SparseCore.bigSep_erase' m0).trans ?_
  rw [SparseCore.bigSep_erase' (Finset.mem_erase.mpr ⟨devRef_ne c i (by decide), m1⟩),
    SparseCore.bigSep_erase' (Finset.mem_erase.mpr ⟨devRef_ne c i (by decide), Finset.mem_erase.mpr ⟨devRef_ne c i (by decide), m2⟩⟩),
    SparseCore.bigSep_erase' (Finset.mem_erase.mpr ⟨devRef_ne c i (by decide), Finset.mem_erase.mpr ⟨devRef_ne c i (by decide),
      Finset.mem_erase.mpr ⟨devRef_ne c i (by decide), m3⟩⟩⟩),
    SparseCore.bigSep_erase' (Finset.mem_erase.mpr ⟨devRef_ne c i (by decide), Finset.mem_erase.mpr ⟨devRef_ne c i (by decide),
      Finset.mem_erase.mpr ⟨devRef_ne c i (by decide), Finset.mem_erase.mpr ⟨devRef_ne c i (by decide), m4⟩⟩⟩⟩)]

end Cert.Proof.KernelIdeal

end
-- ==== Proof.KernelIdealSplit.lean ====
/-
  How the arrays divide among the subcores. The 16384 rows of the batch fall into thirty-two runs of 512, run
  `(c, i)` starting at row `1024 i + 512 c`; each run into four chunks of 128. The runs (and the chunks) are pairwise
  disjoint and cover the batch, so an array held whole is the same as its runs (or chunks) held side by side.
-/
import proofs.«203265_g75239237091449_cont_9to1_m_620_5_alg».proof.Proof.KernelIdealCommon

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Coordinates -/

/-- The grid point of subcore `i` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

abbrev Lof (c : Fin ((K (F := F)).nCore 0)) (i : Fin ((K (F := F)).nSub 0)) : grid0.Coords := coordsV ⟨c.val, c.isLt⟩ ⟨i.val, i.isLt⟩

abbrev TI : Type := Fin ((K (F := F)).nCore 0) × Fin ((K (F := F)).nSub 0)

theorem off1_val (p : TI (F := F)) (a : Fin 1) : k0_off1 (Lof (F := F) p.1 p.2) a = 1024 * p.2.val + 512 * p.1.val := by
  rw [k0_off1_eq]; match a with | ⟨0, _⟩ => rfl

theorem off2_val0 (p : TI (F := F)) (r : Fin 4) :
    k0_off2 (Lof (F := F) p.1 p.2) (BitVec.ofNat 32 (128 * r.val)) 0 = 1024 * p.2.val + 512 * p.1.val + 128 * r.val := by
  rw [k0_off2_eq]; rfl
theorem off2_val1 (p : TI (F := F)) (r : Fin 4) :
    k0_off2 (Lof (F := F) p.1 p.2) (BitVec.ofNat 32 (128 * r.val)) 1 = 0 := by
  rw [k0_off2_eq]; rfl

/-! ## The runs of an index array -/

abbrev idxSet (p : TI (F := F)) : Finset S16384.Idx := (idxRect (Lof (F := F) p.1 p.2)).set

theorem idxSet_disjoint : ∀ p ∈ (Finset.univ : Finset (TI (F := F))), ∀ p' ∈ (Finset.univ : Finset (TI (F := F))), p ≠ p' →
    Disjoint (idxSet (F := F) p) (idxSet (F := F) p') := by
  intro p _ p' _ hne
  refine Rect.unit_disjoint (0 : Fin 1) ?_
  rw [off1_val, off1_val]
  have h1 : p.1.val < 2 := p.1.isLt
  have h1' : p'.1.val < 2 := p'.1.isLt
  have hne' : p.1.val ≠ p'.1.val ∨ p.2.val ≠ p'.2.val := by
    by_contra hc
    simp only [not_or, ne_eq, not_not] at hc
    exact hne (Prod.ext (Fin.ext hc.1) (Fin.ext hc.2))
  show _ + 512 ≤ _ ∨ _ + 512 ≤ _
  omega

theorem idxSet_cover : (Finset.univ : Finset (TI (F := F))).biUnion (idxSet (F := F)) = Finset.univ := by
  refine Finset.eq_univ_of_forall fun j => Finset.mem_biUnion.mpr ?_
  have hj : (j 0).val < 16384 := (j 0).isLt
  refine ⟨(⟨(j 0).val % 1024 / 512, by show _ < 2; omega⟩, ⟨(j 0).val / 1024, by show _ < 16; omega⟩), Finset.mem_univ _, ?_⟩
  rw [Rect.mem_set_unit]
  intro a
  obtain rfl : a = 0 := Subsingleton.elim _ _
  rw [off1_val]
  show _ ≤ (j 0).val ∧ (j 0).val < _ + 512
  constructor <;> simp only <;> omega

/-! ## The chunks of a result array -/

abbrev outSet (p : TI (F := F) × Fin 4) : Finset S16384x128.Idx := (outRect (Lof (F := F) p.1.1 p.1.2) p.2).set

theorem outSet_disjoint : ∀ p ∈ (Finset.univ : Finset (TI (F := F) × Fin 4)), ∀ p' ∈ (Finset.univ : Finset (TI (F := F) × Fin 4)), p ≠ p' →
    Disjoint (outSet (F := F) p) (outSet (F := F) p') := by
  intro p _ p' _ hne
  refine Rect.unit_disjoint (0 : Fin 2) ?_
  rw [off2_val0, off2_val0]
  have h1 : p.1.1.val < 2 := p.1.1.isLt
  have h1' : p'.1.1.val < 2 := p'.1.1.isLt
  have h2 : p.2.val < 4 := p.2.isLt
  have h2' : p'.2.val < 4 := p'.2.isLt
  have hne' : p.1.1.val ≠ p'.1.1.val ∨ p.1.2.val ≠ p'.1.2.val ∨ p.2.val ≠ p'.2.val := by
    by_contra hc
    simp only [not_or, ne_eq, not_not] at hc
    exact hne (Prod.ext (Prod.ext (Fin.ext hc.1) (Fin.ext hc.2.1)) (Fin.ext hc.2.2))
  show _ + 128 ≤ _ ∨ _ + 128 ≤ _
  omega

theorem outSet_cover : (Finset.univ : Finset (TI (F := F) × Fin 4)).biUnion (outSet (F := F)) = Finset.univ := by
  refine Finset.eq_univ_of_forall fun j => Finset.mem_biUnion.mpr ?_
  have hj : (j 0).val < 16384 := (j 0).isLt
  have hk : (j 1).val < 128 := (j 1).isLt
  refine ⟨((⟨(j 0).val % 1024 / 512, by show _ < 2; omega⟩, ⟨(j 0).val / 1024, by show _ < 16; omega⟩), ⟨(j 0).val % 512 / 128, by omega⟩),
    Finset.mem_univ _, ?_⟩
  rw [Rect.mem_set_unit]
  intro a
  match a with
  | ⟨0, _⟩ =>
    rw [show (⟨0, _⟩ : Fin 2) = 0 from rfl, off2_val0]
    show _ ≤ (j 0).val ∧ (j 0).val < _ + 128
    constructor <;> simp only <;> omega
  | ⟨1, _⟩ =>
    rw [show (⟨1, _⟩ : Fin 2) = 1 from rfl, off2_val1]
    show 0 ≤ (j 1).val ∧ (j 1).val < 0 + 128
    omega

end Cert.Proof.KernelIdeal

end
-- ==== Proof.KernelIdealPay.lean ====
/-
  What the handshakes of the launch carry. A subcore is handed its 512 words of each index array, a read share of each
  table, and its four chunks of each result array; it hands the same back, the chunks now holding the looked-up rows.
  A SparseCore is handed what its sixteen subcores are, beside the part of its own table shares that no subcore uses.
-/
import proofs.«203265_g75239237091449_cont_9to1_m_620_5_alg».proof.Proof.KernelIdealSplit

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- What the run asks of the launch memory: every index word names a row of its table. -/
def PreOK : Prop := ∀ d : Dev nD, (∀ j, (m (hLoc d) j).toNat < 100000) ∧ (∀ j, (m (rLoc d) j).toNat < 1000) ∧ (∀ j, (m (tLoc d) j).toNat < 100000)

/-- The results: each row of a result array is the table row its index word names. -/
abbrev resA (d : Dev nD) : Buf (Elt F) (aLoc d) :=
  Cert.Lookup.lookup (α := Elt F .f32) (n := 100000) (m (eLoc d)) (m (hLoc d))
abbrev resB (d : Dev nD) : Buf (Elt F) (bLoc d) :=
  Cert.Lookup.lookup (α := Elt F .f32) (n := 1000) (m (lLoc d)) (m (rLoc d))
abbrev resC (d : Dev nD) : Buf (Elt F) (cLoc d) :=
  Cert.Lookup.lookup (α := Elt F .f32) (n := 100000) (m (eLoc d)) (m (tLoc d))

/-- What a subcore at grid point `L` is handed: its 512 words of each index array, the share `q` of each table, and its four
    chunks of each result array, `fa` / `fb` / `fc` what the result arrays hold. -/
abbrev tilePay (d : Dev nD) (L : grid0.Coords) (q : PosShare TreeShare) (fa : Buf (Elt F) (aLoc d)) (fb : Buf (Elt F) (bLoc d)) (fc : Buf (Elt F) (cLoc d)) : sProp 𝕄 :=
  iprop(((hWin L).view.loc (V d (cK L) (jK L)) ↦[(hWin L).view.set]{fullShare} m (hLoc d))
    ∗ ((rWin L).view.loc (V d (cK L) (jK L)) ↦[(rWin L).view.set]{fullShare} m (rLoc d))
    ∗ ((tWin L).view.loc (V d (cK L) (jK L)) ↦[(tWin L).view.set]{fullShare} m (tLoc d))
    ∗ ((eV).view.loc (V d (cK L) (jK L)) ↦{q} m (eLoc d))
    ∗ ((lV).view.loc (V d (cK L) (jK L)) ↦{q} m (lLoc d))
    ∗ ((aWin L 0).view.loc (V d (cK L) (jK L)) ↦[(aWin L 0).view.set]{fullShare} fa) ∗ ((aWin L 1).view.loc (V d (cK L) (jK L)) ↦[(aWin L 1).view.set]{fullShare} fa)
    ∗ ((aWin L 2).view.loc (V d (cK L) (jK L)) ↦[(aWin L 2).view.set]{fullShare} fa) ∗ ((aWin L 3).view.loc (V d (cK L) (jK L)) ↦[(aWin L 3).view.set]{fullShare} fa)
    ∗ ((bWin L 0).view.loc (V d (cK L) (jK L)) ↦[(bWin L 0).view.set]{fullShare} fb) ∗ ((bWin L 1).view.loc (V d (cK L) (jK L)) ↦[(bWin L 1).view.set]{fullShare} fb)
    ∗ ((bWin L 2).view.loc (V d (cK L) (jK L)) ↦[(bWin L 2).view.set]{fullShare} fb) ∗ ((bWin L 3).view.loc (V d (cK L) (jK L)) ↦[(bWin L 3).view.set]{fullShare} fb)
    ∗ ((cWin L 0).view.loc (V d (cK L) (jK L)) ↦[(cWin L 0).view.set]{fullShare} fc) ∗ ((cWin L 1).view.loc (V d (cK L) (jK L)) ↦[(cWin L 1).view.set]{fullShare} fc)
    ∗ ((cWin L 2).view.loc (V d (cK L) (jK L)) ↦[(cWin L 2).view.set]{fullShare} fc) ∗ ((cWin L 3).view.loc (V d (cK L) (jK L)) ↦[(cWin L 3).view.set]{fullShare} fc))

/-! ## The table shares: one read share per SparseCore, of it one per subcore -/

abbrev qC (c : Fin ((K (F := F)).nCore 0)) : PosShare TreeShare := Transfers.shareTok fullShare ((K (F := F)).nCore 0) c
abbrev qT (c : Fin ((K (F := F)).nCore 0)) (i : Fin ((K (F := F)).nSub 0)) : PosShare TreeShare :=
  Transfers.shareTok (qC (F := F) c) ((K (F := F)).nSub 0) i
abbrev qCrest (c : Fin ((K (F := F)).nCore 0)) : PosShare TreeShare := Transfers.shareDrop (qC (F := F) c) ((K (F := F)).nSub 0)
abbrev qTop : PosShare TreeShare := Transfers.shareDrop fullShare ((K (F := F)).nCore 0)

abbrev goPay (d : Dev nD) (c : Fin ((K (F := F)).nCore 0)) (i : Fin ((K (F := F)).nSub 0)) : sProp 𝕄 :=
  tilePay m d (Lof (F := F) c i) (qT (F := F) c i) (m (aLoc d)) (m (bLoc d)) (m (cLoc d))
abbrev tdPay (d : Dev nD) (c : Fin ((K (F := F)).nCore 0)) (i : Fin ((K (F := F)).nSub 0)) : sProp 𝕄 :=
  tilePay m d (Lof (F := F) c i) (qT (F := F) c i) (resA m d) (resB m d) (resC m d)
/-- The part of a SparseCore's table shares that none of its subcores takes. -/
abbrev restPay (d : Dev nD) (c : Fin ((K (F := F)).nCore 0)) : sProp 𝕄 :=
  iprop((eLoc d ↦{qCrest (F := F) c} m (eLoc d)) ∗ (lLoc d ↦{qCrest (F := F) c} m (lLoc d)))

def P : (K (F := F)).Pay (nD := nD) (Val := Elt F) (Name := ℕ) (U := UU) where
  st := fun q d c => match q with | 0 => iprop((bigSep Finset.univ fun i => goPay m d c i) ∗ restPay m d c)
  dn := fun q d c => match q with | 0 => iprop((bigSep Finset.univ fun i => tdPay m d c i) ∗ restPay m d c)
  go := fun q d c i => match q with | 0 => goPay m d c i
  td := fun q d c i => match q with | 0 => tdPay m d c i
  x := fun _ _ => iprop(emp)

instance P_storable : (P (F := F) m).IsStorable where
  st q d c := match q with
    | 0 => (inferInstance : BI.Storable (upEmb : UEmb _ 𝕄) iprop((bigSep Finset.univ fun i => goPay m d c i) ∗ restPay m d c))
  dn q d c := match q with
    | 0 => (inferInstance : BI.Storable (upEmb : UEmb _ 𝕄) iprop((bigSep Finset.univ fun i => tdPay m d c i) ∗ restPay m d c))
  go q d c i := match q with
    | 0 => (inferInstance : BI.Storable (upEmb : UEmb _ 𝕄) (goPay m d c i))
  td q d c i := match q with
    | 0 => (inferInstance : BI.Storable (upEmb : UEmb _ 𝕄) (tdPay m d c i))

end Cert.Proof.KernelIdeal

end
-- ==== Proof.KernelIdealValue.lean ====
/-
  What a subcore's run leaves in its index scratch and in its result chunks, read back. The index scratch holds the
  subcore's 512 words of each index array, side by side; a list window of 128 words is a stretch of one of them; the
  gather driven by a list window puts, in row `ρ` of a row buffer, the table row that the window's word `ρ` names; and
  the copy out of the row buffer leaves those rows in the chunk of the result array. In range, the row a word names is
  the row of the lookup.
-/
import proofs.«203265_g75239237091449_cont_9to1_m_620_5_alg».proof.Proof.KernelIdealPay
import Idealize.ShloMosaic.Lib.SparseCore.Stream
import Idealize.ShloMosaic.Lib.Pipeline.Value

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx

variable (m : (ℓ : Loc nD τ sig) → Buf (Elt F) ℓ)

/-! ## The index scratch -/

/-- What the three index copies carry: the subcore's 512 words of the head, relation and tail index arrays. -/
abbrev pH (d : Dev nD) (L : grid0.Coords) : S512.Idx → Elt F .i32 := ReadAs.same.apply ((hWin L).view.read (Elt F) (m (hLoc d)))
abbrev pR (d : Dev nD) (L : grid0.Coords) : S512.Idx → Elt F .i32 := ReadAs.same.apply ((rWin L).view.read (Elt F) (m (rLoc d)))
abbrev pT (d : Dev nD) (L : grid0.Coords) : S512.Idx → Elt F .i32 := ReadAs.same.apply ((tWin L).view.read (Elt F) (m (tLoc d)))

/-- The index scratch after the three copies: the head words at 0, the relation words at 512, the tail words at 1024. -/
abbrev LB (d : Dev nD) (L : grid0.Coords) : (xV).view.ty.Contents (Elt F) :=
  (xV).view.writes (Elt F) (xV).view.junk
    [⟨Rect.unit (s := S1536) ![1024] S512.size inb_S1536_S512_1024, pT m d L⟩,
     ⟨Rect.unit (s := S1536) ![512] S512.size inb_S1536_S512_512, pR m d L⟩,
     ⟨Rect.unit (s := S1536) ![0] S512.size inb_S1536_S512_0, pH m d L⟩]

/-- A rectangle's own index, placed, lies in the rectangle. -/
theorem emb_mem {s : Shape} (r : Rect s) (j : r.shape.Idx) : r.emb j ∈ r.set := by
  rw [← Rect.map_emb_univ]; exact Finset.mem_map_of_mem _ (Finset.mem_univ j)

/-- Two stretches of 512 words of the scratch at different offsets share no word. -/
theorem not_mem_of_sep {o o' : ℕ} (i : ∀ a, (![o] : Fin 1 → ℕ) a + S512.size a ≤ S1536.size a)
    (i' : ∀ a, (![o'] : Fin 1 → ℕ) a + S512.size a ≤ S1536.size a) (j : S512.Idx) (h : o + 512 ≤ o' ∨ o' + 512 ≤ o) :
    (Rect.unit (s := S1536) ![o] S512.size i).emb j ∉ (Rect.unit (s := S1536) ![o'] S512.size i').set :=
  Finset.disjoint_left.mp (Rect.unit_disjoint (inb := i) (inb' := i') (0 : Fin 1) h) (emb_mem (Rect.unit (s := S1536) ![o] S512.size i) j)

/-- The scratch at word `j` of its first 512 is word `j` of the subcore's head indices; -/
theorem LB_read_H (d : Dev nD) (L : grid0.Coords) (i0 : ∀ a, (![0] : Fin 1 → ℕ) a + S512.size a ≤ S1536.size a) (j : S512.Idx) :
    (xV).view.read (Elt F) (LB m d L) ((Rect.unit (s := S1536) ![0] S512.size i0).emb j) = m (hLoc d) ((idxRect L).emb j) := by
  refine (View.read_writes_of_unique (xV).view _ ⟨Rect.unit (s := S1536) ![0] S512.size inb_S1536_S512_0, pH m d L⟩ j _
    (List.mem_cons_of_mem _ (List.mem_cons_of_mem _ List.mem_cons_self)) ?_).trans rfl
  intro q hq hmem
  rcases List.mem_cons.mp hq with rfl | hq
  · exact absurd hmem (not_mem_of_sep inb_S1536_S512_0 inb_S1536_S512_1024 j (by decide))
  rcases List.mem_cons.mp hq with rfl | hq
  · exact absurd hmem (not_mem_of_sep inb_S1536_S512_0 inb_S1536_S512_512 j (by decide))
  rcases List.mem_cons.mp hq with rfl | hq
  · rfl
  · exact absurd hq List.not_mem_nil

/-- of its second 512, of the relation indices; -/
theorem LB_read_R (d : Dev nD) (L : grid0.Coords) (i0 : ∀ a, (![512] : Fin 1 → ℕ) a + S512.size a ≤ S1536.size a) (j : S512.Idx) :
    (xV).view.read (Elt F) (LB m d L) ((Rect.unit (s := S1536) ![512] S512.size i0).emb j) = m (rLoc d) ((idxRect L).emb j) := by
  refine (View.read_writes_of_unique (xV).view _ ⟨Rect.unit (s := S1536) ![512] S512.size inb_S1536_S512_512, pR m d L⟩ j _
    (List.mem_cons_of_mem _ List.mem_cons_self) ?_).trans rfl
  intro q hq hmem
  rcases List.mem_cons.mp hq with rfl | hq
  · exact absurd hmem (not_mem_of_sep inb_S1536_S512_512 inb_S1536_S512_1024 j (by decide))
  rcases List.mem_cons.mp hq with rfl | hq
  · rfl
  rcases List.mem_cons.mp hq with rfl | hq
  · exact absurd hmem (not_mem_of_sep inb_S1536_S512_512 inb_S1536_S512_0 j (by decide))
  · exact absurd hq List.not_mem_nil

/-- of its last 512, of the tail indices. -/
theorem LB_read_T (d : Dev nD) (L : grid0.Coords) (i0 : ∀ a, (![1024] : Fin 1 → ℕ) a + S512.size a ≤ S1536.size a) (j : S512.Idx) :
    (xV).view.read (Elt F) (LB m d L) ((Rect.unit (s := S1536) ![1024] S512.size i0).emb j) = m (tLoc d) ((idxRect L).emb j) := by
  refine (View.read_writes_of_unique (xV).view _ ⟨Rect.unit (s := S1536) ![1024] S512.size inb_S1536_S512_1024, pT m d L⟩ j _
    List.mem_cons_self ?_).trans rfl
  intro q hq hmem
  rcases List.mem_cons.mp hq with rfl | hq
  · rfl
  rcases List.mem_cons.mp hq with rfl | hq
  · exact absurd hmem (not_mem_of_sep inb_S1536_S512_1024 inb_S1536_S512_512 j (by decide))
  rcases List.mem_cons.mp hq with rfl | hq
  · exact absurd hmem (not_mem_of_sep inb_S1536_S512_1024 inb_S1536_S512_0 j (by decide))
  · exact absurd hq List.not_mem_nil

/-! ## The list windows -/

/-- A window of 128 words of the scratch at offset `w = o + b`, inside the 512 words at `o`: its word `x` is word `b + x` of those. -/
theorem emb_shift {o w : ℕ} (h : ∀ a, (![w] : Fin 1 → ℕ) a + S128.size a ≤ S1536.size a)
    (i0 : ∀ a, (![o] : Fin 1 → ℕ) a + S512.size a ≤ S1536.size a) (x : S128.Idx) (b : ℕ) (hw : w = o + b) (hb : b + 128 ≤ 512) :
    (Rect.unit (s := S1536) ![w] S128.size h).emb x
      = (Rect.unit (s := S1536) ![o] S512.size i0).emb (ix1 ⟨b + (x 0).val, by have : (x 0).val < 128 := (x 0).isLt; omega⟩) := by
  funext a; refine Fin.ext ?_
  rw [Rect.emb_apply, Rect.emb_apply]
  match a with
  | ⟨0, _⟩ => show w + 1 * (x 0).val = o + 1 * (b + (x 0).val); omega

/-- Head window `k` read at word `x`: the head index of row `128 k + x` of the subcore's 512. -/
theorem win_read_h {d : Dev nD} {L : grid0.Coords} (k : Fin 4) (h : ∀ a, (![128 * k.val] : Fin 1 → ℕ) a + S128.size a ≤ S1536.size a)
    (h' : ∀ a, (Rect.unit (s := S1536) ![128 * k.val] S128.size h).stride a = 1) (x : S128.Idx) :
    ((xV).slice (Rect.unit (s := S1536) ![128 * k.val] S128.size h) h').view.read (Elt F) (LB m d L) x
      = m (hLoc d) ((idxRect L).emb (ix1 ⟨128 * k.val + (x 0).val, by have : (x 0).val < 128 := (x 0).isLt; have := k.isLt; omega⟩)) := by
  show (xV).view.read (Elt F) (LB m d L) ((Rect.unit (s := S1536) ![128 * k.val] S128.size h).emb x) = _
  rw [emb_shift h inb_S1536_S512_0 x (128 * k.val) (by omega) (by have := k.isLt; omega), LB_read_H]

theorem win_read_r {d : Dev nD} {L : grid0.Coords} (k : Fin 4) (h : ∀ a, (![512 + 128 * k.val] : Fin 1 → ℕ) a + S128.size a ≤ S1536.size a)
    (h' : ∀ a, (Rect.unit (s := S1536) ![512 + 128 * k.val] S128.size h).stride a = 1) (x : S128.Idx) :
    ((xV).slice (Rect.unit (s := S1536) ![512 + 128 * k.val] S128.size h) h').view.read (Elt F) (LB m d L) x
      = m (rLoc d) ((idxRect L).emb (ix1 ⟨128 * k.val + (x 0).val, by have : (x 0).val < 128 := (x 0).isLt; have := k.isLt; omega⟩)) := by
  show (xV).view.read (Elt F) (LB m d L) ((Rect.unit (s := S1536) ![512 + 128 * k.val] S128.size h).emb x) = _
  rw [emb_shift h inb_S1536_S512_512 x (128 * k.val) rfl (by have := k.isLt; omega), LB_read_R]

theorem win_read_t {d : Dev nD} {L : grid0.Coords} (k : Fin 4) (h : ∀ a, (![1024 + 128 * k.val] : Fin 1 → ℕ) a + S128.size a ≤ S1536.size a)
    (h' : ∀ a, (Rect.unit (s := S1536) ![1024 + 128 * k.val] S128.size h).stride a = 1) (x : S128.Idx) :
    ((xV).slice (Rect.unit (s := S1536) ![1024 + 128 * k.val] S128.size h) h').view.read (Elt F) (LB m d L) x
      = m (tLoc d) ((idxRect L).emb (ix1 ⟨128 * k.val + (x 0).val, by have : (x 0).val < 128 := (x 0).isLt; have := k.isLt; omega⟩)) := by
  show (xV).view.read (Elt F) (LB m d L) ((Rect.unit (s := S1536) ![1024 + 128 * k.val] S128.size h).emb x) = _
  rw [emb_shift h inb_S1536_S512_1024 x (128 * k.val) rfl (by have := k.isLt; omega), LB_read_T]

variable {m}

/-- IN RANGE: every word of a head window names a row of the entity table; -/
theorem list_inb_h (hpre : PreOK m) {d : Dev nD} {L : grid0.Coords} (k : Fin 4)
    (h : ∀ a, (![128 * k.val] : Fin 1 → ℕ) a + S128.size a ≤ S1536.size a)
    (h' : ∀ a, (Rect.unit (s := S1536) ![128 * k.val] S128.size h).stride a = 1) :
    ∀ x, (((xV).slice (Rect.unit (s := S1536) ![128 * k.val] S128.size h) h').view.read (Elt F) (LB m d L) x).toNat < 100000 := by
  intro x; rw [win_read_h]; exact (hpre d).1 _

/-- of a relation window, of the relation table; -/
theorem list_inb_r (hpre : PreOK m) {d : Dev nD} {L : grid0.Coords} (k : Fin 4)
    (h : ∀ a, (![512 + 128 * k.val] : Fin 1 → ℕ) a + S128.size a ≤ S1536.size a)
    (h' : ∀ a, (Rect.unit (s := S1536) ![512 + 128 * k.val] S128.size h).stride a = 1) :
    ∀ x, (((xV).slice (Rect.unit (s := S1536) ![512 + 128 * k.val] S128.size h) h').view.read (Elt F) (LB m d L) x).toNat < 1000 := by
  intro x; rw [win_read_r]; exact (hpre d).2.1 _

/-- of a tail window, of the entity table. -/
theorem list_inb_t (hpre : PreOK m) {d : Dev nD} {L : grid0.Coords} (k : Fin 4)
    (h : ∀ a, (![1024 + 128 * k.val] : Fin 1 → ℕ) a + S128.size a ≤ S1536.size a)
    (h' : ∀ a, (Rect.unit (s := S1536) ![1024 + 128 * k.val] S128.size h).stride a = 1) :
    ∀ x, (((xV).slice (Rect.unit (s := S1536) ![1024 + 128 * k.val] S128.size h) h').view.read (Elt F) (LB m d L) x).toNat < 100000 := by
  intro x; rw [win_read_t]; exact (hpre d).2.2 _

/-! ## A row buffer, a gather, a chunk -/

/-- A buffer read back after a write of its whole shape, the last one: the payload, whatever was written before. -/
theorem read_whole_last {κ : Kind} {sp : Space} {s : Shape} {e : EltTy} (v : View sig κ sp s e) (fy : v.ty.Contents (Elt F))
    (G : s.Idx → Elt F e) (older : List (View.Piece (Elt F) s e)) :
    v.read (Elt F) (v.writes (Elt F) fy (⟨Rect.whole s, G⟩ :: older)) = G :=
  funext fun x => by
    have := View.read_writes_cons_emb v fy (Rect.whole s) G older x
    rwa [Rect.emb_whole_apply] at this

/-- A view after one write of its whole shape, at the element under index `y`: the payload at `y`. -/
theorem writes_whole_emb {κ : Kind} {sp : Space} {s : Shape} {e : EltTy} (v : View sig κ sp s e) (f : v.ty.Contents (Elt F))
    (w : s.Idx → Elt F e) (y : s.Idx) :
    v.writes (Elt F) f [⟨Rect.whole s, w⟩] (v.emb y) = cast (congrArg (Elt F) v.elt_eq.symm) (w y) := by
  have := View.write_emb_of_mem (v := v.slice (Rect.whole s)) (Val := Elt F) f w (Finset.mem_univ y)
  rwa [View.emb_slice, Function.Embedding.trans_apply, Rect.emb_whole_apply] at this

/-- THE CHUNK OF THE FIRST RESULT: after the copy out of the row buffer that the gather over head window `r` filled, chunk `r`
    of the subcore's rows holds the entity rows its head indices name. -/
theorem chunk_a (hpre : PreOK m) {d : Dev nD} {L : grid0.Coords} (r : Fin 4) (y : Memref sig .scVector .vmem S128x128 .f32)
    (fy : y.view.ty.Contents (Elt F)) (older : List (View.Piece (Elt F) S128x128 .f32)) (fa : Buf (Elt F) (aLoc d))
    (hg : S100000x128.Gathers 0 S128x128)
    (inb : ∀ a, (![0, 0] : Fin 2 → ℕ) a + S100000x128.size a ≤ S100000x128.size a)
    (h' : ∀ a, (Rect.unit (s := S100000x128) ![0, 0] S100000x128.size inb).stride a = 1)
    (h : ∀ a, (![128 * r.val] : Fin 1 → ℕ) a + S128.size a ≤ S1536.size a)
    (h'' : ∀ a, (Rect.unit (s := S1536) ![128 * r.val] S128.size h).stride a = 1)
    (hn : S128.numel = S128x128.size hg.axis')
    (hin : ∀ x, (((xV).slice (Rect.unit (s := S1536) ![128 * r.val] S128.size h) h'').view.read (Elt F) (LB m d L) x).toNat < 100000) :
    ∀ j ∈ (aWin L r).view.set, ((aWin L r).view.writes (Elt F) fa [⟨Rect.whole S128x128, ReadAs.same.apply (y.view.read (Elt F)
      (y.view.writes (Elt F) fy (⟨Rect.whole S128x128, SparseCore.gatherPayload hg
        (((eV).slice (Rect.unit (s := S100000x128) ![0, 0] S100000x128.size inb) h').view.read (Elt F) (m (eLoc d)))
        (SparseCore.rows (((xV).slice (Rect.unit (s := S1536) ![128 * r.val] S128.size h) h'').view.read (Elt F) (LB m d L)) hn hin)⟩ :: older)))⟩]) j
      = resA m d j := by
  intro j hj
  obtain ⟨y', rfl⟩ := View.exists_emb_of_mem_set _ hj
  rw [writes_whole_emb, ReadAs.apply_same, read_whole_last]
  have e1 : k0_off1 L 0 = 1024 * (L 1).val + 512 * (L 0).val := by rw [k0_off1_eq]; rfl
  have e2 : k0_off2 L (BitVec.ofNat 32 (128 * r.val)) 0 = 1024 * (L 1).val + 512 * (L 0).val + 128 * r.val := by rw [k0_off2_eq]; rfl
  have e3 : k0_off2 L (BitVec.ofNat 32 (128 * r.val)) 1 = 0 := by rw [k0_off2_eq]; rfl
  change m (eLoc d) ((Rect.unit (s := S100000x128) ![0, 0] S100000x128.size inb).emb (hg.idx _ y'))
    = m (eLoc d) (ix2 (Cert.Lookup.rowOf 100000 (m (hLoc d) (ix1 ((outRect L r).emb y' 0)))) ((outRect L r).emb y' 1))
  refine congrArg (m (eLoc d)) (funext fun a => Fin.ext ?_)
  rw [Rect.emb_apply]
  match a with
  | ⟨0, h0⟩ =>
    show 0 + 1 * (hg.idx _ y' hg.axis).val = (Cert.Lookup.rowOf 100000 (m (hLoc d) (ix1 ((outRect L r).emb y' 0)))).val
    rw [Shape.Gathers.idx_axis, Cert.Lookup.rowOf_val _ ((hpre d).1 _)]
    show 0 + 1 * (((xV).slice (Rect.unit (s := S1536) ![128 * r.val] S128.size h) h'').view.read (Elt F) (LB m d L)
      (S128.rowMajor.symm ((y' hg.axis').cast hn.symm))).toNat = _
    rw [win_read_h]
    have hx : ((S128.rowMajor.symm ((y' hg.axis').cast hn.symm)) 0).val = (y' 0).val := by
      rw [← Shape.rowMajor_val_one (d := ![128]) (S128.rowMajor.symm ((y' hg.axis').cast hn.symm))]
      show (S128.rowMajor (S128.rowMajor.symm _)).val = _
      rw [Equiv.apply_symm_apply]; rfl
    rw [Nat.zero_add, Nat.one_mul]
    refine congrArg (fun z => (m (hLoc d) z).toNat) (funext fun b => Fin.ext ?_)
    rw [Rect.emb_apply]
    match b with
    | ⟨0, _⟩ =>
      show k0_off1 L 0 + 1 * (128 * r.val + ((S128.rowMajor.symm ((y' hg.axis').cast hn.symm)) 0).val)
        = k0_off2 L (BitVec.ofNat 32 (128 * r.val)) 0 + 1 * (y' 0).val
      rw [e1, e2, hx]; omega
  | ⟨1, h1⟩ =>
    show 0 + 1 * (hg.idx _ y' ⟨1, h1⟩).val = ((outRect L r).emb y' 1).val
    rw [Shape.Gathers.idx_of_ne hg _ y' ⟨1, h1⟩ Nat.one_ne_zero]
    show 0 + 1 * (y' 1).val = k0_off2 L (BitVec.ofNat 32 (128 * r.val)) 1 + 1 * (y' 1).val
    rw [e3]

/-- The same for the second result: the relation rows the relation indices name. -/
theorem chunk_b (hpre : PreOK m) {d : Dev nD} {L : grid0.Coords} (r : Fin 4) (y : Memref sig .scVector .vmem S128x128 .f32)
    (fy : y.view.ty.Contents (Elt F)) (older : List (View.Piece (Elt F) S128x128 .f32)) (fa : Buf (Elt F) (bLoc d))
    (hg : S1000x128.Gathers 0 S128x128)
    (inb : ∀ a, (![0, 0] : Fin 2 → ℕ) a + S1000x128.size a ≤ S1000x128.size a)
    (h' : ∀ a, (Rect.unit (s := S1000x128) ![0, 0] S1000x128.size inb).stride a = 1)
    (h : ∀ a, (![512 + 128 * r.val] : Fin 1 → ℕ) a + S128.size a ≤ S1536.size a)
    (h'' : ∀ a, (Rect.unit (s := S1536) ![512 + 128 * r.val] S128.size h).stride a = 1)
    (hn : S128.numel = S128x128.size hg.axis')
    (hin : ∀ x, (((xV).slice (Rect.unit (s := S1536) ![512 + 128 * r.val] S128.size h) h'').view.read (Elt F) (LB m d L) x).toNat < 1000) :
    ∀ j ∈ (bWin L r).view.set, ((bWin L r).view.writes (Elt F) fa [⟨Rect.whole S128x128, ReadAs.same.apply (y.view.read (Elt F)
      (y.view.writes (Elt F) fy (⟨Rect.whole S128x128, SparseCore.gatherPayload hg
        (((lV).slice (Rect.unit (s := S1000x128) ![0, 0] S1000x128.size inb) h').view.read (Elt F) (m (lLoc d)))
        (SparseCore.rows (((xV).slice (Rect.unit (s := S1536) ![512 + 128 * r.val] S128.size h) h'').view.read (Elt F) (LB m d L)) hn hin)⟩ :: older)))⟩]) j
      = resB m d j := by
  intro j hj
  obtain ⟨y', rfl⟩ := View.exists_emb_of_mem_set _ hj
  rw [writes_whole_emb, ReadAs.apply_same, read_whole_last]
  have e1 : k0_off1 L 0 = 1024 * (L 1).val + 512 * (L 0).val := by rw [k0_off1_eq]; rfl
  have e2 : k0_off2 L (BitVec.ofNat 32 (128 * r.val)) 0 = 1024 * (L 1).val + 512 * (L 0).val + 128 * r.val := by rw [k0_off2_eq]; rfl
  have e3 : k0_off2 L (BitVec.ofNat 32 (128 * r.val)) 1 = 0 := by rw [k0_off2_eq]; rfl
  change m (lLoc d) ((Rect.unit (s := S1000x128) ![0, 0] S1000x128.size inb).emb (hg.idx _ y'))
    = m (lLoc d) (ix2 (Cert.Lookup.rowOf 1000 (m (rLoc d) (ix1 ((outRect L r).emb y' 0)))) ((outRect L r).emb y' 1))
  refine congrArg (m (lLoc d)) (funext fun a => Fin.ext ?_)
  rw [Rect.emb_apply]
  match a with
  | ⟨0, h0⟩ =>
    show 0 + 1 * (hg.idx _ y' hg.axis).val = (Cert.Lookup.rowOf 1000 (m (rLoc d) (ix1 ((outRect L r).emb y' 0)))).val
    rw [Shape.Gathers.idx_axis, Cert.Lookup.rowOf_val _ ((hpre d).2.1 _)]
    show 0 + 1 * (((xV).slice (Rect.unit (s := S1536) ![512 + 128 * r.val] S128.size h) h'').view.read (Elt F) (LB m d L)
      (S128.rowMajor.symm ((y' hg.axis').cast hn.symm))).toNat = _
    rw [win_read_r]
    have hx : ((S128.rowMajor.symm ((y' hg.axis').cast hn.symm)) 0).val = (y' 0).val := by
      rw [← Shape.rowMajor_val_one (d := ![128]) (S128.rowMajor.symm ((y' hg.axis').cast hn.symm))]
      show (S128.rowMajor (S128.rowMajor.symm _)).val = _
      rw [Equiv.apply_symm_apply]; rfl
    rw [Nat.zero_add, Nat.one_mul]
    refine congrArg (fun z => (m (rLoc d) z).toNat) (funext fun b => Fin.ext ?_)
    rw [Rect.emb_apply]
    match b with
    | ⟨0, _⟩ =>
      show k0_off1 L 0 + 1 * (128 * r.val + ((S128.rowMajor.symm ((y' hg.axis').cast hn.symm)) 0).val)
        = k0_off2 L (BitVec.ofNat 32 (128 * r.val)) 0 + 1 * (y' 0).val
      rw [e1, e2, hx]; omega
  | ⟨1, h1⟩ =>
    show 0 + 1 * (hg.idx _ y' ⟨1, h1⟩).val = ((outRect L r).emb y' 1).val
    rw [Shape.Gathers.idx_of_ne hg _ y' ⟨1, h1⟩ Nat.one_ne_zero]
    show 0 + 1 * (y' 1).val = k0_off2 L (BitVec.ofNat 32 (128 * r.val)) 1 + 1 * (y' 1).val
    rw [e3]

/-- The same for the third result: the entity rows the tail indices name. -/
theorem chunk_c (hpre : PreOK m) {d : Dev nD} {L : grid0.Coords} (r : Fin 4) (y : Memref sig .scVector .vmem S128x128 .f32)
    (fy : y.view.ty.Contents (Elt F)) (older : List (View.Piece (Elt F) S128x128 .f32)) (fa : Buf (Elt F) (cLoc d))
    (hg : S100000x128.Gathers 0 S128x128)
    (inb : ∀ a, (![0, 0] : Fin 2 → ℕ) a + S100000x128.size a ≤ S100000x128.size a)
    (h' : ∀ a, (Rect.unit (s := S100000x128) ![0, 0] S100000x128.size inb).stride a = 1)
    (h : ∀ a, (![1024 + 128 * r.val] : Fin 1 → ℕ) a + S128.size a ≤ S1536.size a)
    (h'' : ∀ a, (Rect.unit (s := S1536) ![1024 + 128 * r.val] S128.size h).stride a = 1)
    (hn : S128.numel = S128x128.size hg.axis')
    (hin : ∀ x, (((xV).slice (Rect.unit (s := S1536) ![1024 + 128 * r.val] S128.size h) h'').view.read (Elt F) (LB m d L) x).toNat < 100000) :
    ∀ j ∈ (cWin L r).view.set, ((cWin L r).view.writes (Elt F) fa [⟨Rect.whole S128x128, ReadAs.same.apply (y.view.read (Elt F)
      (y.view.writes (Elt F) fy (⟨Rect.whole S128x128, SparseCore.gatherPayload hg
        (((eV).slice (Rect.unit (s := S100000x128) ![0, 0] S100000x128.size inb) h').view.read (Elt F) (m (eLoc d)))
        (SparseCore.rows (((xV).slice (Rect.unit (s := S1536) ![1024 + 128 * r.val] S128.size h) h'').view.read (Elt F) (LB m d L)) hn hin)⟩ :: older)))⟩]) j
      = resC m d j := by
  intro j hj
  obtain ⟨y', rfl⟩ := View.exists_emb_of_mem_set _ hj
  rw [writes_whole_emb, ReadAs.apply_same, read_whole_last]
  have e1 : k0_off1 L 0 = 1024 * (L 1).val + 512 * (L 0).val := by rw [k0_off1_eq]; rfl
  have e2 : k0_off2 L (BitVec.ofNat 32 (128 * r.val)) 0 = 1024 * (L 1).val + 512 * (L 0).val + 128 * r.val := by rw [k0_off2_eq]; rfl
  have e3 : k0_off2 L (BitVec.ofNat 32 (128 * r.val)) 1 = 0 := by rw [k0_off2_eq]; rfl
  change m (eLoc d) ((Rect.unit (s := S100000x128) ![0, 0] S100000x128.size inb).emb (hg.idx _ y'))
    = m (eLoc d) (ix2 (Cert.Lookup.rowOf 100000 (m (tLoc d) (ix1 ((outRect L r).emb y' 0)))) ((outRect L r).emb y' 1))
  refine congrArg (m (eLoc d)) (funext fun a => Fin.ext ?_)
  rw [Rect.emb_apply]
  match a with
  | ⟨0, h0⟩ =>
    show 0 + 1 * (hg.idx _ y' hg.axis).val = (Cert.Lookup.rowOf 100000 (m (tLoc d) (ix1 ((outRect L r).emb y' 0)))).val
    rw [Shape.Gathers.idx_axis, Cert.Lookup.rowOf_val _ ((hpre d).2.2 _)]
    show 0 + 1 * (((xV).slice (Rect.unit (s := S1536) ![1024 + 128 * r.val] S128.size h) h'').view.read (Elt F) (LB m d L)
      (S128.rowMajor.symm ((y' hg.axis').cast hn.symm))).toNat = _
    rw [win_read_t]
    have hx : ((S128.rowMajor.symm ((y' hg.axis').cast hn.symm)) 0).val = (y' 0).val := by
      rw [← Shape.rowMajor_val_one (d := ![128]) (S128.rowMajor.symm ((y' hg.axis').cast hn.symm))]
      show (S128.rowMajor (S128.rowMajor.symm _)).val = _
      rw [Equiv.apply_symm_apply]; rfl
    rw [Nat.zero_add, Nat.one_mul]
    refine congrArg (fun z => (m (tLoc d) z).toNat) (funext fun b => Fin.ext ?_)
    rw [Rect.emb_apply]
    match b with
    | ⟨0, _⟩ =>
      show k0_off1 L 0 + 1 * (128 * r.val + ((S128.rowMajor.symm ((y' hg.axis').cast hn.symm)) 0).val)
        = k0_off2 L (BitVec.ofNat 32 (128 * r.val)) 0 + 1 * (y' 0).val
      rw [e1, e2, hx]; omega
  | ⟨1, h1⟩ =>
    show 0 + 1 * (hg.idx _ y' ⟨1, h1⟩).val = ((outRect L r).emb y' 1).val
    rw [Shape.Gathers.idx_of_ne hg _ y' ⟨1, h1⟩ Nat.one_ne_zero]
    show 0 + 1 * (y' 1).val = k0_off2 L (BitVec.ofNat 32 (128 * r.val)) 1 + 1 * (y' 1).val
    rw [e3]

end Cert.Proof.KernelIdeal

end
-- ==== Proof.KernelIdealBody.lean ====
/-
  One vector subcore's task, run symbolically at any grid point `L`.

  The task: three copies bring the subcore's 512 words of the head, relation and tail index arrays into the index scratch
  (words 0–511, 512–1023, 1024–1535). Then twelve chunk tasks, `k = 0 … 11`: task `k` gathers, into row buffer `k mod 4`, the
  table rows named by scratch words `128 k … 128 k + 127` (the entity table for `k < 4` and `k ≥ 8`, the relation table
  between), and copies the buffer out to chunk `k mod 4` of the head, relation or tail result. Four gathers are in
  flight at the start; afterwards the copy out of task `k` is waited for before the gather of task `k + 4`, which reuses
  its buffer, is issued, and each copy out is issued only after its gather has been waited for: no buffer is read while
  it is being written. The gathers in flight at one time read a table through separate read shares, one per
  semaphore. A gather needs every word of its list to name a row of the table; that is the precondition, read through
  the index copies.

  What the task leaves: the index words and the table shares as they were, and in each of its twelve chunks the rows the
  words name, which is the lookup restricted to the chunk.
-/
import proofs.«203265_g75239237091449_cont_9to1_m_620_5_alg».proof.Proof.KernelIdealOwn
import proofs.«203265_g75239237091449_cont_9to1_m_620_5_alg».proof.Proof.KernelIdealPay
import proofs.«203265_g75239237091449_cont_9to1_m_620_5_alg».proof.Proof.KernelIdealValue

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

section Tile

variable (d : Dev nD) (L : grid0.Coords)

local notation "𝕋" => (V d (cK L) (jK L) : Thread nD τ)

variable [FloatOps F]

set_option maxHeartbeats 4000000 in
theorem tile_body (hF : (K (F := F)).Facts) (hpre : PreOK m) (q : PosShare TreeShare) (O : CellTallies nD τ sig (HIx 1)) (W : Waits sig (HIx 1)) (hO : ∀ g, O g none = 0) :
    iprop(levAts (K (F := F)).L (K (F := F)).lev ∗ emp
        ∗ tilePay m d L q (m (aLoc d)) (m (bLoc d)) (m (cLoc d))
        ∗ scopedBufs 𝕋 ∗ scopedSems0 𝕋 ∗ owes 𝕋 O W)
      ⊢ wp frame (wpE (defs₀ (F := F)) 𝒱₀ 𝕋 none) Set.univ
          (cc0_k L hV (Memref.isWhole_whole _) rV (Memref.isWhole_whole _) tV (Memref.isWhole_whole _) eV (Memref.isWhole_whole _)
            lV (Memref.isWhole_whole _) aV (Memref.isWhole_whole _) bV (Memref.isWhole_whole _) cV (Memref.isWhole_whole _)
            xV (Memref.isWhole_whole _) y1V (Memref.isWhole_whole _) y2V (Memref.isWhole_whole _) y3V (Memref.isWhole_whole _)
            y4V (Memref.isWhole_whole _) cc0_scratch5 cc0_scratch6 cc0_scratch7 cc0_scratch8 cc0_scratch9 cc0_scratch10 cc0_scratch11
            cc0_scratch12 cc0_scoped0 cc0_scoped1 cc0_scoped2)
          fun _ => iprop(tilePay m d L q (resA m d) (resB m d) (resC m d)
            ∗ scopedBufs 𝕋 ∗ scopedSems0 𝕋
            ∗ ∃ W', ⌜∀ p ∈ W', p ∈ W ∨ p.2 = none⌝ ∗ owes 𝕋 O W') := by
  simp only [cc0_k_eq_skeleton]; unfold cc0_k_skel
  rw [(K (F := F)).scopedBufs_V hF d (cK L) (jK L), SparseCore.Cfg.scopedSems0_V (Val := Elt F) d (cK L) (jK L), ownSems0_V, ownBufs_V]
  iintro ⟨#Hlv, -, ⟨Hh, Hr, Ht, He, Hl, Ha0, Ha1, Ha2, Ha3, Hb0, Hb1, Hb2, Hb3, Hc0, Hc1, Hc2, Hc3⟩,
    ⟨⟨%fx, Hx⟩, ⟨%f1, Hy1⟩, ⟨%f2, Hy2⟩, ⟨%f3, Hy3⟩, ⟨%f4, Hy4⟩, Hbufs⟩,
    ⟨Hs0, Hs1, Hs2, Hs3, Hs4, Hs5, Hs6, Hs7, Hs8, Hs9, Hs10⟩, HO⟩
  ihave Hmw := (show levAts (K (F := F)).L (K (F := F)).lev ⊢ Transfers.MayWaits 𝕋 (default : HIx 1) O from
    (K (F := F)).mayWaits_none (thr := 𝕋) hO) $$ Hlv
  ihave Hxv := (Entails.of_eq (show ((V d (cK L) (jK L)).loc cc0_scratch0 ↦{fullShare} fx : sProp 𝕄) = ((xV).view.loc 𝕋 ↦{fullShare} fx) from rfl)) $$ Hx
  ihave Hy1v := (Entails.of_eq (show ((V d (cK L) (jK L)).loc cc0_scratch1 ↦{fullShare} f1 : sProp 𝕄) = ((y1V).view.loc 𝕋 ↦{fullShare} f1) from rfl)) $$ Hy1
  ihave Hy2v := (Entails.of_eq (show ((V d (cK L) (jK L)).loc cc0_scratch2 ↦{fullShare} f2 : sProp 𝕄) = ((y2V).view.loc 𝕋 ↦{fullShare} f2) from rfl)) $$ Hy2
  ihave Hy3v := (Entails.of_eq (show ((V d (cK L) (jK L)).loc cc0_scratch3 ↦{fullShare} f3 : sProp 𝕄) = ((y3V).view.loc 𝕋 ↦{fullShare} f3) from rfl)) $$ Hy3
  ihave Hy4v := (Entails.of_eq (show ((V d (cK L) (jK L)).loc cc0_scratch4 ↦{fullShare} f4 : sProp 𝕄) = ((y4V).view.loc 𝕋 ↦{fullShare} f4) from rfl)) $$ Hy4
  ihave Htmp := (pointsTo_share (PosShare.mem_left_op_right q)).1 $$ He
  icases Htmp with ⟨Hed1, Hek0⟩
  ihave Htmp := (pointsTo_share (PosShare.mem_left_op_right q.left)).1 $$ Hed1
  icases Htmp with ⟨Hed2, Hek1⟩
  ihave Htmp := (pointsTo_share (PosShare.mem_left_op_right q.left.left)).1 $$ Hed2
  icases Htmp with ⟨Hed3, Hek2⟩
  ihave Htmp := (pointsTo_share (PosShare.mem_left_op_right q.left.left.left)).1 $$ Hed3
  icases Htmp with ⟨Hed4, Hek3⟩
  ihave He0 := (Entails.of_eq (show (((eV).view.loc 𝕋 ↦{q.right} m (eLoc d)) : sProp 𝕄) = ((eV).view.loc 𝕋 ↦{Transfers.shareTokN q 0} m (eLoc d)) from rfl)) $$ Hek0
  ihave He1 := (Entails.of_eq (show (((eV).view.loc 𝕋 ↦{q.left.right} m (eLoc d)) : sProp 𝕄) = ((eV).view.loc 𝕋 ↦{Transfers.shareTokN q 1} m (eLoc d)) from rfl)) $$ Hek1
  ihave He2 := (Entails.of_eq (show (((eV).view.loc 𝕋 ↦{q.left.left.right} m (eLoc d)) : sProp 𝕄) = ((eV).view.loc 𝕋 ↦{Transfers.shareTokN q 2} m (eLoc d)) from rfl)) $$ Hek2
  ihave He3 := (Entails.of_eq (show (((eV).view.loc 𝕋 ↦{q.left.left.left.right} m (eLoc d)) : sProp 𝕄) = ((eV).view.loc 𝕋 ↦{Transfers.shareTokN q 3} m (eLoc d)) from rfl)) $$ Hek3
  ihave Htmp := (pointsTo_share (PosShare.mem_left_op_right q)).1 $$ Hl
  icases Htmp with ⟨Hld1, Hlk0⟩
  ihave Htmp := (pointsTo_share (PosShare.mem_left_op_right q.left)).1 $$ Hld1
  icases Htmp with ⟨Hld2, Hlk1⟩
  ihave Htmp := (pointsTo_share (PosShare.mem_left_op_right q.left.left)).1 $$ Hld2
  icases Htmp with ⟨Hld3, Hlk2⟩
  ihave Htmp := (pointsTo_share (PosShare.mem_left_op_right q.left.left.left)).1 $$ Hld3
  icases Htmp with ⟨Hld4, Hlk3⟩
  ihave Hl0 := (Entails.of_eq (show (((lV).view.loc 𝕋 ↦{q.right} m (lLoc d)) : sProp 𝕄) = ((lV).view.loc 𝕋 ↦{Transfers.shareTokN q 0} m (lLoc d)) from rfl)) $$ Hlk0
  ihave Hl1 := (Entails.of_eq (show (((lV).view.loc 𝕋 ↦{q.left.right} m (lLoc d)) : sProp 𝕄) = ((lV).view.loc 𝕋 ↦{Transfers.shareTokN q 1} m (lLoc d)) from rfl)) $$ Hlk1
  ihave Hl2 := (Entails.of_eq (show (((lV).view.loc 𝕋 ↦{q.left.left.right} m (lLoc d)) : sProp 𝕄) = ((lV).view.loc 𝕋 ↦{Transfers.shareTokN q 2} m (lLoc d)) from rfl)) $$ Hlk2
  ihave Hl3 := (Entails.of_eq (show (((lV).view.loc 𝕋 ↦{q.left.left.left.right} m (lLoc d)) : sProp 𝕄) = ((lV).view.loc 𝕋 ↦{Transfers.shareTokN q 3} m (lLoc d)) from rfl)) $$ Hlk3
  set_option sl_exec.maxSteps 30 in sl_exec
  have hin0 : ∀ x, ((xV.slice (Rect.unit (s := S1536) ![0] S128.size inb_S1536_S128_0) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_h (m := m) hpre (d := d) (L := L) 0 inb_S1536_S128_0 (fun _ => rfl)
  have hin1 : ∀ x, ((xV.slice (Rect.unit (s := S1536) ![128] S128.size inb_S1536_S128_128) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_h (m := m) hpre (d := d) (L := L) 1 inb_S1536_S128_128 (fun _ => rfl)
  have hin2 : ∀ x, ((xV.slice (Rect.unit (s := S1536) ![256] S128.size inb_S1536_S128_256) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_h (m := m) hpre (d := d) (L := L) 2 inb_S1536_S128_256 (fun _ => rfl)
  have hin3 : ∀ x, ((xV.slice (Rect.unit (s := S1536) ![384] S128.size inb_S1536_S128_384) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_h (m := m) hpre (d := d) (L := L) 3 inb_S1536_S128_384 (fun _ => rfl)
  have hin4 : ∀ x, ((xV.slice (Rect.unit (s := S1536) ![512] S128.size inb_S1536_S128_512) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 1000 :=
    list_inb_r (m := m) hpre (d := d) (L := L) 0 inb_S1536_S128_512 (fun _ => rfl)
  have hin5 : ∀ x, ((xV.slice (Rect.unit (s := S1536) ![640] S128.size inb_S1536_S128_640) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 1000 :=
    list_inb_r (m := m) hpre (d := d) (L := L) 1 inb_S1536_S128_640 (fun _ => rfl)
  have hin6 : ∀ x, ((xV.slice (Rect.unit (s := S1536) ![768] S128.size inb_S1536_S128_768) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 1000 :=
    list_inb_r (m := m) hpre (d := d) (L := L) 2 inb_S1536_S128_768 (fun _ => rfl)
  have hin7 : ∀ x, ((xV.slice (Rect.unit (s := S1536) ![896] S128.size inb_S1536_S128_896) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 1000 :=
    list_inb_r (m := m) hpre (d := d) (L := L) 3 inb_S1536_S128_896 (fun _ => rfl)
  have hin8 : ∀ x, ((xV.slice (Rect.unit (s := S1536) ![1024] S128.size inb_S1536_S128_1024) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_t (m := m) hpre (d := d) (L := L) 0 inb_S1536_S128_1024 (fun _ => rfl)
  have hin9 : ∀ x, ((xV.slice (Rect.unit (s := S1536) ![1152] S128.size inb_S1536_S128_1152) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_t (m := m) hpre (d := d) (L := L) 1 inb_S1536_S128_1152 (fun _ => rfl)
  have hin10 : ∀ x, ((xV.slice (Rect.unit (s := S1536) ![1280] S128.size inb_S1536_S128_1280) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_t (m := m) hpre (d := d) (L := L) 2 inb_S1536_S128_1280 (fun _ => rfl)
  have hin11 : ∀ x, ((xV.slice (Rect.unit (s := S1536) ![1408] S128.size inb_S1536_S128_1408) (fun _ => rfl)).view.read (Elt F) (xV.view.writes (Elt F) xV.view.junk [⟨Rect.unit ![1024] S512.size inb_S1536_S512_1024, tile_body.sl.dma0_2 m d L⟩, ⟨Rect.unit ![512] S512.size inb_S1536_S512_512, tile_body.sl.dma0_1 m d L⟩, ⟨Rect.unit ![0] S512.size inb_S1536_S512_0, tile_body.sl.dma0 m d L⟩]) x).toNat < 100000 :=
    list_inb_t (m := m) hpre (d := d) (L := L) 3 inb_S1536_S128_1408 (fun _ => rfl)
  sl_exec
  have va0 : ∀ j ∈ (aWin L 0).view.set, ((aWin L 0).view.writes (Elt F) (m (aLoc d)) [⟨Rect.whole S128x128, tile_body.sl.dma0_3 m d L f1 hin0⟩]) j = resA m d j :=
    chunk_a (m := m) hpre (d := d) (L := L) 0 y1V _ _ _ _ _ _ _ _ _ _
  ihave Ha0' := (Entails.of_eq (pointsTo_congr (va0))) $$ Ha0
  have va1 : ∀ j ∈ (aWin L 1).view.set, ((aWin L 1).view.writes (Elt F) (m (aLoc d)) [⟨Rect.whole S128x128, tile_body.sl.dma0_4 m d L f2 hin1⟩]) j = resA m d j :=
    chunk_a (m := m) hpre (d := d) (L := L) 1 y2V _ _ _ _ _ _ _ _ _ _
  ihave Ha1' := (Entails.of_eq (pointsTo_congr (va1))) $$ Ha1
  have va2 : ∀ j ∈ (aWin L 2).view.set, ((aWin L 2).view.writes (Elt F) (m (aLoc d)) [⟨Rect.whole S128x128, tile_body.sl.dma0_5 m d L f3 hin2⟩]) j = resA m d j :=
    chunk_a (m := m) hpre (d := d) (L := L) 2 y3V _ _ _ _ _ _ _ _ _ _
  ihave Ha2' := (Entails.of_eq (pointsTo_congr (va2))) $$ Ha2
  have va3 : ∀ j ∈ (aWin L 3).view.set, ((aWin L 3).view.writes (Elt F) (m (aLoc d)) [⟨Rect.whole S128x128, tile_body.sl.dma0_6 m d L f4 hin3⟩]) j = resA m d j :=
    chunk_a (m := m) hpre (d := d) (L := L) 3 y4V _ _ _ _ _ _ _ _ _ _
  ihave Ha3' := (Entails.of_eq (pointsTo_congr (va3))) $$ Ha3
  have vb0 : ∀ j ∈ (bWin L 0).view.set, ((bWin L 0).view.writes (Elt F) (m (bLoc d)) [⟨Rect.whole S128x128, tile_body.sl.dma0_7 m d L f1 hin0 hin4⟩]) j = resB m d j :=
    chunk_b (m := m) hpre (d := d) (L := L) 0 y1V _ _ _ _ _ _ _ _ _ _
  ihave Hb0' := (Entails.of_eq (pointsTo_congr (vb0))) $$ Hb0
  have vb1 : ∀ j ∈ (bWin L 1).view.set, ((bWin L 1).view.writes (Elt F) (m (bLoc d)) [⟨Rect.whole S128x128, tile_body.sl.dma0_8 m d L f2 hin1 hin5⟩]) j = resB m d j :=
    chunk_b (m := m) hpre (d := d) (L := L) 1 y2V _ _ _ _ _ _ _ _ _ _
  ihave Hb1' := (Entails.of_eq (pointsTo_congr (vb1))) $$ Hb1
  have vb2 : ∀ j ∈ (bWin L 2).view.set, ((bWin L 2).view.writes (Elt F) (m (bLoc d)) [⟨Rect.whole S128x128, tile_body.sl.dma0_9 m d L f3 hin2 hin6⟩]) j = resB m d j :=
    chunk_b (m := m) hpre (d := d) (L := L) 2 y3V _ _ _ _ _ _ _ _ _ _
  ihave Hb2' := (Entails.of_eq (pointsTo_congr (vb2))) $$ Hb2
  have vb3 : ∀ j ∈ (bWin L 3).view.set, ((bWin L 3).view.writes (Elt F) (m (bLoc d)) [⟨Rect.whole S128x128, tile_body.sl.dma0_10 m d L f4 hin3 hin7⟩]) j = resB m d j :=
    chunk_b (m := m) hpre (d := d) (L := L) 3 y4V _ _ _ _ _ _ _ _ _ _
  ihave Hb3' := (Entails.of_eq (pointsTo_congr (vb3))) $$ Hb3
  have vc0 : ∀ j ∈ (cWin L 0).view.set, ((cWin L 0).view.writes (Elt F) (m (cLoc d)) [⟨Rect.whole S128x128, tile_body.sl.dma0_11 m d L f1 hin0 hin4 hin8⟩]) j = resC m d j :=
    chunk_c (m := m) hpre (d := d) (L := L) 0 y1V _ _ _ _ _ _ _ _ _ _
  ihave Hc0' := (Entails.of_eq (pointsTo_congr (vc0))) $$ Hc0
  have vc1 : ∀ j ∈ (cWin L 1).view.set, ((cWin L 1).view.writes (Elt F) (m (cLoc d)) [⟨Rect.whole S128x128, tile_body.sl.dma0_12 m d L f2 hin1 hin5 hin9⟩]) j = resC m d j :=
    chunk_c (m := m) hpre (d := d) (L := L) 1 y2V _ _ _ _ _ _ _ _ _ _
  ihave Hc1' := (Entails.of_eq (pointsTo_congr (vc1))) $$ Hc1
  have vc2 : ∀ j ∈ (cWin L 2).view.set, ((cWin L 2).view.writes (Elt F) (m (cLoc d)) [⟨Rect.whole S128x128, tile_body.sl.dma0_13 m d L f3 hin2 hin6 hin10⟩]) j = resC m d j :=
    chunk_c (m := m) hpre (d := d) (L := L) 2 y3V _ _ _ _ _ _ _ _ _ _
  ihave Hc2' := (Entails.of_eq (pointsTo_congr (vc2))) $$ Hc2
  have vc3 : ∀ j ∈ (cWin L 3).view.set, ((cWin L 3).view.writes (Elt F) (m (cLoc d)) [⟨Rect.whole S128x128, tile_body.sl.dma0_14 m d L f4 hin3 hin7 hin11⟩]) j = resC m d j :=
    chunk_c (m := m) hpre (d := d) (L := L) 3 y4V _ _ _ _ _ _ _ _ _ _
  ihave Hc3' := (Entails.of_eq (pointsTo_congr (vc3))) $$ Hc3
  ihave Her3 := (Entails.of_eq (show (((eV).view.loc 𝕋 ↦{Transfers.shareTokN q 3} m (eLoc d)) : sProp 𝕄) = ((eV).view.loc 𝕋 ↦{q.left.left.left.right} m (eLoc d)) from rfl)) $$ He3
  ihave Hej3 := (pointsTo_share (PosShare.mem_left_op_right q.left.left.left)).2 $$ [Hed4 Her3]
  · isplitl [Hed4] <;> iassumption
  ihave Her2 := (Entails.of_eq (show (((eV).view.loc 𝕋 ↦{Transfers.shareTokN q 2} m (eLoc d)) : sProp 𝕄) = ((eV).view.loc 𝕋 ↦{q.left.left.right} m (eLoc d)) from rfl)) $$ He2
  ihave Hej2 := (pointsTo_share (PosShare.mem_left_op_right q.left.left)).2 $$ [Hej3 Her2]
  · isplitl [Hej3] <;> iassumption
  ihave Her1 := (Entails.of_eq (show (((eV).view.loc 𝕋 ↦{Transfers.shareTokN q 1} m (eLoc d)) : sProp 𝕄) = ((eV).view.loc 𝕋 ↦{q.left.right} m (eLoc d)) from rfl)) $$ He1
  ihave Hej1 := (pointsTo_share (PosShare.mem_left_op_right q.left)).2 $$ [Hej2 Her1]
  · isplitl [Hej2] <;> iassumption
  ihave Her0 := (Entails.of_eq (show (((eV).view.loc 𝕋 ↦{Transfers.shareTokN q 0} m (eLoc d)) : sProp 𝕄) = ((eV).view.loc 𝕋 ↦{q.right} m (eLoc d)) from rfl)) $$ He0
  ihave Hej0 := (pointsTo_share (PosShare.mem_left_op_right q)).2 $$ [Hej1 Her0]
  · isplitl [Hej1] <;> iassumption
  ihave Hlr3 := (Entails.of_eq (show (((lV).view.loc 𝕋 ↦{Transfers.shareTokN q 3} m (lLoc d)) : sProp 𝕄) = ((lV).view.loc 𝕋 ↦{q.left.left.left.right} m (lLoc d)) from rfl)) $$ Hl3
  ihave Hlj3 := (pointsTo_share (PosShare.mem_left_op_right q.left.left.left)).2 $$ [Hld4 Hlr3]
  · isplitl [Hld4] <;> iassumption
  ihave Hlr2 := (Entails.of_eq (show (((lV).view.loc 𝕋 ↦{Transfers.shareTokN q 2} m (lLoc d)) : sProp 𝕄) = ((lV).view.loc 𝕋 ↦{q.left.left.right} m (lLoc d)) from rfl)) $$ Hl2
  ihave Hlj2 := (pointsTo_share (PosShare.mem_left_op_right q.left.left)).2 $$ [Hlj3 Hlr2]
  · isplitl [Hlj3] <;> iassumption
  ihave Hlr1 := (Entails.of_eq (show (((lV).view.loc 𝕋 ↦{Transfers.shareTokN q 1} m (lLoc d)) : sProp 𝕄) = ((lV).view.loc 𝕋 ↦{q.left.right} m (lLoc d)) from rfl)) $$ Hl1
  ihave Hlj1 := (pointsTo_share (PosShare.mem_left_op_right q.left)).2 $$ [Hlj2 Hlr1]
  · isplitl [Hlj2] <;> iassumption
  ihave Hlr0 := (Entails.of_eq (show (((lV).view.loc 𝕋 ↦{Transfers.shareTokN q 0} m (lLoc d)) : sProp 𝕄) = ((lV).view.loc 𝕋 ↦{q.right} m (lLoc d)) from rfl)) $$ Hl0
  ihave Hlj0 := (pointsTo_share (PosShare.mem_left_op_right q)).2 $$ [Hlj1 Hlr0]
  · isplitl [Hlj1] <;> iassumption
  sl_step
  isplitl [Hh Hr Ht Hej0 Hlj0 Ha0' Ha1' Ha2' Ha3' Hb0' Hb1' Hb2' Hb3' Hc0' Hc1' Hc2' Hc3']
  · isplitl [Hh]; · iexact Hh
    isplitl [Hr]; · iexact Hr
    isplitl [Ht]; · iexact Ht
    isplitl [Hej0]; · iexact Hej0
    isplitl [Hlj0]; · iexact Hlj0
    isplitl [Ha0']; · iexact Ha0'
    isplitl [Ha1']; · iexact Ha1'
    isplitl [Ha2']; · iexact Ha2'
    isplitl [Ha3']; · iexact Ha3'
    isplitl [Hb0']; · iexact Hb0'
    isplitl [Hb1']; · iexact Hb1'
    isplitl [Hb2']; · iexact Hb2'
    isplitl [Hb3']; · iexact Hb3'
    isplitl [Hc0']; · iexact Hc0'
    isplitl [Hc1']; · iexact Hc1'
    isplitl [Hc2']; · iexact Hc2'
    iexact Hc3'
  isplitl [Hxv Hy1v Hy2v Hy3v Hy4v Hbufs]
  · isplitl [Hxv]; · iexists _; iexact Hxv
    isplitl [Hy1v]; · iexists _; iexact Hy1v
    isplitl [Hy2v]; · iexists _; iexact Hy2v
    isplitl [Hy3v]; · iexists _; iexact Hy3v
    isplitl [Hy4v]; · iexists _; iexact Hy4v
    iexact Hbufs
  isplitl [Hs0 Hs1 Hs2 Hs3 Hs4 Hs5 Hs6 Hs7 Hs8 Hs9 Hs10]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hs10
  iexists _; isplitr
  swap; · iexact HO
  ipureintro; intro p hp
  iterate 27 (rcases Finset.mem_insert.mp hp with hp | hp; · exact .inr (hp ▸ rfl))
  exact .inl hp

end Tile

end Cert.Proof.KernelIdeal

end
-- ==== Proof.KernelIdealArrays.lean ====
/-
  The eight arrays held whole are the same as what the two SparseCores are handed, beside the part of the table shares
  nobody takes: each index array is its thirty-two runs, each result array its 128 chunks, each table its read shares.
  Associativity and commutativity of the separating conjunction do the rest.
-/
import proofs.«203265_g75239237091449_cont_9to1_m_620_5_alg».proof.Proof.KernelIdealPay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The separating conjunction is commutative and associative, as equations. -/
theorem sepC (P Q : sProp 𝕄) : (iprop(P ∗ Q) : sProp 𝕄) = iprop(Q ∗ P) :=
  BI.equiv_iff.mp ⟨(sep_comm (PROP := sProp 𝕄) (P := P) (Q := Q)).1, (sep_comm (PROP := sProp 𝕄) (P := P) (Q := Q)).2⟩
theorem sepA (P Q R : sProp 𝕄) : (iprop((P ∗ Q) ∗ R) : sProp 𝕄) = iprop(P ∗ Q ∗ R) :=
  BI.equiv_iff.mp ⟨(sep_assoc (PROP := sProp 𝕄) (P := P) (Q := Q) (R := R)).1, (sep_assoc (PROP := sProp 𝕄) (P := P) (Q := Q) (R := R)).2⟩

instance sepComm : Std.Commutative (α := sProp 𝕄) (fun P Q => iprop(P ∗ Q)) := ⟨sepC⟩
instance sepAssoc : Std.Associative (α := sProp 𝕄) (fun P Q => iprop(P ∗ Q)) := ⟨sepA⟩

/-- A buffer held whole is a family of pairwise disjoint element sets covering it, held side by side. -/
theorem pts_family {ℓ : Loc nD τ sig} {T : Type} [Fintype T] (Kf : T → Finset (Idx ℓ))
    (hd : ∀ t ∈ (Finset.univ : Finset T), ∀ t' ∈ (Finset.univ : Finset T), t ≠ t' → Disjoint (Kf t) (Kf t'))
    (hc : (Finset.univ : Finset T).biUnion Kf = Finset.univ) (q : PosShare TreeShare) (f : Buf (Elt F) ℓ) :
    (ℓ ↦{q} f : sProp 𝕄) = bigSep Finset.univ fun t => ℓ ↦[Kf t]{q} f :=
  (congrArg (fun S => pointsTo ℓ S q f) hc.symm).trans (pointsTo_biUnion Finset.univ Kf hd)

theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

/-- A table held whole is its read shares: what no SparseCore takes, and per SparseCore what no subcore takes and the
    subcores' shares. -/
theorem tbl_split {ℓ : Loc nD τ sig} (f : Buf (Elt F) ℓ) :
    (ℓ ↦{fullShare} f : sProp 𝕄) = iprop((ℓ ↦{qTop (F := F)} f)
      ∗ bigSep Finset.univ fun c => iprop((ℓ ↦{qCrest (F := F) c} f) ∗ bigSep Finset.univ fun i => ℓ ↦{qT (F := F) c i} f)) := by
  have h1 := Transfers.pointsTo_toks (nD := nD) (τ := τ) (sig := sig) (Ix := HIx 1) (Val := Elt F) (Name := ℕ) (U := UU) (Lvl := ℕ) (ℓ := ℓ) (S := Finset.univ) (f := f) fullShare ((K (F := F)).nCore 0)
  rw [BI.equiv_iff.mp ⟨h1.1, h1.2⟩]
  congr 1
  refine bigSep_congr fun c _ => ?_
  have h2 := Transfers.pointsTo_toks (nD := nD) (τ := τ) (sig := sig) (Ix := HIx 1) (Val := Elt F) (Name := ℕ) (U := UU) (Lvl := ℕ) (ℓ := ℓ) (S := Finset.univ) (f := f) (qC (F := F) c) ((K (F := F)).nSub 0)
  exact BI.equiv_iff.mp ⟨h2.1, h2.2⟩

theorem h_split (d : Dev nD) (f : Buf (Elt F) (hLoc d)) :
    (hLoc d ↦{fullShare} f : sProp 𝕄) = bigSep Finset.univ fun c => bigSep Finset.univ fun i => ((hWin (Lof (F := F) c i)).view.loc (V d (cK (Lof (F := F) c i)) (jK (Lof (F := F) c i))) ↦[(hWin (Lof (F := F) c i)).view.set]{fullShare} f) := by
  refine ((pts_family (ℓ := hLoc d) (idxSet (F := F)) idxSet_disjoint idxSet_cover fullShare f).trans (bigSep_congr fun p _ => ?_)).trans
    (bigSep_univ_prod (fun p : TI (F := F) => (((hWin (Lof (F := F) p.1 p.2)).view.loc (V d (cK (Lof (F := F) p.1 p.2)) (jK (Lof (F := F) p.1 p.2))) ↦[(hWin (Lof (F := F) p.1 p.2)).view.set]{fullShare} f) : sProp 𝕄)))
  exact congrArg (fun S => pointsTo (hLoc d) S fullShare f) (View.set_slice_whole _ _).symm

theorem r_split (d : Dev nD) (f : Buf (Elt F) (rLoc d)) :
    (rLoc d ↦{fullShare} f : sProp 𝕄) = bigSep Finset.univ fun c => bigSep Finset.univ fun i => ((rWin (Lof (F := F) c i)).view.loc (V d (cK (Lof (F := F) c i)) (jK (Lof (F := F) c i))) ↦[(rWin (Lof (F := F) c i)).view.set]{fullShare} f) := by
  refine ((pts_family (ℓ := rLoc d) (idxSet (F := F)) idxSet_disjoint idxSet_cover fullShare f).trans (bigSep_congr fun p _ => ?_)).trans
    (bigSep_univ_prod (fun p : TI (F := F) => (((rWin (Lof (F := F) p.1 p.2)).view.loc (V d (cK (Lof (F := F) p.1 p.2)) (jK (Lof (F := F) p.1 p.2))) ↦[(rWin (Lof (F := F) p.1 p.2)).view.set]{fullShare} f) : sProp 𝕄)))
  exact congrArg (fun S => pointsTo (rLoc d) S fullShare f) (View.set_slice_whole _ _).symm

theorem t_split (d : Dev nD) (f : Buf (Elt F) (tLoc d)) :
    (tLoc d ↦{fullShare} f : sProp 𝕄) = bigSep Finset.univ fun c => bigSep Finset.univ fun i => ((tWin (Lof (F := F) c i)).view.loc (V d (cK (Lof (F := F) c i)) (jK (Lof (F := F) c i))) ↦[(tWin (Lof (F := F) c i)).view.set]{fullShare} f) := by
  refine ((pts_family (ℓ := tLoc d) (idxSet (F := F)) idxSet_disjoint idxSet_cover fullShare f).trans (bigSep_congr fun p _ => ?_)).trans
    (bigSep_univ_prod (fun p : TI (F := F) => (((tWin (Lof (F := F) p.1 p.2)).view.loc (V d (cK (Lof (F := F) p.1 p.2)) (jK (Lof (F := F) p.1 p.2))) ↦[(tWin (Lof (F := F) p.1 p.2)).view.set]{fullShare} f) : sProp 𝕄)))
  exact congrArg (fun S => pointsTo (tLoc d) S fullShare f) (View.set_slice_whole _ _).symm

theorem e_split (d : Dev nD) (f : Buf (Elt F) (eLoc d)) :
    (eLoc d ↦{fullShare} f : sProp 𝕄) = iprop((eLoc d ↦{qTop (F := F)} f)
      ∗ bigSep Finset.univ fun c => iprop((eLoc d ↦{qCrest (F := F) c} f)
        ∗ bigSep Finset.univ fun i => ((eV).view.loc (V d (cK (Lof (F := F) c i)) (jK (Lof (F := F) c i))) ↦{qT (F := F) c i} f))) :=
  tbl_split f

theorem l_split (d : Dev nD) (f : Buf (Elt F) (lLoc d)) :
    (lLoc d ↦{fullShare} f : sProp 𝕄) = iprop((lLoc d ↦{qTop (F := F)} f)
      ∗ bigSep Finset.univ fun c => iprop((lLoc d ↦{qCrest (F := F) c} f)
        ∗ bigSep Finset.univ fun i => ((lV).view.loc (V d (cK (Lof (F := F) c i)) (jK (Lof (F := F) c i))) ↦{qT (F := F) c i} f))) :=
  tbl_split f

theorem a_split (d : Dev nD) (f : Buf (Elt F) (aLoc d)) :
    (aLoc d ↦{fullShare} f : sProp 𝕄) = bigSep Finset.univ fun c => bigSep Finset.univ fun i =>
      iprop(((aWin (Lof (F := F) c i) 0).view.loc (V d (cK (Lof (F := F) c i)) (jK (Lof (F := F) c i))) ↦[(aWin (Lof (F := F) c i) 0).view.set]{fullShare} f) ∗ ((aWin (Lof (F := F) c i) 1).view.loc (V d (cK (Lof (F := F) c i)) (jK (Lof (F := F) c i))) ↦[(aWin (Lof (F := F) c i) 1).view.set]{fullShare} f)
        ∗ ((aWin (Lof (F := F) c i) 2).view.loc (V d (cK (Lof (F := F) c i)) (jK (Lof (F := F) c i))) ↦[(aWin (Lof (F := F) c i) 2).view.set]{fullShare} f) ∗ ((aWin (Lof (F := F) c i) 3).view.loc (V d (cK (Lof (F := F) c i)) (jK (Lof (F := F) c i))) ↦[(aWin (Lof (F := F) c i) 3).view.set]{fullShare} f)) := by
  refine (((pts_family (ℓ := aLoc d) (outSet (F := F)) outSet_disjoint outSet_cover fullShare f).trans (bigSep_congr fun p _ => ?_)).trans
    (bigSep_univ_prod (fun p : TI (F := F) × Fin 4 => (((aWin (Lof (F := F) p.1.1 p.1.2) p.2).view.loc (V d (cK (Lof (F := F) p.1.1 p.1.2)) (jK (Lof (F := F) p.1.1 p.1.2))) ↦[(aWin (Lof (F := F) p.1.1 p.1.2) p.2).view.set]{fullShare} f) : sProp 𝕄)))).trans ?_
  · exact congrArg (fun S => pointsTo (aLoc d) S fullShare f) (View.set_slice_whole _ _).symm
  · refine (bigSep_congr fun p _ => bigSep_fin4 _).trans
      (bigSep_univ_prod (fun p : TI (F := F) => (iprop(((aWin (Lof (F := F) p.1 p.2) 0).view.loc (V d (cK (Lof (F := F) p.1 p.2)) (jK (Lof (F := F) p.1 p.2))) ↦[(aWin (Lof (F := F) p.1 p.2) 0).view.set]{fullShare} f) ∗ ((aWin (Lof (F := F) p.1 p.2) 1).view.loc (V d (cK (Lof (F := F) p.1 p.2)) (jK (Lof (F := F) p.1 p.2))) ↦[(aWin (Lof (F := F) p.1 p.2) 1).view.set]{fullShare} f)
        ∗ ((aWin (Lof (F := F) p.1 p.2) 2).view.loc (V d (cK (Lof (F := F) p.1 p.2)) (jK (Lof (F := F) p.1 p.2))) ↦[(aWin (Lof (F := F) p.1 p.2) 2).view.set]{fullShare} f) ∗ ((aWin (Lof (F := F) p.1 p.2) 3).view.loc (V d (cK (Lof (F := F) p.1 p.2)) (jK (Lof (F := F) p.1 p.2))) ↦[(aWin (Lof (F := F) p.1 p.2) 3).view.set]{fullShare} f)) : sProp 𝕄)))

theorem b_split (d : Dev nD) (f : Buf (Elt F) (bLoc d)) :
    (bLoc d ↦{fullShare} f : sProp 𝕄) = bigSep Finset.univ fun c => bigSep Finset.univ fun i =>
      iprop(((bWin (Lof (F := F) c i) 0).view.loc (V d (cK (Lof (F := F) c i)) (jK (Lof (F := F) c i))) ↦[(bWin (Lof (F := F) c i) 0).view.set]{fullShare} f) ∗ ((bWin (Lof (F := F) c i) 1).view.loc (V d (cK (Lof (F := F) c i)) (jK (Lof (F := F) c i))) ↦[(bWin (Lof (F := F) c i) 1).view.set]{fullShare} f)
        ∗ ((bWin (Lof (F := F) c i) 2).view.loc (V d (cK (Lof (F := F) c i)) (jK (Lof (F := F) c i))) ↦[(bWin (Lof (F := F) c i) 2).view.set]{fullShare} f) ∗ ((bWin (Lof (F := F) c i) 3).view.loc (V d (cK (Lof (F := F) c i)) (jK (Lof (F := F) c i))) ↦[(bWin (Lof (F := F) c i) 3).view.set]{fullShare} f)) := by
  refine (((pts_family (ℓ := bLoc d) (outSet (F := F)) outSet_disjoint outSet_cover fullShare f).trans (bigSep_congr fun p _ => ?_)).trans
    (bigSep_univ_prod (fun p : TI (F := F) × Fin 4 => (((bWin (Lof (F := F) p.1.1 p.1.2) p.2).view.loc (V d (cK (Lof (F := F) p.1.1 p.1.2)) (jK (Lof (F := F) p.1.1 p.1.2))) ↦[(bWin (Lof (F := F) p.1.1 p.1.2) p.2).view.set]{fullShare} f) : sProp 𝕄)))).trans ?_
  · exact congrArg (fun S => pointsTo (bLoc d) S fullShare f) (View.set_slice_whole _ _).symm
  · refine (bigSep_congr fun p _ => bigSep_fin4 _).trans
      (bigSep_univ_prod (fun p : TI (F := F) => (iprop(((bWin (Lof (F := F) p.1 p.2) 0).view.loc (V d (cK (Lof (F := F) p.1 p.2)) (jK (Lof (F := F) p.1 p.2))) ↦[(bWin (Lof (F := F) p.1 p.2) 0).view.set]{fullShare} f) ∗ ((bWin (Lof (F := F) p.1 p.2) 1).view.loc (V d (cK (Lof (F := F) p.1 p.2)) (jK (Lof (F := F) p.1 p.2))) ↦[(bWin (Lof (F := F) p.1 p.2) 1).view.set]{fullShare} f)
        ∗ ((bWin (Lof (F := F) p.1 p.2) 2).view.loc (V d (cK (Lof (F := F) p.1 p.2)) (jK (Lof (F := F) p.1 p.2))) ↦[(bWin (Lof (F := F) p.1 p.2) 2).view.set]{fullShare} f) ∗ ((bWin (Lof (F := F) p.1 p.2) 3).view.loc (V d (cK (Lof (F := F) p.1 p.2)) (jK (Lof (F := F) p.1 p.2))) ↦[(bWin (Lof (F := F) p.1 p.2) 3).view.set]{fullShare} f)) : sProp 𝕄)))

theorem c_split (d : Dev nD) (f : Buf (Elt F) (cLoc d)) :
    (cLoc d ↦{fullShare} f : sProp 𝕄) = bigSep Finset.univ fun c => bigSep Finset.univ fun i =>
      iprop(((cWin (Lof (F := F) c i) 0).view.loc (V d (cK (Lof (F := F) c i)) (jK (Lof (F := F) c i))) ↦[(cWin (Lof (F := F) c i) 0).view.set]{fullShare} f) ∗ ((cWin (Lof (F := F) c i) 1).view.loc (V d (cK (Lof (F := F) c i)) (jK (Lof (F := F) c i))) ↦[(cWin (Lof (F := F) c i) 1).view.set]{fullShare} f)
        ∗ ((cWin (Lof (F := F) c i) 2).view.loc (V d (cK (Lof (F := F) c i)) (jK (Lof (F := F) c i))) ↦[(cWin (Lof (F := F) c i) 2).view.set]{fullShare} f) ∗ ((cWin (Lof (F := F) c i) 3).view.loc (V d (cK (Lof (F := F) c i)) (jK (Lof (F := F) c i))) ↦[(cWin (Lof (F := F) c i) 3).view.set]{fullShare} f)) := by
  refine (((pts_family (ℓ := cLoc d) (outSet (F := F)) outSet_disjoint outSet_cover fullShare f).trans (bigSep_congr fun p _ => ?_)).trans
    (bigSep_univ_prod (fun p : TI (F := F) × Fin 4 => (((cWin (Lof (F := F) p.1.1 p.1.2) p.2).view.loc (V d (cK (Lof (F := F) p.1.1 p.1.2)) (jK (Lof (F := F) p.1.1 p.1.2))) ↦[(cWin (Lof (F := F) p.1.1 p.1.2) p.2).view.set]{fullShare} f) : sProp 𝕄)))).trans ?_
  · exact congrArg (fun S => pointsTo (cLoc d) S fullShare f) (View.set_slice_whole _ _).symm
  · refine (bigSep_congr fun p _ => bigSep_fin4 _).trans
      (bigSep_univ_prod (fun p : TI (F := F) => (iprop(((cWin (Lof (F := F) p.1 p.2) 0).view.loc (V d (cK (Lof (F := F) p.1 p.2)) (jK (Lof (F := F) p.1 p.2))) ↦[(cWin (Lof (F := F) p.1 p.2) 0).view.set]{fullShare} f) ∗ ((cWin (Lof (F := F) p.1 p.2) 1).view.loc (V d (cK (Lof (F := F) p.1 p.2)) (jK (Lof (F := F) p.1 p.2))) ↦[(cWin (Lof (F := F) p.1 p.2) 1).view.set]{fullShare} f)
        ∗ ((cWin (Lof (F := F) p.1 p.2) 2).view.loc (V d (cK (Lof (F := F) p.1 p.2)) (jK (Lof (F := F) p.1 p.2))) ↦[(cWin (Lof (F := F) p.1 p.2) 2).view.set]{fullShare} f) ∗ ((cWin (Lof (F := F) p.1 p.2) 3).view.loc (V d (cK (Lof (F := F) p.1 p.2)) (jK (Lof (F := F) p.1 p.2))) ↦[(cWin (Lof (F := F) p.1 p.2) 3).view.set]{fullShare} f)) : sProp 𝕄)))

variable (m : (ℓ : Loc nD τ sig) → Buf (Elt F) ℓ)

/-- The eight arrays, whole: the inputs as the launch memory has them, the results at `fa`, `fb`, `fc`. -/
abbrev arrays (d : Dev nD) (fa : Buf (Elt F) (aLoc d)) (fb : Buf (Elt F) (bLoc d)) (fc : Buf (Elt F) (cLoc d)) : sProp 𝕄 :=
  iprop((hLoc d ↦{fullShare} m (hLoc d)) ∗ (rLoc d ↦{fullShare} m (rLoc d)) ∗ (tLoc d ↦{fullShare} m (tLoc d))
    ∗ (eLoc d ↦{fullShare} m (eLoc d)) ∗ (lLoc d ↦{fullShare} m (lLoc d))
    ∗ (aLoc d ↦{fullShare} fa) ∗ (bLoc d ↦{fullShare} fb) ∗ (cLoc d ↦{fullShare} fc))

/-- The part of the table shares no SparseCore takes. -/
abbrev topPay (d : Dev nD) : sProp 𝕄 := iprop((eLoc d ↦{qTop (F := F)} m (eLoc d)) ∗ (lLoc d ↦{qTop (F := F)} m (lLoc d)))

theorem arrays_eq (d : Dev nD) (fa : Buf (Elt F) (aLoc d)) (fb : Buf (Elt F) (bLoc d)) (fc : Buf (Elt F) (cLoc d)) :
    arrays m d fa fb fc
      = iprop((bigSep Finset.univ fun c => iprop((bigSep Finset.univ fun i => tilePay m d (Lof (F := F) c i) (qT (F := F) c i) fa fb fc) ∗ restPay m d c))
          ∗ topPay m d) := by
  unfold arrays topPay
  rw [h_split, r_split, t_split, e_split, l_split, a_split, b_split, c_split]
  simp only [restPay, tilePay, bigSep_sep']
  ac_rfl

end Cert.Proof.KernelIdeal

end
-- ==== Proof.KernelIdealLaunch.lean ====
/-
  The launch: each subcore's task is the body's run at its grid point; a SparseCore's operands are its subcores' and the
  part of its table shares none of them takes; the TensorCore hands the two SparseCores the eight arrays, divided, and
  takes them back with the three result arrays holding the looked-up rows. The final memory then reads: the five
  argument arrays as at the launch, each result array the lookup of its table by its index array.
-/
import proofs.«203265_g75239237091449_cont_9to1_m_620_5_alg».proof.Proof.KernelIdealBody
import proofs.«203265_g75239237091449_cont_9to1_m_620_5_alg».proof.Proof.KernelIdealArrays

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The obligation -/

theorem defs₀_vector (c : Fin τ.nSC) (s : Fin τ.nSub) :
    defs₀ (F := F) (.scVector c s) 0 ()
      = SparseCore.onTile hcore0 hsub0 (fun c s => cc0_k (coordsV c s) hV (Memref.isWhole_whole _) rV (Memref.isWhole_whole _) tV (Memref.isWhole_whole _) eV (Memref.isWhole_whole _) lV (Memref.isWhole_whole _) aV (Memref.isWhole_whole _) bV (Memref.isWhole_whole _) cV (Memref.isWhole_whole _) xV (Memref.isWhole_whole _) y1V (Memref.isWhole_whole _) y2V (Memref.isWhole_whole _) y3V (Memref.isWhole_whole _) y4V (Memref.isWhole_whole _) cc0_scratch5 cc0_scratch6 cc0_scratch7 cc0_scratch8 cc0_scratch9 cc0_scratch10 cc0_scratch11 cc0_scratch12 cc0_scoped0 cc0_scoped1 cc0_scoped2) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre (qT (F := F) c i) O W hO).trans (wp_mono frame _ _ fun _ => obl_post)

/-! ## A SparseCore's operands are its subcores' -/

theorem vecSplit : (K (F := F)).VecSplit' (P m) 0 := by
  intro d c
  show iprop((bigSep Finset.univ fun i => goPay m d c i) ∗ restPay m d c) ⊢ |={Set.univ}=> iprop(
      (bigSep Finset.univ fun i => goPay m d c i)
      ∗ ((bigSep Finset.univ fun i => tdPay m d c i) -∗ iprop((bigSep Finset.univ fun i => tdPay m d c i) ∗ restPay m d c)))
  iintro ⟨Hgo, Hrest⟩; imodintro
  isplitl [Hgo]; · iexact Hgo
  iintro Htd
  isplitl [Htd]; · iexact Htd
  iexact Hrest

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((hLoc d ↦{fullShare} W main_arg0) ∗ (rLoc d ↦{fullShare} W main_arg1) ∗ (tLoc d ↦{fullShare} W main_arg2)
      ∗ (eLoc d ↦{fullShare} W main_arg3) ∗ (lLoc d ↦{fullShare} W main_arg4)
      ∗ (aLoc d ↦{fullShare} W main_v0_0) ∗ (bLoc d ↦{fullShare} W main_v0_1) ∗ (cLoc d ↦{fullShare} W main_v0_2)) := by
  unfold unscopedBufs
  rw [show (Finset.univ.filter fun b : Ref sig .tc => ¬ b.isScoped) = {main_arg0, main_arg1, main_arg2, main_arg3, main_arg4, main_v0_0, main_v0_1, main_v0_2} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the TensorCore ends with: the eight arrays whole, the results looked up. -/
abbrev FIN (d : Dev nD) : sProp 𝕄 := arrays m d (resA m d) (resB m d) (resC m d)

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, Harr, -, -⟩, -⟩
  ihave Harr' := (Entails.of_eq (arrays_eq m d (m (aLoc d)) (m (bLoc d)) (m (cLoc d)))) $$ Harr
  icases Harr' with ⟨Hst0, Htop⟩
  iapply ((K (F := F)).wp_run (D (F := F)) 𝒱 (EH := EH) (P := P m) κ d 0) $$ [Hst Hst0 Htop]
  isplitr; · iexact Hctx
  isplitl [Hst]; · iexact Hst
  isplitl [Hst0]; · iexact Hst0
  iintro ⟨Hst, Hdn⟩
  ihave Hfin := (Entails.of_eq (arrays_eq m d (resA m d) (resB m d) (resC m d)).symm) $$ [Hdn Htop]
  · isplitl [Hdn]; · iexact Hdn
    iexact Htop
  imodintro
  isplitl [Hst]; · iexact Hst
  iexact Hfin

def fq (d : Dev nD) (s' : Phys nD τ sig (Elt F)) : Prop :=
  s'.mem.mem (hLoc d) = m (hLoc d) ∧ s'.mem.mem (rLoc d) = m (rLoc d) ∧ s'.mem.mem (tLoc d) = m (tLoc d)
    ∧ s'.mem.mem (eLoc d) = m (eLoc d) ∧ s'.mem.mem (lLoc d) = m (lLoc d)
    ∧ s'.mem.mem (aLoc d) = resA m d ∧ s'.mem.mem (bLoc d) = resB m d ∧ s'.mem.mem (cLoc d) = resC m d

set_option maxRecDepth 16384 in
theorem hfin (d : Dev nD) (s' : Phys nD τ sig (Elt F)) : iprop(FIN m d ∗ SI s') ⊢ (⌜fq m d s'⌝ : sProp 𝕄) := by
  iintro ⟨⟨Hh, Hr, Ht, He, Hl, Ha, Hb, Hc⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%h0, HSI, -⟩
  ihave H := (persistent_entails_right (SI_pointsTo_agree (st := s') (ℓ := rLoc d) (I := Finset.univ) (q := fullShare) (f := m (rLoc d)))) $$ [HSI Hr]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h3, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h4, HSI, -⟩
  ihave H := (persistent_entails_right (SI_pointsTo_agree (st := s') (ℓ := aLoc d) (I := Finset.univ) (q := fullShare) (f := resA m d))) $$ [HSI Ha]
  · isplitl [HSI] <;> iassumption
  icases H with ⟨%h5, HSI, -⟩
  ihave H := (persistent_entails_right (SI_pointsTo_agree (st := s') (ℓ := bLoc d) (I := Finset.univ) (q := fullShare) (f := resB m d))) $$ [HSI Hb]
  · isplitl [HSI] <;> iassumption
  icases H with ⟨%h6, HSI, -⟩
  ihave H := (SI_pointsTo_agree (st := s') (ℓ := cLoc d) (I := Finset.univ) (q := fullShare) (f := resC m d)) $$ [HSI Hc]
  · isplitl [HSI] <;> iassumption
  icases H with %h7
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i)⟩

/-! ## The program's run -/

/-- The final memory: each result array is the lookup of its table by its index array, and the five argument arrays are
    as at the launch. -/
def QC : PUnit × MemSt nD τ sig (Elt F) → Prop := fun r => ∀ c : Dev nD,
  r.2.mem (aLoc c) = resA m c ∧ r.2.mem (bLoc c) = resB m c ∧ r.2.mem (cLoc c) = resC m c
    ∧ r.2.mem (hLoc c) = m (hLoc c) ∧ r.2.mem (rLoc c) = m (rLoc c) ∧ r.2.mem (tLoc c) = m (tLoc c)
    ∧ r.2.mem (eLoc c) = m (eLoc c) ∧ r.2.mem (lLoc c) = m (lLoc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).2.2.2.2.2.1, (h c).2.2.2.2.2.2.1, (h c).2.2.2.2.2.2.2, (h c).1, (h c).2.1, (h c).2.2.1, (h c).2.2.2.1, (h c).2.2.2.2.1⟩)

end Cert.Proof.KernelIdeal

end
-- ==== Proof.KernelIdealPre.lean ====
/-
  The precondition gives what the run asks of the launch memory: where the printed predicate is all ones on every device,
  every index word names a row of its table.
-/
import proofs.«203265_g75239237091449_cont_9to1_m_620_5_alg».proof.Defs
import proofs.«203265_g75239237091449_cont_9to1_m_620_5_alg».proof.Proof.PreRanges
import proofs.«203265_g75239237091449_cont_9to1_m_620_5_alg».proof.Proof.KernelIdealPay

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

theorem ok_of_pre (m : (ℓ : Loc nD τ sig) → Buf (Elt F) ℓ)
    (h : ∀ c : Dev nD, Cert.Pre_input_domain.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = fun _ => 1#1) : PreOK m :=
  fun d => Cert.PreRanges.of_pre _ _ _ _ _ (h d)

end Cert.Proof.KernelIdeal

end
-- ==== Proof.RefTake.lean ====
/-
  One lookup of the reference, as mathematics. The reference computes `table[idx]` as: the index made non-negative (a
  negative word has the table's height added), a mask saying whether the result lies in `[0, height − 1]`, a gather of
  whole rows whose start index is clamped into that range, and a final select between the gathered row and a filler.
  With every index word below the height, the first select keeps the word, the mask holds everywhere, the clamp is the
  identity, and the result is the table's row that the word names: the lookup of Spec.lean.
-/
import Idealize.ShloMosaic.Lib.ValueIdx
import Idealize.ShloMosaic.Lib.IdealHost
import Idealize.ShloMosaic.Lib.Pipeline.Value
import Idealize.ShloMosaic.PureOps.Reduce
import Idealize.ShloMosaic.Lib.Affine
import proofs.«203265_g75239237091449_cont_9to1_m_620_5_alg».proof.Proof.Spec

noncomputable section

namespace Cert.RefTake

open Idealize.ShloMosaic Idealize.ShloMosaic.ValueIdx

/-! ## A row gather read at an index -/

section Gather
variable {α : Type} {N : ℕ}

/-- The dimension numbers of a gather of whole rows: operand `[N, 128]`, start indices `[16384, 1]` (one row number per
    result row), result `[16384, 128]`; axis 0 of the operand collapsed and named by the start index, axis 1 the offset. -/
abbrev rowDims (N : ℕ)
    (wf : GatherDims.WF ⟨2, ![N, 128]⟩ ⟨2, ![16384, 1]⟩ ⟨2, ![16384, 128]⟩ [1] [0] [] [0] [] 1 ![1, 128]) :
    GatherDims ⟨2, ![N, 128]⟩ ⟨2, ![16384, 1]⟩ ⟨2, ![16384, 128]⟩ where
  offsetDims := [1]
  collapsedSliceDims := [0]
  operandBatchingDims := []
  startIndicesBatchingDims := []
  startIndexMap := [0]
  indexVectorDim := 1
  sliceSizes := ![1, 128]
  wf := wf

/-- The row gather at `(r, k)`: the operand's row at the start index `idx[r, 0]`, read signed and clamped into
    `[0, N − 1]`, column `k`. -/
theorem gather_row_apply {w : ℕ} (hN : 0 < N)
    (wf : GatherDims.WF ⟨2, ![N, 128]⟩ ⟨2, ![16384, 1]⟩ ⟨2, ![16384, 128]⟩ [1] [0] [] [0] [] 1 ![1, 128])
    (x : (⟨2, ![N, 128]⟩ : Shape).Idx → α) (idx : IVec ⟨2, ![16384, 1]⟩ w) (y : (⟨2, ![16384, 128]⟩ : Shape).Idx) :
    Host.gather (rowDims N wf) x idx y
      = x (ix2 ⟨min (idx (ix2 (y 0) 0)).toInt.toNat (N - 1), by omega⟩ (y 1)) := by
  unfold Host.gather
  congr 1
  funext a
  refine Fin.ext ?_
  show (rowDims N wf).start y idx a + (rowDims N wf).batchCoord y a + (rowDims N wf).offCoord y a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    split
    next ha =>
      refine congrArg₂ min (congrArg (fun z => (idx z).toInt.toNat) ?_) rfl
      funext b; refine Fin.ext ?_
      match b with
      | ⟨0, _⟩ => rfl
      | ⟨1, _⟩ => rfl
    next ha => exact absurd (List.mem_singleton.mpr rfl) ha
  | ⟨1, h1⟩ =>
    have hne : (⟨1, h1⟩ : Fin (⟨2, ![N, 128]⟩ : Shape).rank) ∉ ([0] : List (Fin (⟨2, ![N, 128]⟩ : Shape).rank)) :=
      fun h => absurd (congrArg Fin.val (List.mem_singleton.mp h)) Nat.one_ne_zero
    have hs : (rowDims N wf).start y idx ⟨1, h1⟩ = 0 := by
      unfold GatherDims.start
      exact dif_neg hne
    rw [hs]
    simp only [Nat.zero_add]
    unfold GatherDims.offCoord
    split
    next ha => rfl
    next ha => exact absurd ((GatherDims.mem_sKept _ _).mpr ⟨hne, List.not_mem_nil⟩) ha

end Gather

/-! ## One lookup of the reference, as a pure term -/

section Take

abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x128 : Shape := ⟨2, ![16384, 128]⟩

theorem bcast_S_S16384 : S_.BroadcastsInDim S16384 (![] : Fin 0 → Fin S16384.rank) := by decide
theorem bcast_S16384_S16384x1_0 : S16384.BroadcastsInDim S16384x1 (![0] : Fin 1 → Fin S16384x1.rank) := by decide
theorem bcast_S_S16384x1 : S_.BroadcastsInDim S16384x1 (![] : Fin 0 → Fin S16384x1.rank) := by decide
theorem bcast_S1_S1x1_1 : S1.BroadcastsInDim S1x1 (![1] : Fin 1 → Fin S1x1.rank) := by decide
theorem bcast_S1x1_S16384x1_0_1 : S1x1.BroadcastsInDim S16384x1 (![0, 1] : Fin 2 → Fin S16384x1.rank) := by decide
theorem reducesTo_S16384x1_S16384_d1 : S16384x1.ReducesTo [1] S16384 := by decide
theorem h_S_ : 0 < S_.numel := by decide
theorem bcast_S16384_S16384x128_0 : S16384.BroadcastsInDim S16384x128 (![0] : Fin 1 → Fin S16384x128.rank) := by decide
theorem bcast_S_S16384x128 : S_.BroadcastsInDim S16384x128 (![] : Fin 0 → Fin S16384x128.rank) := by decide

variable {F : FTy → Type} [FloatOps F] {N : ℕ}

/-- The index made non-negative: a negative word has the height `nW` added, any other is kept. -/
def nonneg (nW : BitVec 32) (idx : IVec S16384 32) : IVec S16384 32 :=
  select (cmpi .slt idx (broadcastInDim S16384 ![] bcast_S_S16384 (constantI S_ 32 0#32)))
    (addi idx (broadcastInDim S16384 ![] bcast_S_S16384 (constantI S_ 32 nW))) idx

/-- The indices as a column of start indices, one per result row. -/
def col (i : IVec S16384 32) : IVec S16384x1 32 := broadcastInDim S16384x1 ![0] bcast_S16384_S16384x1_0 i

/-- The range mask: per row, whether its start index lies in `[0, mW]`, reduced over the unit axis. -/
def mask (mW : BitVec 32) (i : IVec S16384x1 32) : IVec S16384 1 :=
  Host.reduce IntOp.andi
    (andi (cmpi .sge i (broadcastInDim S16384x1 ![] bcast_S_S16384x1 (constantI S_ 32 0#32)))
      (cmpi .sle i (broadcastInDim S16384x1 ![0, 1] bcast_S1x1_S16384x1_0_1
        (broadcastInDim S1x1 ![1] bcast_S1_S1x1_1 (constantI S1 32 mW)))))
    (constantI S_ 1 1#1) reducesTo_S16384x1_S16384_d1 h_S_

/-- One lookup as the reference computes it: the gathered rows where the mask holds, the filler elsewhere. -/
def takeTerm (N : ℕ) (nW mW : BitVec 32) (g : GatherDims ⟨2, ![N, 128]⟩ S16384x1 S16384x128)
    (tbl : FVec F ⟨2, ![N, 128]⟩ .f32) (idx : IVec S16384 32) : FVec F S16384x128 .f32 :=
  select (broadcastInDim S16384x128 ![0] bcast_S16384_S16384x128_0 (mask mW (col (nonneg nW idx))))
    (Host.gather g tbl (col (nonneg nW idx)))
    (broadcastInDim S16384x128 ![] bcast_S_S16384x128 (constant S_ .f32 0x7FC00000#32))

/-- A word below `N ≤ 2^31` is non-negative as a signed integer, at most `N − 1`, and its own clamp into `[0, N − 1]`. -/
theorem word_facts (v mW : BitVec 32) (hN : N < 2 ^ 31) (hm : mW.toNat = N - 1) (hv : v.toNat < N) :
    IntOp.cmpi .slt v 0#32 = 0#1 ∧ IntOp.cmpi .sge v 0#32 = 1#1 ∧ IntOp.cmpi .sle v mW = 1#1
      ∧ min v.toInt.toNat (N - 1) = v.toNat := by
  have hvi : v.toInt = (v.toNat : ℤ) := by rw [BitVec.toInt_eq_toNat_cond]; split_ifs <;> omega
  have hmi : mW.toInt = (mW.toNat : ℤ) := by rw [BitVec.toInt_eq_toNat_cond]; split_ifs <;> omega
  have h0 : (0#32 : BitVec 32).toInt = 0 := by decide
  refine ⟨eq_zero_of_ne_one fun e => ?_, IntOp.cmpi_sge.2 ?_, IntOp.cmpi_sle.2 ?_, ?_⟩
  · have := IntOp.cmpi_slt.1 e; omega
  · omega
  · omega
  · rw [hvi, Int.toNat_natCast]; omega

theorem nonneg_apply (nW mW : BitVec 32) (idx : IVec S16384 32) (hN : N < 2 ^ 31) (hm : mW.toNat = N - 1) (j : S16384.Idx)
    (hv : (idx j).toNat < N) : nonneg nW idx j = idx j := by
  show Scalar.select (IntOp.cmpi .slt (idx j) 0#32) _ (idx j) = idx j
  rw [(word_facts (idx j) mW hN hm hv).1]
  exact select_zero _ _

theorem col_apply (i : IVec S16384 32) (y : S16384x1.Idx) : col i y = i (ix1 (y 0)) :=
  Idealize.ShloMosaic.broadcastInDim_apply _ _ _ y (ix1 (y 0)) (fun a => by match a with | ⟨0, _⟩ => rfl)

theorem rowMask_apply (mk : IVec S16384 1) (y : S16384x128.Idx) :
    broadcastInDim S16384x128 ![0] bcast_S16384_S16384x128_0 mk y = mk (ix1 (y 0)) :=
  Idealize.ShloMosaic.broadcastInDim_apply _ _ _ y (ix1 (y 0)) (fun a => by match a with | ⟨0, _⟩ => rfl)

theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l fun n hn => h n (List.mem_cons_of_mem _ hn)

/-- A reduce by `and` from 1 over an array of ones is 1. -/
theorem reduce_andi_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_one x _ fun n _ => hx n

theorem mask_apply (mW : BitVec 32) (i : IVec S16384x1 32) (j : S16384.Idx)
    (hi : ∀ y, IntOp.cmpi .sge (i y) 0#32 = 1#1 ∧ IntOp.cmpi .sle (i y) mW = 1#1) : mask mW i j = 1#1 := by
  unfold mask
  refine reduce_andi_one _ _ _ _ j rfl fun y => ?_
  show IntOp.andi (IntOp.cmpi .sge (i y) 0#32) (IntOp.cmpi .sle (i y) mW) = 1#1
  rw [(hi y).1, (hi y).2]; decide

/-- IN RANGE, THE REFERENCE'S LOOKUP IS THE LOOKUP: every index word below the table's height `N ≤ 2^31`, the mask holds
    everywhere, the clamp of the gather is the identity, and the result is the table's rows the words name. -/
theorem takeTerm_eq_lookup [NeZero N] (hN : N < 2 ^ 31) (nW mW : BitVec 32) (hm : mW.toNat = N - 1)
    (wf : GatherDims.WF ⟨2, ![N, 128]⟩ ⟨2, ![16384, 1]⟩ ⟨2, ![16384, 128]⟩ [1] [0] [] [0] [] 1 ![1, 128])
    (tbl : FVec F ⟨2, ![N, 128]⟩ .f32) (idx : IVec S16384 32) (h : ∀ j, (idx j).toNat < N) :
    takeTerm N nW mW (rowDims N wf) tbl idx = Cert.Lookup.lookup tbl idx := by
  funext y
  have hc : ∀ y' : S16384x1.Idx, col (nonneg nW idx) y' = idx (ix1 (y' 0)) := fun y' =>
    (col_apply _ y').trans (nonneg_apply nW mW idx hN hm _ (h _))
  have hw := word_facts (idx (ix1 (y 0))) mW hN hm (h _)
  unfold takeTerm
  rw [select_apply, rowMask_apply,
    mask_apply mW _ _ (fun y' => by rw [hc y']; exact ⟨(word_facts _ mW hN hm (h _)).2.1, (word_facts _ mW hN hm (h _)).2.2.1⟩),
    select_one, gather_row_apply (NeZero.pos N)]
  refine congrArg tbl (congrArg₂ ix2 (Fin.ext ?_) rfl)
  show min (col (nonneg nW idx) (ix2 (y 0) 0)).toInt.toNat (N - 1) = (Cert.Lookup.rowOf N (idx (ix1 (y 0)))).val
  rw [hc, Cert.Lookup.rowOf_val _ (h _)]
  exact hw.2.2.2

end Take

end Cert.RefTake

end
-- ==== Proof.RefRun.lean ====
/-
  The reference's run at the ideal instance. @main is three calls of a lookup function, each of which calls a
  select function: unfolded, sixty-nine host operations in a straight line over the calls' buffer records. The run of a
  straight line leaves in every buffer the fold of the operations over the launch contents; at each result buffer that
  fold is one lookup term of RefTake.lean over the table's and the indices' launch contents, which in range is the
  lookup of Spec.lean; no operation writes an argument.
-/
import proofs.«203265_g75239237091449_cont_9to1_m_620_5_alg».proof.ReferenceIdeal
import proofs.«203265_g75239237091449_cont_9to1_m_620_5_alg».proof.Proof.Gen.ReferenceIdeal
import Idealize.ShloMosaic.Lib.StableHlo.Run
import proofs.«203265_g75239237091449_cont_9to1_m_620_5_alg».proof.Proof.RefTake

noncomputable section

namespace Cert.ReferenceIdeal.RefValue

open Cert.ReferenceIdeal Cert.ReferenceIdeal.Gen Idealize.ShloMosaic Idealize.ShloMosaic.TcCoe Idealize.SL.Sem Idealize.ShloMosaic.StableHlo

open Cert.RefTake (takeTerm rowDims takeTerm_eq_lookup)

variable {F : FTy → Type} [FloatOps F]

/-- The twenty-three operations of one call of the first lookup function, over its arguments and the call's record. -/
abbrev takeOps (arg0 : TRef sig ⟨S100000x128, .f32⟩) (arg1 : TRef sig ⟨S16384, .i32⟩) (φ : fn_take.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 100000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 99999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S100000x128_S16384x1_S16384x128_1_0_n_n_0_1_1128 x i),
    TRef.unary φ.v12 φ.v14 (broadcastInDim S16384x128 ![0] bcast_S16384_S16384x128_0),
    TRef.nullary φ.cst (constant S_ .f32 0x7FC00000#32),
    TRef.unary φ.cst φ.v15 (broadcastInDim S16384x128 ![] bcast_S_S16384x128),
    TRef.ternary φ.v14 φ.v13 φ.v15 φ.v16 select ]

/-- The same for the second lookup function (the table of a thousand rows). -/
abbrev take0Ops (arg0 : TRef sig ⟨S1000x128, .f32⟩) (arg1 : TRef sig ⟨S16384, .i32⟩) (φ : fn_take_0.Bufs) : List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 1000#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 999#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S1000x128_S16384x1_S16384x128_1_0_n_n_0_1_1128 x i),
    TRef.unary φ.v12 φ.v14 (broadcastInDim S16384x128 ![0] bcast_S16384_S16384x128_0),
    TRef.nullary φ.cst (constant S_ .f32 0x7FC00000#32),
    TRef.unary φ.cst φ.v15 (broadcastInDim S16384x128 ![] bcast_S_S16384x128),
    TRef.ternary φ.v14 φ.v13 φ.v15 φ.v16 select ]

theorem take_eq (arg0 : TRef sig ⟨S100000x128, .f32⟩) (arg1 : TRef sig ⟨S16384, .i32⟩) (φ : fn_take.Bufs) :
    fn_take.body (F := F) arg0 arg1 φ = seq (takeOps arg0 arg1 φ) := by
  simp only [fn_take.body, fn_where.body, seq, bind_assoc, pure_bind]

theorem take0_eq (arg0 : TRef sig ⟨S1000x128, .f32⟩) (arg1 : TRef sig ⟨S16384, .i32⟩) (φ : fn_take_0.Bufs) :
    fn_take_0.body (F := F) arg0 arg1 φ = seq (take0Ops arg0 arg1 φ) := by
  simp only [fn_take_0.body, fn_where.body, seq, bind_assoc, pure_bind]

/-- @main's sixty-nine operations in order, the calls unfolded. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 100000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg3) main_call0.v5 main_call0.v13 (fun x i => Host.gather gather_S100000x128_S16384x1_S16384x128_1_0_n_n_0_1_1128 x i),
    TRef.unary main_call0.v12 main_call0.v14 (broadcastInDim S16384x128 ![0] bcast_S16384_S16384x128_0),
    TRef.nullary main_call0.cst (constant S_ .f32 0x7FC00000#32),
    TRef.unary main_call0.cst main_call0.v15 (broadcastInDim S16384x128 ![] bcast_S_S16384x128),
    TRef.ternary main_call0.v14 main_call0.v13 main_call0.v15 main_call0.v16 select,
    TRef.nullary main_call1.c (constantI S_ 32 0#32),
    TRef.unary main_call1.c main_call1.v0 (broadcastInDim S16384 ![] bcast_S_S16384),
    TRef.binary (.of main_arg1) main_call1.v0 main_call1.v1 (cmpi .slt),
    TRef.nullary main_call1.c_0 (constantI S_ 32 1000#32),
    TRef.unary main_call1.c_0 main_call1.v2 (broadcastInDim S16384 ![] bcast_S_S16384),
    TRef.binary (.of main_arg1) main_call1.v2 main_call1.v3 addi,
    TRef.ternary main_call1.v1 main_call1.v3 (.of main_arg1) main_call1.call0.v0 select,
    TRef.unary main_call1.call0.v0 main_call1.v5 (broadcastInDim S16384x1 ![0] bcast_S16384_S16384x1_0),
    TRef.nullary main_call1.c_1 (constantI S1 32 999#32),
    TRef.nullary main_call1.c_2 (constantI S_ 32 0#32),
    TRef.unary main_call1.c_2 main_call1.v6 (broadcastInDim S16384x1 ![] bcast_S_S16384x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S16384x1 ![0, 1] bcast_S1x1_S16384x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x1_S16384_d1 h_S_),
    TRef.binary (.of main_arg4) main_call1.v5 main_call1.v13 (fun x i => Host.gather gather_S1000x128_S16384x1_S16384x128_1_0_n_n_0_1_1128 x i),
    TRef.unary main_call1.v12 main_call1.v14 (broadcastInDim S16384x128 ![0] bcast_S16384_S16384x128_0),
    TRef.nullary main_call1.cst (constant S_ .f32 0x7FC00000#32),
    TRef.unary main_call1.cst main_call1.v15 (broadcastInDim S16384x128 ![] bcast_S_S16384x128),
    TRef.ternary main_call1.v14 main_call1.v13 main_call1.v15 main_call1.v16 select,
    TRef.nullary main_call2.c (constantI S_ 32 0#32),
    TRef.unary main_call2.c main_call2.v0 (broadcastInDim S16384 ![] bcast_S_S16384),
    TRef.binary (.of main_arg2) main_call2.v0 main_call2.v1 (cmpi .slt),
    TRef.nullary main_call2.c_0 (constantI S_ 32 100000#32),
    TRef.unary main_call2.c_0 main_call2.v2 (broadcastInDim S16384 ![] bcast_S_S16384),
    TRef.binary (.of main_arg2) main_call2.v2 main_call2.v3 addi,
    TRef.ternary main_call2.v1 main_call2.v3 (.of main_arg2) main_call2.call0.v0 select,
    TRef.unary main_call2.call0.v0 main_call2.v5 (broadcastInDim S16384x1 ![0] bcast_S16384_S16384x1_0),
    TRef.nullary main_call2.c_1 (constantI S1 32 99999#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg3) main_call2.v5 main_call2.v13 (fun x i => Host.gather gather_S100000x128_S16384x1_S16384x128_1_0_n_n_0_1_1128 x i),
    TRef.unary main_call2.v12 main_call2.v14 (broadcastInDim S16384x128 ![0] bcast_S16384_S16384x128_0),
    TRef.nullary main_call2.cst (constant S_ .f32 0x7FC00000#32),
    TRef.unary main_call2.cst main_call2.v15 (broadcastInDim S16384x128 ![] bcast_S_S16384x128),
    TRef.ternary main_call2.v14 main_call2.v13 main_call2.v15 main_call2.v16 select ]

theorem ops_eq : (ops : List (HloOp τ sig (Elt F))) = takeOps (.of main_arg3) (.of main_arg0) main_call0
    ++ (take0Ops (.of main_arg4) (.of main_arg1) main_call1 ++ (takeOps (.of main_arg3) (.of main_arg2) main_call2 ++ [])) := rfl

theorem main_eq (c : Dev nD) : main (F := F) c = seq ops := by
  rw [ops_eq, seq_append, seq_append, seq_append]
  unfold main
  rw [take_eq, take0_eq, take_eq]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub ..⟩

/-- Every weakly fair execution of @main terminates, each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the fold leaves in each result and each argument -/

attribute [local irreducible] Host.reduce Host.gather in
theorem v0_eq (V : Valuation τ sig (Elt F)) : after ops V (main_v0 : DevRef τ sig)
    = takeTerm 100000 100000#32 99999#32 gather_S100000x128_S16384x1_S16384x128_1_0_n_n_0_1_1128
        (V (main_arg3 : DevRef τ sig)) (V (main_arg0 : DevRef τ sig)) := by
  after_results_simp
  rfl

attribute [local irreducible] Host.reduce Host.gather in
theorem v1_eq (V : Valuation τ sig (Elt F)) : after ops V (main_v1 : DevRef τ sig)
    = takeTerm 1000 1000#32 999#32 gather_S1000x128_S16384x1_S16384x128_1_0_n_n_0_1_1128
        (V (main_arg4 : DevRef τ sig)) (V (main_arg1 : DevRef τ sig)) := by
  after_results_simp
  rfl

attribute [local irreducible] Host.reduce Host.gather in
theorem v2_eq (V : Valuation τ sig (Elt F)) : after ops V (main_v2 : DevRef τ sig)
    = takeTerm 100000 100000#32 99999#32 gather_S100000x128_S16384x1_S16384x128_1_0_n_n_0_1_1128
        (V (main_arg3 : DevRef τ sig)) (V (main_arg2 : DevRef τ sig)) := by
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

theorem arg2_eq (V : Valuation τ sig (Elt F)) : after ops V (main_arg2 : DevRef τ sig) = V (main_arg2 : DevRef τ sig) := by
  after_results_simp

theorem arg3_eq (V : Valuation τ sig (Elt F)) : after ops V (main_arg3 : DevRef τ sig) = V (main_arg3 : DevRef τ sig) := by
  after_results_simp

theorem arg4_eq (V : Valuation τ sig (Elt F)) : after ops V (main_arg4 : DevRef τ sig) = V (main_arg4 : DevRef τ sig) := by
  after_results_simp

theorem gather100000_eq : gather_S100000x128_S16384x1_S16384x128_1_0_n_n_0_1_1128 = rowDims 100000 gather_S100000x128_S16384x1_S16384x128_1_0_n_n_0_1_1128_wf := rfl
theorem gather1000_eq : gather_S1000x128_S16384x1_S16384x128_1_0_n_n_0_1_1128 = rowDims 1000 gather_S1000x128_S16384x1_S16384x128_1_0_n_n_0_1_1128_wf := rfl

/-! ## The run -/

/-- At the ideal instance, from any memory with zero counters whose index words lie below their tables' heights: every
    weakly fair execution of @main terminates with each result the lookup of its table at its indices, and the five
    arguments unchanged. -/
theorem run (m : (ℓ : Loc nD τ sig) → Buf (Elt Ideal) ℓ) (ρ : Dev nD → PrngReg)
    (hh : ∀ (c : Dev nD) j, (m ((c.tc : Thread nD τ).loc main_arg0) j).toNat < 100000)
    (hr : ∀ (c : Dev nD) j, (m ((c.tc : Thread nD τ).loc main_arg1) j).toNat < 1000)
    (ht : ∀ (c : Dev nD) j, (m ((c.tc : Thread nD τ).loc main_arg2) j).toNat < 100000) :
    θ_run (defs (F := Ideal)) (onTc (τ := τ) (main (F := Ideal))) ⟨m, fun _ => 0, ρ⟩ (fun r => ∀ c : Dev nD,
        r.2.mem ((c.tc : Thread nD τ).loc main_v0) = Cert.Lookup.lookup (n := 100000) (m ((c.tc : Thread nD τ).loc main_arg3)) (m ((c.tc : Thread nD τ).loc main_arg0))
      ∧ r.2.mem ((c.tc : Thread nD τ).loc main_v1) = Cert.Lookup.lookup (n := 1000) (m ((c.tc : Thread nD τ).loc main_arg4)) (m ((c.tc : Thread nD τ).loc main_arg1))
      ∧ r.2.mem ((c.tc : Thread nD τ).loc main_v2) = Cert.Lookup.lookup (n := 100000) (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c main_v0).trans ((v0_eq _).trans (by
        rw [gather100000_eq]; exact takeTerm_eq_lookup (by decide) _ _ (by decide) _ _ _ (hh c))),
      (h c main_v1).trans ((v1_eq _).trans (by
        rw [gather1000_eq]; exact takeTerm_eq_lookup (by decide) _ _ (by decide) _ _ _ (hr c))),
      (h c main_v2).trans ((v2_eq _).trans (by
        rw [gather100000_eq]; exact takeTerm_eq_lookup (by decide) _ _ (by decide) _ _ _ (ht c))),
      (h c main_arg0).trans (arg0_eq _), (h c main_arg1).trans (arg1_eq _), (h c main_arg2).trans (arg2_eq _),
      (h c main_arg3).trans (arg3_eq _), (h c main_arg4).trans (arg4_eq _)⟩)
    (run_main m ρ)

end Cert.ReferenceIdeal.RefValue

end
-- ==== Proof.RefPre.lean ====
/-
  The reference's precondition gives the ranges its run assumes: every index word below the height of its table.
-/
import proofs.«203265_g75239237091449_cont_9to1_m_620_5_alg».proof.Defs
import proofs.«203265_g75239237091449_cont_9to1_m_620_5_alg».proof.Proof.PreRanges

namespace Cert.ReferenceIdeal.RefValue

open Cert.ReferenceIdeal Idealize.ShloMosaic Idealize.SL.Sem

theorem ranges_of_pre (m : (ℓ : Loc nD τ sig) → Buf (Elt Ideal) ℓ) (h : Cert.Pre_ReferenceIdeal m) :
    (∀ (c : Dev nD) j, (m ((c.tc : Thread nD τ).loc main_arg0) j).toNat < 100000)
    ∧ (∀ (c : Dev nD) j, (m ((c.tc : Thread nD τ).loc main_arg1) j).toNat < 1000)
    ∧ (∀ (c : Dev nD) j, (m ((c.tc : Thread nD τ).loc main_arg2) j).toNat < 100000) :=
  ⟨fun c => (Cert.PreRanges.of_pre _ _ _ _ _ (h c)).1, fun c => (Cert.PreRanges.of_pre _ _ _ _ _ (h c)).2.1,
    fun c => (Cert.PreRanges.of_pre _ _ _ _ _ (h c)).2.2⟩

end Cert.ReferenceIdeal.RefValue
-- ==== Proof.lean ====
/-
  The certificate. The kernel: thirty-two vector subcores of the two SparseCores each take 512 consecutive rows of the
  batch; a subcore copies its words of the three index arrays into its scratch and then, 128 rows at a time and four
  row buffers deep, gathers the rows the words name out of the entity table (head and tail indices) or the relation
  table and copies them out to the same rows of the matching result array. So every row `r` of a result array is the
  row of its table that the `r`-th word of its index array names: the lookup. The reference is three `take`s; with every
  index word below its table's height (the precondition) the negative-index branch, the clamp and the out-of-range
  filler of `take` are all idle, and each result is the same lookup. Pure data movement: no arithmetic on the table
  entries is done on either side, so nothing about finiteness is used.

  The frames of the two kernel programs are their run (the SparseCore launch theorem over the subcore's symbolic run) with
  the results' values dropped; the reference's frame is its run likewise. The idealization rewrote nothing, so
  `preserves` is trivial.
-/
import proofs.«203265_g75239237091449_cont_9to1_m_620_5_alg».proof.Defs
import proofs.«203265_g75239237091449_cont_9to1_m_620_5_alg».proof.Proof.Gen.Kernel
import proofs.«203265_g75239237091449_cont_9to1_m_620_5_alg».proof.Proof.Gen.Kernel.Skeleton
import proofs.«203265_g75239237091449_cont_9to1_m_620_5_alg».proof.Proof.Gen.KernelIdeal
import proofs.«203265_g75239237091449_cont_9to1_m_620_5_alg».proof.Proof.Gen.KernelIdeal.Skeleton
import proofs.«203265_g75239237091449_cont_9to1_m_620_5_alg».proof.Proof.Gen.ReferenceIdeal
import proofs.«203265_g75239237091449_cont_9to1_m_620_5_alg».proof.Proof.Gen.Pre_input_domain
import proofs.«203265_g75239237091449_cont_9to1_m_620_5_alg».proof.Proof.KernelLaunch
import proofs.«203265_g75239237091449_cont_9to1_m_620_5_alg».proof.Proof.KernelPre
import proofs.«203265_g75239237091449_cont_9to1_m_620_5_alg».proof.Proof.KernelIdealLaunch
import proofs.«203265_g75239237091449_cont_9to1_m_620_5_alg».proof.Proof.KernelIdealPre
import proofs.«203265_g75239237091449_cont_9to1_m_620_5_alg».proof.Proof.RefRun
import proofs.«203265_g75239237091449_cont_9to1_m_620_5_alg».proof.Proof.RefPre
import Idealize.ShloMosaic.Adequacy
import Idealize.ShloMosaic.Init

noncomputable section

namespace Cert.Proof

open Idealize.ShloMosaic Idealize.SL.Sem

/-- The word-level kernel runs to the end and leaves its arguments alone. -/
theorem frame_k : Cert.frame_Kernel := fun m ρ hpre =>
  (θ_run Cert.Kernel.defs _ _).mono (fun _ h c => (h c).2.2.2)
    (Cert.Proof.Kernel.run_main (F := Bits) m ρ (Cert.Proof.Kernel.ok_of_pre m fun c => hpre c))

/-- So does the idealized kernel. -/
theorem frame_ki : Cert.frame_KernelIdeal := fun m ρ hpre =>
  (θ_run Cert.KernelIdeal.defs _ _).mono (fun _ h c => (h c).2.2.2)
    (Cert.Proof.KernelIdeal.run_main (F := Ideal) m ρ (Cert.Proof.KernelIdeal.ok_of_pre m fun c => hpre c))

/-- And the reference. -/
theorem frame_ri : Cert.frame_ReferenceIdeal := fun m ρ hpre =>
  (θ_run Cert.ReferenceIdeal.defs _ _).mono (fun _ h c => (h c).2.2.2)
    (Cert.ReferenceIdeal.RefValue.run m ρ (Cert.ReferenceIdeal.RefValue.ranges_of_pre m hpre).1
      (Cert.ReferenceIdeal.RefValue.ranges_of_pre m hpre).2.1 (Cert.ReferenceIdeal.RefValue.ranges_of_pre m hpre).2.2)

/-- Both programs end with each result array the lookup of its table by its index array, of arguments that agree. -/
theorem algebraic : Cert.algebraic_KernelIdeal_ReferenceIdeal := by
  intro m ρ m' ρ' hpre hagree
  have hk := Cert.Proof.KernelIdeal.ok_of_pre (F := Ideal) m fun c => hpre c
  refine ⟨fun c => Cert.Proof.KernelIdeal.resA m c, fun c => Cert.Proof.KernelIdeal.resB m c, fun c => Cert.Proof.KernelIdeal.resC m c,
    (θ_run Cert.KernelIdeal.defs _ _).mono (fun _ h c => h c) (Cert.Proof.KernelIdeal.run_main (F := Ideal) m ρ hk), ?_⟩
  have hh : ∀ (c : Dev Cert.ReferenceIdeal.nD) j, (m' ((c.tc : Thread Cert.ReferenceIdeal.nD Cert.ReferenceIdeal.τ).loc Cert.ReferenceIdeal.main_arg0) j).toNat < 100000 :=
    fun c j => by rw [(hagree c).1]; exact (hk c).1 j
  have hr : ∀ (c : Dev Cert.ReferenceIdeal.nD) j, (m' ((c.tc : Thread Cert.ReferenceIdeal.nD Cert.ReferenceIdeal.τ).loc Cert.ReferenceIdeal.main_arg1) j).toNat < 1000 :=
    fun c j => by rw [(hagree c).2.1]; exact (hk c).2.1 j
  have ht : ∀ (c : Dev Cert.ReferenceIdeal.nD) j, (m' ((c.tc : Thread Cert.ReferenceIdeal.nD Cert.ReferenceIdeal.τ).loc Cert.ReferenceIdeal.main_arg2) j).toNat < 100000 :=
    fun c j => by rw [(hagree c).2.2.1]; exact (hk c).2.2 j
  refine (θ_run Cert.ReferenceIdeal.defs _ _).mono (fun _ h c => ⟨(h c).1.trans ?_, (h c).2.1.trans ?_, (h c).2.2.1.trans ?_, (h c).2.2.2⟩)
    (Cert.ReferenceIdeal.RefValue.run m' ρ' hh hr ht)
  · rw [(hagree c).2.2.2.1, (hagree c).1]
  · rw [(hagree c).2.2.2.2, (hagree c).2.1]
  · rw [(hagree c).2.2.2.1, (hagree c).2.2.1]

theorem claim : Cert.Claim := ⟨Cert.Kernel.Gen.facts, Cert.KernelIdeal.Gen.facts, Cert.ReferenceIdeal.Gen.facts, Cert.Pre_input_domain.Gen.facts,
  frame_k, frame_ki, frame_ri, trivial, algebraic⟩

end Cert.Proof

end
